-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x1600000 : Shape := ⟨2, ![2, 1600000]⟩
abbrev S1600000 : Shape := ⟨1, ![1600000]⟩
abbrev S512x64 : Shape := ⟨2, ![512, 64]⟩
abbrev S64 : Shape := ⟨1, ![64]⟩
abbrev S64x64 : Shape := ⟨2, ![64, 64]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S64 .f32) (main_arg13 : FVec F S64x64 .f32) (main_arg14 : FVec F S64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg13
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_v63 main_v67

def fn_part2 {F : FTy → Type} [FloatOps F] (main_arg8 : FVec F S64 .f32) (main_arg9 : FVec F S64x64 .f32) (main_arg10 : FVec F S64 .f32) (main_arg11 : FVec F S64x64 .f32) (main_arg12 : FVec F S64 .f32) (main_arg13 : FVec F S64x64 .f32) (main_arg14 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg11
  let main_cst_18 : FVec F S_ .f32 := constant S_ .f32 0x7F800000#32
  let main_v50 : FVec F S64x64 .f32 := broadcastInDim S64x64 ![] bcast_S_S64x64 main_cst_18
  fn_part3 (F := F) main_arg12 main_arg13 main_arg14 main_v48 main_v49 main_v50

def fn_part1 {F : FTy → Type} [FloatOps F] (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) (main_arg13 : FVec F S64x64 .f32) (main_arg14 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S50000x512 .f32) (main_arg1 : IVec S2x1600000 32) (main_arg2 : FVec F S1600000 .f32) (main_arg3 : FVec F S512x64 .f32) (main_arg4 : FVec F S64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) (main_arg13 : FVec F S64x64 .f32) (main_arg14 : FVec F S64 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S512x64 .f32 := Host.absf main_arg3
  let main_cst_2 : FVec F S_ .f32 := constant S_ .f32 0x7F800000#32
  let main_v10 : FVec F S512x64 .f32 := broadcastInDim S512x64 ![] bcast_S_S512x64 main_cst_2
  let main_v11 : IVec S512x64 1 := cmpf .olt main_v9 main_v10
  let main_c_3 : IVec S_ 1 := constantI S_ 1 1#1
  let main_v12 : IVec S_ 1 := (fun x v => Host.reduce IntOp.andi x v reducesTo_S512x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_v13 main_v16
-- ==== Kernel.lean ====
abbrev S50000x512 : Shape := ⟨2, ![50000, 512]⟩
abbrev S2x1600000 : Shape := ⟨2, ![2, 1600000]⟩
abbrev S1600000 : Shape := ⟨1, ![1600000]⟩
abbrev S512x64 : Shape := ⟨2, ![512, 64]⟩
abbrev S64 : Shape := ⟨1, ![64]⟩
abbrev S64x64 : Shape := ⟨2, ![64, 64]⟩
abbrev S50000x64 : Shape := ⟨2, ![50000, 64]⟩
abbrev S2000x512 : Shape := ⟨2, ![2000, 512]⟩
abbrev S2000x64 : Shape := ⟨2, ![2000, 64]⟩
abbrev S50000 : Shape := ⟨1, ![50000]⟩
abbrev S1x1600000 : Shape := ⟨2, ![1, 1600000]⟩
abbrev S1650000 : Shape := ⟨1, ![1650000]⟩
abbrev S_ : Shape := ⟨0, ![]⟩
abbrev S1650000x1 : Shape := ⟨2, ![1650000, 1]⟩
abbrev S1650000x64 : Shape := ⟨2, ![1650000, 64]⟩
abbrev S1x64 : Shape := ⟨2, ![1, 64]⟩

abbrev nBuf : Space → Nat
  | .hbm => 139
  | .vmem => 44
  | .smem => 0
  | _ => 0

abbrev hbmTy0_0 (i : Nat) : BufTy := match i % 128 with
  | 0 => ⟨S50000x512, .f32⟩
  | 1 => ⟨S2x1600000, .i32⟩
  | 2 => ⟨S1600000, .f32⟩
  | 3 => ⟨S512x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S64x64, .f32⟩
  | 12 => ⟨S64, .f32⟩
  | 13 => ⟨S64x64, .f32⟩
  | 14 => ⟨S64, .f32⟩
  | 15 => ⟨S50000x64, .f32⟩
  | 16 => ⟨S50000, .i32⟩
  | 17 => ⟨S1x1600000, .i32⟩
  | 18 => ⟨S1600000, .i32⟩
  | 19 => ⟨S1650000, .i32⟩
  | 20 => ⟨S1x1600000, .i32⟩
  | 21 => ⟨S1600000, .i32⟩
  | 22 => ⟨S1650000, .i32⟩
  | 23 => ⟨S_, .f32⟩
  | 24 => ⟨S50000, .f32⟩
  | 25 => ⟨S1650000, .f32⟩
  | 26 => ⟨S_, .f32⟩
  | 27 => ⟨S50000, .f32⟩
  | 28 => ⟨S1650000x1, .i32⟩
  | 29 => ⟨S50000, .f32⟩
  | 30 => ⟨S_, .f32⟩
  | 31 => ⟨S50000, .f32⟩
  | 32 => ⟨S50000, .i1⟩
  | 33 => ⟨S50000, .f32⟩
  | 34 => ⟨S_, .f32⟩
  | 35 => ⟨S_, .f32⟩
  | 36 => ⟨S50000, .f32⟩
  | 37 => ⟨S50000, .f32⟩
  | 38 => ⟨S_, .i32⟩
  | 39 => ⟨S1650000, .i32⟩
  | 40 => ⟨S1650000, .i1⟩
  | 41 => ⟨S_, .i32⟩
  | 42 => ⟨S1650000, .i32⟩
  | 43 => ⟨S1650000, .i32⟩
  | 44 => ⟨S1650000, .i32⟩
  | 45 => ⟨S1650000x1, .i32⟩
  | 46 => ⟨S1650000, .f32⟩
  | 47 => ⟨S1650000, .f32⟩
  | 48 => ⟨S_, .i32⟩
  | 49 => ⟨S1650000, .i32⟩
  | 50 => ⟨S1650000, .i1⟩
  | 51 => ⟨S_, .i32⟩
  | 52 => ⟨S1650000, .i32⟩
  | 53 => ⟨S1650000, .i32⟩
  | 54 => ⟨S1650000, .i32⟩
  | 55 => ⟨S1650000x1, .i32⟩
  | 56 => ⟨S1650000, .f32⟩
  | 57 => ⟨S1650000, .f32⟩
  | 58 => ⟨S_, .i32⟩
  | 59 => ⟨S1650000, .i32⟩
  | 60 => ⟨S1650000, .i1⟩
  | 61 => ⟨S_, .i32⟩
  | 62 => ⟨S1650000, .i32⟩
  | 63 => ⟨S1650000, .i32⟩
  | 64 => ⟨S1650000, .i32⟩
  | 65 => ⟨S1650000x1, .i32⟩
  | 66 => ⟨S1650000x64, .f32⟩
  | 67 => ⟨S1650000x1, .f32⟩
  | 68 => ⟨S1650000x64, .f32⟩
  | 69 => ⟨S1650000x64, .f32⟩
  | 70 => ⟨S_, .f32⟩
  | 71 => ⟨S50000x64, .f32⟩
  | 72 => ⟨S1650000x1, .i32⟩
  | 73 => ⟨S50000x64, .f32⟩
  | 74 => ⟨S50000x64, .f32⟩
  | 75 => ⟨S50000x64, .f32⟩
  | 76 => ⟨S50000, .i32⟩
  | 77 => ⟨S1x1600000, .i32⟩
  | 78 => ⟨S1600000, .i32⟩
  | 79 => ⟨S1650000, .i32⟩
  | 80 => ⟨S1x1600000, .i32⟩
  | 81 => ⟨S1600000, .i32⟩
  | 82 => ⟨S1650000, .i32⟩
  | 83 => ⟨S_, .f32⟩
  | 84 => ⟨S50000, .f32⟩
  | 85 => ⟨S1650000, .f32⟩
  | 86 => ⟨S_, .f32⟩
  | 87 => ⟨S50000, .f32⟩
  | 88 => ⟨S1650000x1, .i32⟩
  | 89 => ⟨S50000, .f32⟩
  | 90 => ⟨S_, .f32⟩
  | 91 => ⟨S50000, .f32⟩
  | 92 => ⟨S50000, .i1⟩
  | 93 => ⟨S50000, .f32⟩
  | 94 => ⟨S_, .f32⟩
  | 95 => ⟨S_, .f32⟩
  | 96 => ⟨S50000, .f32⟩
  | 97 => ⟨S50000, .f32⟩
  | 98 => ⟨S_, .i32⟩
  | 99 => ⟨S1650000, .i32⟩
  | 100 => ⟨S1650000, .i1⟩
  | 101 => ⟨S_, .i32⟩
  | 102 => ⟨S1650000, .i32⟩
  | 103 => ⟨S1650000, .i32⟩
  | 104 => ⟨S1650000, .i32⟩
  | 105 => ⟨S1650000x1, .i32⟩
  | 106 => ⟨S1650000, .f32⟩
  | 107 => ⟨S1650000, .f32⟩
  | 108 => ⟨S_, .i32⟩
  | 109 => ⟨S1650000, .i32⟩
  | 110 => ⟨S1650000, .i1⟩
  | 111 => ⟨S_, .i32⟩
  | 112 => ⟨S1650000, .i32⟩
  | 113 => ⟨S1650000, .i32⟩
  | 114 => ⟨S1650000, .i32⟩
  | 115 => ⟨S1650000x1, .i32⟩
  | 116 => ⟨S1650000, .f32⟩
  | 117 => ⟨S1650000, .f32⟩
  | 118 => ⟨S_, .i32⟩
  | 119 => ⟨S1650000, .i32⟩
  | 120 => ⟨S1650000, .i1⟩
  | 121 => ⟨S_, .i32⟩
  | 122 => ⟨S1650000, .i32⟩
  | 123 => ⟨S1650000, .i32⟩
  | 124 => ⟨S1650000, .i32⟩
  | 125 => ⟨S1650000x1, .i32⟩
  | 126 => ⟨S1650000x64, .f32⟩
  | 127 => ⟨S1650000x1, .f32⟩
  | _ => ⟨S50000x512, .f32⟩

abbrev hbmTy0_1 (i : Nat) : BufTy := match i % 128 with
  | 0 => ⟨S1650000x64, .f32⟩
  | 1 => ⟨S1650000x64, .f32⟩
  | 2 => ⟨S_, .f32⟩
  | 3 => ⟨S50000x64, .f32⟩
  | 4 => ⟨S1650000x1, .i32⟩
  | 5 => ⟨S50000x64, .f32⟩
  | 6 => ⟨S50000x64, .f32⟩
  | 7 => ⟨S50000x64, .f32⟩
  | 8 => ⟨S50000x64, .f32⟩
  | 9 => ⟨S50000x64, .f32⟩
  | 10 => ⟨S50000x64, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | .local _ .vmem, ⟨0, _⟩ => ⟨S2000x512, .f32⟩
  | .local _ .vmem, ⟨1, _⟩ => ⟨S2000x512, .f32⟩
  | .local _ .vmem, ⟨2, _⟩ => ⟨S512x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S64x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S64x64, .f32⟩
  | .local _ .vmem, ⟨23, _⟩ => ⟨S64, .f32⟩
  | .local _ .vmem, ⟨24, _⟩ => ⟨S2000x64, .f32⟩
  | .local _ .vmem, ⟨25, _⟩ => ⟨S2000x64, .f32⟩
  | .local _ .vmem, ⟨26, _⟩ => ⟨S2000x64, .f32⟩
  | .local _ .vmem, ⟨27, _⟩ => ⟨S2000x64, .f32⟩
  | .local _ .vmem, ⟨28, _⟩ => ⟨S64x64, .f32⟩
  | .local _ .vmem, ⟨29, _⟩ => ⟨S64, .f32⟩
  | .local _ .vmem, ⟨30, _⟩ => ⟨S2000x64, .f32⟩
  | .local _ .vmem, ⟨31, _⟩ => ⟨S2000x64, .f32⟩
  | .local _ .vmem, ⟨32, _⟩ => ⟨S2000x64, .f32⟩
  | .local _ .vmem, ⟨33, _⟩ => ⟨S2000x64, .f32⟩
  | .local _ .vmem, ⟨34, _⟩ => ⟨S64x64, .f32⟩
  | .local _ .vmem, ⟨35, _⟩ => ⟨S64, .f32⟩
  | .local _ .vmem, ⟨36, _⟩ => ⟨S2000x64, .f32⟩
  | .local _ .vmem, ⟨37, _⟩ => ⟨S2000x64, .f32⟩
  | .local _ .vmem, ⟨38, _⟩ => ⟨S2000x64, .f32⟩
  | .local _ .vmem, ⟨39, _⟩ => ⟨S2000x64, .f32⟩
  | .local _ .vmem, ⟨40, _⟩ => ⟨S64x64, .f32⟩
  | .local _ .vmem, ⟨41, _⟩ => ⟨S64, .f32⟩
  | .local _ .vmem, ⟨42, _⟩ => ⟨S2000x64, .f32⟩
  | .local _ .vmem, ⟨43, _⟩ => ⟨S2000x64, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_v9 : Ref sig .tc := ⟨.hbm, 25, rfl⟩
abbrev main_cst_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_1 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_2 : Ref sig .tc := ⟨.hbm, 34, rfl⟩
abbrev main_call0_v0 : Ref sig .tc := ⟨.hbm, 35, rfl⟩
abbrev main_call0_v1 : Ref sig .tc := ⟨.hbm, 36, rfl⟩
abbrev main_v16 : Ref sig .tc := ⟨.hbm, 37, rfl⟩
abbrev main_c : Ref sig .tc := ⟨.hbm, 38, rfl⟩
abbrev main_v17 : Ref sig .tc := ⟨.hbm, 39, rfl⟩
abbrev main_v18 : Ref sig .tc := ⟨.hbm, 40, rfl⟩
abbrev main_c_3 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_c_4 : Ref sig .tc := ⟨.hbm, 48, rfl⟩
abbrev main_v25 : Ref sig .tc := ⟨.hbm, 49, rfl⟩
abbrev main_v26 : Ref sig .tc := ⟨.hbm, 50, rfl⟩
abbrev main_c_5 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_c_6 : Ref sig .tc := ⟨.hbm, 58, rfl⟩
abbrev main_v33 : Ref sig .tc := ⟨.hbm, 59, rfl⟩
abbrev main_v34 : Ref sig .tc := ⟨.hbm, 60, rfl⟩
abbrev main_c_7 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_8 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_9 : Ref sig .tc := ⟨.hbm, 83, rfl⟩
abbrev main_v55 : Ref sig .tc := ⟨.hbm, 84, rfl⟩
abbrev main_v56 : Ref sig .tc := ⟨.hbm, 85, rfl⟩
abbrev main_cst_10 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_11 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_12 : Ref sig .tc := ⟨.hbm, 94, rfl⟩
abbrev main_call1_v0 : Ref sig .tc := ⟨.hbm, 95, rfl⟩
abbrev main_call1_v1 : Ref sig .tc := ⟨.hbm, 96, rfl⟩
abbrev main_v63 : Ref sig .tc := ⟨.hbm, 97, rfl⟩
abbrev main_c_13 : Ref sig .tc := ⟨.hbm, 98, rfl⟩
abbrev main_v64 : Ref sig .tc := ⟨.hbm, 99, rfl⟩
abbrev main_v65 : Ref sig .tc := ⟨.hbm, 100, rfl⟩
abbrev main_c_14 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_c_15 : Ref sig .tc := ⟨.hbm, 108, rfl⟩
abbrev main_v72 : Ref sig .tc := ⟨.hbm, 109, rfl⟩
abbrev main_v73 : Ref sig .tc := ⟨.hbm, 110, rfl⟩
abbrev main_c_16 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_c_17 : Ref sig .tc := ⟨.hbm, 118, rfl⟩
abbrev main_v80 : Ref sig .tc := ⟨.hbm, 119, rfl⟩
abbrev main_v81 : Ref sig .tc := ⟨.hbm, 120, rfl⟩
abbrev main_c_18 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_cst_19 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg3_1 : Ref sig .tc := ⟨.vmem, 25, rfl⟩
abbrev cc5_stg0_0 : Ref sig .tc := ⟨.vmem, 26, rfl⟩
abbrev cc5_stg0_1 : Ref sig .tc := ⟨.vmem, 27, rfl⟩
abbrev cc5_stg1_0 : Ref sig .tc := ⟨.vmem, 28, rfl⟩
abbrev cc5_stg2_0 : Ref sig .tc := ⟨.vmem, 29, rfl⟩
abbrev cc5_stg3_0 : Ref sig .tc := ⟨.vmem, 30, rfl⟩
abbrev cc5_stg3_1 : Ref sig .tc := ⟨.vmem, 31, rfl⟩
abbrev cc6_stg0_0 : Ref sig .tc := ⟨.vmem, 32, rfl⟩
abbrev cc6_stg0_1 : Ref sig .tc := ⟨.vmem, 33, rfl⟩
abbrev cc6_stg1_0 : Ref sig .tc := ⟨.vmem, 34, rfl⟩
abbrev cc6_stg2_0 : Ref sig .tc := ⟨.vmem, 35, rfl⟩
abbrev cc6_stg3_0 : Ref sig .tc := ⟨.vmem, 36, rfl⟩
abbrev cc6_stg3_1 : Ref sig .tc := ⟨.vmem, 37, rfl⟩
abbrev cc7_stg0_0 : Ref sig .tc := ⟨.vmem, 38, rfl⟩
abbrev cc7_stg0_1 : Ref sig .tc := ⟨.vmem, 39, rfl⟩
abbrev cc7_stg1_0 : Ref sig .tc := ⟨.vmem, 40, rfl⟩
abbrev cc7_stg2_0 : Ref sig .tc := ⟨.vmem, 41, rfl⟩
abbrev cc7_stg3_0 : Ref sig .tc := ⟨.vmem, 42, rfl⟩
abbrev cc7_stg3_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem3_1 : DmaSem sig := 25
abbrev cc5_sem0_0 : DmaSem sig := 26
abbrev cc5_sem0_1 : DmaSem sig := 27
abbrev cc5_sem1_0 : DmaSem sig := 28
abbrev cc5_sem2_0 : DmaSem sig := 29
abbrev cc5_sem3_0 : DmaSem sig := 30
abbrev cc5_sem3_1 : DmaSem sig := 31
abbrev cc6_sem0_0 : DmaSem sig := 32
abbrev cc6_sem0_1 : DmaSem sig := 33
abbrev cc6_sem1_0 : DmaSem sig := 34
abbrev cc6_sem2_0 : DmaSem sig := 35
abbrev cc6_sem3_0 : DmaSem sig := 36
abbrev cc6_sem3_1 : DmaSem sig := 37
abbrev cc7_sem0_0 : DmaSem sig := 38
abbrev cc7_sem0_1 : DmaSem sig := 39
abbrev cc7_sem1_0 : DmaSem sig := 40
abbrev cc7_sem2_0 : DmaSem sig := 41
abbrev cc7_sem3_0 : DmaSem sig := 42
abbrev cc7_sem3_1 : DmaSem sig := 43

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S64x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S2000x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S2000x64_S2000x64_0_0 : ∀ a, (![0, 0] : Fin 2 → Nat) a + S2000x64.size a ≤ S2000x64.size a
  h_S2000x64 : 0 < S2000x64.numel
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S50000 : S_.BroadcastsInDim S50000 (![] : Fin 0 → Fin S50000.rank)
  bcast_S1650000_S1650000x1_0 : S1650000.BroadcastsInDim S1650000x1 (![0] : Fin 1 → Fin S1650000x1.rank)
  bcast_S_S1650000 : S_.BroadcastsInDim S1650000 (![] : Fin 0 → Fin S1650000.rank)
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  shapeCasts_S2000x64_S2000x64 : S2000x64.ShapeCasts S2000x64
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  inb_S64x64_S64x64_0_0 : ∀ a, (![0, 0] : Fin 2 → Nat) a + S64x64.size a ≤ S64x64.size a
  h_S64x64 : 0 < S64x64.numel
  dot_S2000x512_S512x64_S2000x64_1_0_0_1_n_n_wf : DotDims.WF S2000x512 S512x64 S2000x64 [1] [0] [0] [1] [] []
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S50000x64.size a
  hwx0_2 : ∀ i : grid0.Coords, EltTy.bits .f32 = 32 ∨ (Rect.block (s := S50000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S50000x64.size a
  hwx1_2 : ∀ i : grid1.Coords, EltTy.bits .f32 = 32 ∨ (Rect.block (s := S50000x64) S2000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S50000x64.size a
  hwx2_2 : ∀ i : grid2.Coords, EltTy.bits .f32 = 32 ∨ (Rect.block (s := S50000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64.size a ≤ S64.size a
  hwx3_1 : ∀ i : grid3.Coords, EltTy.bits .f32 = 32 ∨ (Rect.block (s := S64) S64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S50000x64.size a
  hwx3_2 : ∀ i : grid3.Coords, EltTy.bits .f32 = 32 ∨ (Rect.block (s := S50000x64) S2000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S50000x64.size a
  hwx4_0 : ∀ i : grid4.Coords, EltTy.bits .f32 = 32 ∨ (Rect.block (s := S50000x64) S2000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64.size a ≤ S64.size a
  hwx4_2 : ∀ i : grid4.Coords, EltTy.bits .f32 = 32 ∨ (Rect.block (s := S64) S64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x64.size a ≤ S50000x64.size a
  hwx4_3 : ∀ i : grid4.Coords, EltTy.bits .f32 = 32 ∨ (Rect.block (s := S50000x64) S2000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S50000x64.size a
  hwx5_0 : ∀ i : grid5.Coords, EltTy.bits .f32 = 32 ∨ (Rect.block (s := S50000x64) S2000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64.size a ≤ S64.size a
  hwx5_2 : ∀ i : grid5.Coords, EltTy.bits .f32 = 32 ∨ (Rect.block (s := S64) S64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x64.size a ≤ S50000x64.size a
  hwx5_3 : ∀ i : grid5.Coords, EltTy.bits .f32 = 32 ∨ (Rect.block (s := S50000x64) S2000x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x64.size a ≤ S50000x64.size a
  hwx6_0 : ∀ i : grid6.Coords, EltTy.bits .f32 = 32 ∨ (Rect.block (s := S50000x64) S2000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64.size a ≤ S64.size a
  hwx6_2 : ∀ i : grid6.Coords, EltTy.bits .f32 = 32 ∨ (Rect.block (s := S64) S64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x64.size a ≤ S50000x64.size a
  hwx6_3 : ∀ i : grid6.Coords, EltTy.bits .f32 = 32 ∨ (Rect.block (s := S50000x64) S2000x64.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x64.size a ≤ S50000x64.size a
  hwx7_0 : ∀ i : grid7.Coords, EltTy.bits .f32 = 32 ∨ (Rect.block (s := S50000x64) S2000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x64.size a ≤ S64x64.size a
  hwx7_1 : ∀ i : grid7.Coords, EltTy.bits .f32 = 32 ∨ (Rect.block (s := S64x64) S64x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S64.size a ≤ S64.size a
  hwx7_2 : ∀ i : grid7.Coords, EltTy.bits .f32 = 32 ∨ (Rect.block (s := S64) S64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2000x64.size a ≤ S50000x64.size a
  hwx7_3 : ∀ i : grid7.Coords, EltTy.bits .f32 = 32 ∨ (Rect.block (s := S50000x64) S2000x64.size (cc7_transform_3 i) (hinb7_3 i)).WholeWords (EltTy.packing .f32)

variable [Facts₀]

def dot_S2000x512_S512x64_S2000x64_1_0_0_1_n_n : DotDims S2000x512 S512x64 S2000x64 where
  lhsContracting := [1]
  rhsContracting := [0]
  lhsNonContracting := [0]
  rhsNonContracting := [1]
  lhsBatch := []
  rhsBatch := []
  wf := dot_S2000x512_S512x64_S2000x64_1_0_0_1_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v92) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v93) S2000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v93) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg8) S64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v94) S2000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v94) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg9) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg10) S64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v95) S2000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v95) S2000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg11) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_arg12) S64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v96) S2000x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v96) S2000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg13) S64x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_arg14) S64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v97) S2000x64.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S50000x512 : Shape := ⟨2, ![50000, 512]⟩
abbrev S2x1600000 : Shape := ⟨2, ![2, 1600000]⟩
abbrev S1600000 : Shape := ⟨1, ![1600000]⟩
abbrev S512x64 : Shape := ⟨2, ![512, 64]⟩
abbrev S64 : Shape := ⟨1, ![64]⟩
abbrev S64x64 : Shape := ⟨2, ![64, 64]⟩
abbrev S50000x64 : Shape := ⟨2, ![50000, 64]⟩
abbrev S50000 : Shape := ⟨1, ![50000]⟩
abbrev S1x1600000 : Shape := ⟨2, ![1, 1600000]⟩
abbrev S1650000 : Shape := ⟨1, ![1650000]⟩
abbrev S_ : Shape := ⟨0, ![]⟩
abbrev S1650000x1 : Shape := ⟨2, ![1650000, 1]⟩
abbrev S1650000x64 : Shape := ⟨2, ![1650000, 64]⟩
abbrev S1x64 : Shape := ⟨2, ![1, 64]⟩

abbrev nBuf : Space → Nat
  | .hbm => 250
  | .vmem => 0
  | .smem => 0
  | _ => 0

abbrev hbmTy0_0 (i : Nat) : BufTy := match i % 128 with
  | 0 => ⟨S50000x512, .f32⟩
  | 1 => ⟨S2x1600000, .i32⟩
  | 2 => ⟨S1600000, .f32⟩
  | 3 => ⟨S512x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S64x64, .f32⟩
  | 12 => ⟨S64, .f32⟩
  | 13 => ⟨S64x64, .f32⟩
  | 14 => ⟨S64, .f32⟩
  | 15 => ⟨S50000x64, .f32⟩
  | 16 => ⟨S50000, .i32⟩
  | 17 => ⟨S1x1600000, .i32⟩
  | 18 => ⟨S1600000, .i32⟩
  | 19 => ⟨S1650000, .i32⟩
  | 20 => ⟨S1x1600000, .i32⟩
  | 21 => ⟨S1600000, .i32⟩
  | 22 => ⟨S1650000, .i32⟩
  | 23 => ⟨S_, .f32⟩
  | 24 => ⟨S50000, .f32⟩
  | 25 => ⟨S1650000, .f32⟩
  | 26 => ⟨S_, .f32⟩
  | 27 => ⟨S50000, .f32⟩
  | 28 => ⟨S1650000x1, .i32⟩
  | 29 => ⟨S50000, .f32⟩
  | 30 => ⟨S_, .f32⟩
  | 31 => ⟨S50000, .f32⟩
  | 32 => ⟨S50000, .i1⟩
  | 33 => ⟨S50000, .f32⟩
  | 34 => ⟨S_, .f32⟩
  | 35 => ⟨S_, .f32⟩
  | 36 => ⟨S50000, .f32⟩
  | 37 => ⟨S50000, .f32⟩
  | 38 => ⟨S_, .i32⟩
  | 39 => ⟨S1650000, .i32⟩
  | 40 => ⟨S1650000, .i1⟩
  | 41 => ⟨S_, .i32⟩
  | 42 => ⟨S1650000, .i32⟩
  | 43 => ⟨S1650000, .i32⟩
  | 44 => ⟨S1650000, .i32⟩
  | 45 => ⟨S1650000x1, .i32⟩
  | 46 => ⟨S1650000, .f32⟩
  | 47 => ⟨S1650000, .f32⟩
  | 48 => ⟨S_, .i32⟩
  | 49 => ⟨S1650000, .i32⟩
  | 50 => ⟨S1650000, .i1⟩
  | 51 => ⟨S_, .i32⟩
  | 52 => ⟨S1650000, .i32⟩
  | 53 => ⟨S1650000, .i32⟩
  | 54 => ⟨S1650000, .i32⟩
  | 55 => ⟨S1650000x1, .i32⟩
  | 56 => ⟨S1650000, .f32⟩
  | 57 => ⟨S1650000, .f32⟩
  | 58 => ⟨S_, .i32⟩
  | 59 => ⟨S1650000, .i32⟩
  | 60 => ⟨S1650000, .i1⟩
  | 61 => ⟨S_, .i32⟩
  | 62 => ⟨S1650000, .i32⟩
  | 63 => ⟨S1650000, .i32⟩
  | 64 => ⟨S1650000, .i32⟩
  | 65 => ⟨S1650000x1, .i32⟩
  | 66 => ⟨S1650000x64, .f32⟩
  | 67 => ⟨S1650000x1, .f32⟩
  | 68 => ⟨S1650000x64, .f32⟩
  | 69 => ⟨S1650000x64, .f32⟩
  | 70 => ⟨S_, .f32⟩
  | 71 => ⟨S50000x64, .f32⟩
  | 72 => ⟨S1650000x1, .i32⟩
  | 73 => ⟨S50000x64, .f32⟩
  | 74 => ⟨S1x64, .f32⟩
  | 75 => ⟨S50000x64, .f32⟩
  | 76 => ⟨S50000x64, .f32⟩
  | 77 => ⟨S_, .f32⟩
  | 78 => ⟨S_, .f32⟩
  | 79 => ⟨S50000x64, .f32⟩
  | 80 => ⟨S50000x64, .i1⟩
  | 81 => ⟨S_, .f32⟩
  | 82 => ⟨S50000x64, .f32⟩
  | 83 => ⟨S50000x64, .i1⟩
  | 84 => ⟨S_, .f32⟩
  | 85 => ⟨S_, .f32⟩
  | 86 => ⟨S50000x64, .f32⟩
  | 87 => ⟨S50000x64, .f32⟩
  | 88 => ⟨S50000x64, .f32⟩
  | 89 => ⟨S_, .f32⟩
  | 90 => ⟨S50000x64, .f32⟩
  | 91 => ⟨S50000x64, .f32⟩
  | 92 => ⟨S50000x64, .f32⟩
  | 93 => ⟨S_, .f32⟩
  | 94 => ⟨S50000x64, .f32⟩
  | 95 => ⟨S50000x64, .f32⟩
  | 96 => ⟨S50000x64, .f32⟩
  | 97 => ⟨S50000, .i32⟩
  | 98 => ⟨S1x1600000, .i32⟩
  | 99 => ⟨S1600000, .i32⟩
  | 100 => ⟨S1650000, .i32⟩
  | 101 => ⟨S1x1600000, .i32⟩
  | 102 => ⟨S1600000, .i32⟩
  | 103 => ⟨S1650000, .i32⟩
  | 104 => ⟨S_, .f32⟩
  | 105 => ⟨S50000, .f32⟩
  | 106 => ⟨S1650000, .f32⟩
  | 107 => ⟨S_, .f32⟩
  | 108 => ⟨S50000, .f32⟩
  | 109 => ⟨S1650000x1, .i32⟩
  | 110 => ⟨S50000, .f32⟩
  | 111 => ⟨S_, .f32⟩
  | 112 => ⟨S50000, .f32⟩
  | 113 => ⟨S50000, .i1⟩
  | 114 => ⟨S50000, .f32⟩
  | 115 => ⟨S_, .f32⟩
  | 116 => ⟨S_, .f32⟩
  | 117 => ⟨S50000, .f32⟩
  | 118 => ⟨S50000, .f32⟩
  | 119 => ⟨S_, .i32⟩
  | 120 => ⟨S1650000, .i32⟩
  | 121 => ⟨S1650000, .i1⟩
  | 122 => ⟨S_, .i32⟩
  | 123 => ⟨S1650000, .i32⟩
  | 124 => ⟨S1650000, .i32⟩
  | 125 => ⟨S1650000, .i32⟩
  | 126 => ⟨S1650000x1, .i32⟩
  | 127 => ⟨S1650000, .f32⟩
  | _ => ⟨S50000x512, .f32⟩

abbrev hbmTy0_1 (i : Nat) : BufTy := match i % 128 with
  | 0 => ⟨S1650000, .f32⟩
  | 1 => ⟨S_, .i32⟩
  | 2 => ⟨S1650000, .i32⟩
  | 3 => ⟨S1650000, .i1⟩
  | 4 => ⟨S_, .i32⟩
  | 5 => ⟨S1650000, .i32⟩
  | 6 => ⟨S1650000, .i32⟩
  | 7 => ⟨S1650000, .i32⟩
  | 8 => ⟨S1650000x1, .i32⟩
  | 9 => ⟨S1650000, .f32⟩
  | 10 => ⟨S1650000, .f32⟩
  | 11 => ⟨S_, .i32⟩
  | 12 => ⟨S1650000, .i32⟩
  | 13 => ⟨S1650000, .i1⟩
  | 14 => ⟨S_, .i32⟩
  | 15 => ⟨S1650000, .i32⟩
  | 16 => ⟨S1650000, .i32⟩
  | 17 => ⟨S1650000, .i32⟩
  | 18 => ⟨S1650000x1, .i32⟩
  | 19 => ⟨S1650000x64, .f32⟩
  | 20 => ⟨S1650000x1, .f32⟩
  | 21 => ⟨S1650000x64, .f32⟩
  | 22 => ⟨S1650000x64, .f32⟩
  | 23 => ⟨S_, .f32⟩
  | 24 => ⟨S50000x64, .f32⟩
  | 25 => ⟨S1650000x1, .i32⟩
  | 26 => ⟨S50000x64, .f32⟩
  | 27 => ⟨S1x64, .f32⟩
  | 28 => ⟨S50000x64, .f32⟩
  | 29 => ⟨S50000x64, .f32⟩
  | 30 => ⟨S_, .f32⟩
  | 31 => ⟨S_, .f32⟩
  | 32 => ⟨S50000x64, .f32⟩
  | 33 => ⟨S50000x64, .i1⟩
  | 34 => ⟨S_, .f32⟩
  | 35 => ⟨S50000x64, .f32⟩
  | 36 => ⟨S50000x64, .i1⟩
  | 37 => ⟨S_, .f32⟩
  | 38 => ⟨S_, .f32⟩
  | 39 => ⟨S50000x64, .f32⟩
  | 40 => ⟨S50000x64, .f32⟩
  | 41 => ⟨S50000x64, .f32⟩
  | 42 => ⟨S_, .f32⟩
  | 43 => ⟨S50000x64, .f32⟩
  | 44 => ⟨S50000x64, .f32⟩
  | 45 => ⟨S50000x64, .f32⟩
  | 46 => ⟨S_, .f32⟩
  | 47 => ⟨S50000x64, .f32⟩
  | 48 => ⟨S50000x64, .f32⟩
  | 49 => ⟨S50000x64, .f32⟩
  | 50 => ⟨S1x64, .f32⟩
  | 51 => ⟨S50000x64, .f32⟩
  | 52 => ⟨S50000x64, .f32⟩
  | 53 => ⟨S_, .f32⟩
  | 54 => ⟨S_, .f32⟩
  | 55 => ⟨S50000x64, .f32⟩
  | 56 => ⟨S50000x64, .i1⟩
  | 57 => ⟨S_, .f32⟩
  | 58 => ⟨S50000x64, .f32⟩
  | 59 => ⟨S50000x64, .i1⟩
  | 60 => ⟨S_, .f32⟩
  | 61 => ⟨S_, .f32⟩
  | 62 => ⟨S50000x64, .f32⟩
  | 63 => ⟨S50000x64, .f32⟩
  | 64 => ⟨S50000x64, .f32⟩
  | 65 => ⟨S_, .f32⟩
  | 66 => ⟨S50000x64, .f32⟩
  | 67 => ⟨S50000x64, .f32⟩
  | 68 => ⟨S50000x64, .f32⟩
  | 69 => ⟨S_, .f32⟩
  | 70 => ⟨S50000x64, .f32⟩
  | 71 => ⟨S50000x64, .f32⟩
  | 72 => ⟨S50000x64, .f32⟩
  | 73 => ⟨S1x64, .f32⟩
  | 74 => ⟨S50000x64, .f32⟩
  | 75 => ⟨S50000x64, .f32⟩
  | 76 => ⟨S_, .f32⟩
  | 77 => ⟨S_, .f32⟩
  | 78 => ⟨S50000x64, .f32⟩
  | 79 => ⟨S50000x64, .i1⟩
  | 80 => ⟨S_, .f32⟩
  | 81 => ⟨S50000x64, .f32⟩
  | 82 => ⟨S50000x64, .i1⟩
  | 83 => ⟨S_, .f32⟩
  | 84 => ⟨S_, .f32⟩
  | 85 => ⟨S50000x64, .f32⟩
  | 86 => ⟨S50000x64, .f32⟩
  | 87 => ⟨S50000x64, .f32⟩
  | 88 => ⟨S_, .f32⟩
  | 89 => ⟨S50000x64, .f32⟩
  | 90 => ⟨S50000x64, .f32⟩
  | 91 => ⟨S50000x64, .f32⟩
  | 92 => ⟨S_, .f32⟩
  | 93 => ⟨S50000x64, .f32⟩
  | 94 => ⟨S50000x64, .f32⟩
  | 95 => ⟨S50000x64, .f32⟩
  | 96 => ⟨S1x64, .f32⟩
  | 97 => ⟨S50000x64, .f32⟩
  | 98 => ⟨S50000x64, .f32⟩
  | 99 => ⟨S_, .f32⟩
  | 100 => ⟨S_, .f32⟩
  | 101 => ⟨S50000x64, .f32⟩
  | 102 => ⟨S50000x64, .i1⟩
  | 103 => ⟨S_, .f32⟩
  | 104 => ⟨S50000x64, .f32⟩
  | 105 => ⟨S50000x64, .i1⟩
  | 106 => ⟨S_, .f32⟩
  | 107 => ⟨S_, .f32⟩
  | 108 => ⟨S50000x64, .f32⟩
  | 109 => ⟨S50000x64, .f32⟩
  | 110 => ⟨S50000x64, .f32⟩
  | 111 => ⟨S_, .f32⟩
  | 112 => ⟨S50000x64, .f32⟩
  | 113 => ⟨S50000x64, .f32⟩
  | 114 => ⟨S50000x64, .f32⟩
  | 115 => ⟨S_, .f32⟩
  | 116 => ⟨S50000x64, .f32⟩
  | 117 => ⟨S50000x64, .f32⟩
  | 118 => ⟨S50000x64, .f32⟩
  | 119 => ⟨S1x64, .f32⟩
  | 120 => ⟨S50000x64, .f32⟩
  | 121 => ⟨S50000x64, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_v9 : Ref sig .tc := ⟨.hbm, 25, rfl⟩
abbrev main_cst_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_1 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_2 : Ref sig .tc := ⟨.hbm, 34, rfl⟩
abbrev main_call0_v0 : Ref sig .tc := ⟨.hbm, 35, rfl⟩
abbrev main_call0_v1 : Ref sig .tc := ⟨.hbm, 36, rfl⟩
abbrev main_v16 : Ref sig .tc := ⟨.hbm, 37, rfl⟩
abbrev main_c : Ref sig .tc := ⟨.hbm, 38, rfl⟩
abbrev main_v17 : Ref sig .tc := ⟨.hbm, 39, rfl⟩
abbrev main_v18 : Ref sig .tc := ⟨.hbm, 40, rfl⟩
abbrev main_c_3 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_c_4 : Ref sig .tc := ⟨.hbm, 48, rfl⟩
abbrev main_v25 : Ref sig .tc := ⟨.hbm, 49, rfl⟩
abbrev main_v26 : Ref sig .tc := ⟨.hbm, 50, rfl⟩
abbrev main_c_5 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_c_6 : Ref sig .tc := ⟨.hbm, 58, rfl⟩
abbrev main_v33 : Ref sig .tc := ⟨.hbm, 59, rfl⟩
abbrev main_v34 : Ref sig .tc := ⟨.hbm, 60, rfl⟩
abbrev main_c_7 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_8 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_call1_cst : Ref sig .tc := ⟨.hbm, 77, rfl⟩
abbrev main_call1_call0_cst : Ref sig .tc := ⟨.hbm, 78, rfl⟩
abbrev main_call1_call0_v0 : Ref sig .tc := ⟨.hbm, 79, rfl⟩
abbrev main_call1_call0_v1 : Ref sig .tc := ⟨.hbm, 80, rfl⟩
abbrev main_call1_call0_cst_0 : Ref sig .tc := ⟨.hbm, 81, rfl⟩
abbrev main_call1_call0_v2 : Ref sig .tc := ⟨.hbm, 82, rfl⟩
abbrev main_call1_call0_v3 : Ref sig .tc := ⟨.hbm, 83, rfl⟩
abbrev main_call1_call0_cst_1 : Ref sig .tc := ⟨.hbm, 84, rfl⟩
abbrev main_call1_call0_call0_v0 : Ref sig .tc := ⟨.hbm, 85, rfl⟩
abbrev main_call1_call0_call0_v1 : Ref sig .tc := ⟨.hbm, 86, rfl⟩
abbrev main_call1_call0_v4 : Ref sig .tc := ⟨.hbm, 87, rfl⟩
abbrev main_call1_call0_v5 : Ref sig .tc := ⟨.hbm, 88, rfl⟩
abbrev main_call1_call0_v6 : Ref sig .tc := ⟨.hbm, 89, rfl⟩
abbrev main_call1_call0_v7 : Ref sig .tc := ⟨.hbm, 90, rfl⟩
abbrev main_call1_call0_v8 : Ref sig .tc := ⟨.hbm, 91, rfl⟩
abbrev main_call1_v0 : Ref sig .tc := ⟨.hbm, 92, rfl⟩
abbrev main_call1_cst_0 : Ref sig .tc := ⟨.hbm, 93, rfl⟩
abbrev main_call1_v1 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_cst_9 : Ref sig .tc := ⟨.hbm, 104, rfl⟩
abbrev main_v58 : Ref sig .tc := ⟨.hbm, 105, rfl⟩
abbrev main_v59 : Ref sig .tc := ⟨.hbm, 106, rfl⟩
abbrev main_cst_10 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_cst_11 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_cst_12 : Ref sig .tc := ⟨.hbm, 115, rfl⟩
abbrev main_call2_v0 : Ref sig .tc := ⟨.hbm, 116, rfl⟩
abbrev main_call2_v1 : Ref sig .tc := ⟨.hbm, 117, rfl⟩
abbrev main_v66 : Ref sig .tc := ⟨.hbm, 118, rfl⟩
abbrev main_c_13 : Ref sig .tc := ⟨.hbm, 119, rfl⟩
abbrev main_v67 : Ref sig .tc := ⟨.hbm, 120, rfl⟩
abbrev main_v68 : Ref sig .tc := ⟨.hbm, 121, rfl⟩
abbrev main_c_14 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_c_15 : Ref sig .tc := ⟨.hbm, 129, rfl⟩
abbrev main_v75 : Ref sig .tc := ⟨.hbm, 130, rfl⟩
abbrev main_v76 : Ref sig .tc := ⟨.hbm, 131, rfl⟩
abbrev main_c_16 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_c_17 : Ref sig .tc := ⟨.hbm, 139, rfl⟩
abbrev main_v83 : Ref sig .tc := ⟨.hbm, 140, rfl⟩
abbrev main_v84 : Ref sig .tc := ⟨.hbm, 141, rfl⟩
abbrev main_c_18 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_cst_19 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_call3_cst : Ref sig .tc := ⟨.hbm, 158, rfl⟩
abbrev main_call3_call0_cst : Ref sig .tc := ⟨.hbm, 159, rfl⟩
abbrev main_call3_call0_v0 : Ref sig .tc := ⟨.hbm, 160, rfl⟩
abbrev main_call3_call0_v1 : Ref sig .tc := ⟨.hbm, 161, rfl⟩
abbrev main_call3_call0_cst_0 : Ref sig .tc := ⟨.hbm, 162, rfl⟩
abbrev main_call3_call0_v2 : Ref sig .tc := ⟨.hbm, 163, rfl⟩
abbrev main_call3_call0_v3 : Ref sig .tc := ⟨.hbm, 164, rfl⟩
abbrev main_call3_call0_cst_1 : Ref sig .tc := ⟨.hbm, 165, rfl⟩
abbrev main_call3_call0_call0_v0 : Ref sig .tc := ⟨.hbm, 166, rfl⟩
abbrev main_call3_call0_call0_v1 : Ref sig .tc := ⟨.hbm, 167, rfl⟩
abbrev main_call3_call0_v4 : Ref sig .tc := ⟨.hbm, 168, rfl⟩
abbrev main_call3_call0_v5 : Ref sig .tc := ⟨.hbm, 169, rfl⟩
abbrev main_call3_call0_v6 : Ref sig .tc := ⟨.hbm, 170, rfl⟩
abbrev main_call3_call0_v7 : Ref sig .tc := ⟨.hbm, 171, rfl⟩
abbrev main_call3_call0_v8 : Ref sig .tc := ⟨.hbm, 172, rfl⟩
abbrev main_call3_v0 : Ref sig .tc := ⟨.hbm, 173, rfl⟩
abbrev main_call3_cst_0 : Ref sig .tc := ⟨.hbm, 174, rfl⟩
abbrev main_call3_v1 : Ref sig .tc := ⟨.hbm, 175, rfl⟩
abbrev main_v99 : Ref sig .tc := ⟨.hbm, 176, rfl⟩
abbrev main_v100 : Ref sig .tc := ⟨.hbm, 177, rfl⟩
abbrev main_v101 : Ref sig .tc := ⟨.hbm, 178, rfl⟩
abbrev main_v102 : Ref sig .tc := ⟨.hbm, 179, rfl⟩
abbrev main_v103 : Ref sig .tc := ⟨.hbm, 180, rfl⟩
abbrev main_call4_cst : Ref sig .tc := ⟨.hbm, 181, rfl⟩
abbrev main_call4_call0_cst : Ref sig .tc := ⟨.hbm, 182, rfl⟩
abbrev main_call4_call0_v0 : Ref sig .tc := ⟨.hbm, 183, rfl⟩
abbrev main_call4_call0_v1 : Ref sig .tc := ⟨.hbm, 184, rfl⟩
abbrev main_call4_call0_cst_0 : Ref sig .tc := ⟨.hbm, 185, rfl⟩
abbrev main_call4_call0_v2 : Ref sig .tc := ⟨.hbm, 186, rfl⟩
abbrev main_call4_call0_v3 : Ref sig .tc := ⟨.hbm, 187, rfl⟩
abbrev main_call4_call0_cst_1 : Ref sig .tc := ⟨.hbm, 188, rfl⟩
abbrev main_call4_call0_call0_v0 : Ref sig .tc := ⟨.hbm, 189, rfl⟩
abbrev main_call4_call0_call0_v1 : Ref sig .tc := ⟨.hbm, 190, rfl⟩
abbrev main_call4_call0_v4 : Ref sig .tc := ⟨.hbm, 191, rfl⟩
abbrev main_call4_call0_v5 : Ref sig .tc := ⟨.hbm, 192, rfl⟩
abbrev main_call4_call0_v6 : Ref sig .tc := ⟨.hbm, 193, rfl⟩
abbrev main_call4_call0_v7 : Ref sig .tc := ⟨.hbm, 194, rfl⟩
abbrev main_call4_call0_v8 : Ref sig .tc := ⟨.hbm, 195, rfl⟩
abbrev main_call4_v0 : Ref sig .tc := ⟨.hbm, 196, rfl⟩
abbrev main_call4_cst_0 : Ref sig .tc := ⟨.hbm, 197, rfl⟩
abbrev main_call4_v1 : Ref sig .tc := ⟨.hbm, 198, rfl⟩
abbrev main_v104 : Ref sig .tc := ⟨.hbm, 199, rfl⟩
abbrev main_v105 : Ref sig .tc := ⟨.hbm, 200, rfl⟩
abbrev main_v106 : Ref sig .tc := ⟨.hbm, 201, rfl⟩
abbrev main_v107 : Ref sig .tc := ⟨.hbm, 202, rfl⟩
abbrev main_v108 : Ref sig .tc := ⟨.hbm, 203, rfl⟩
abbrev main_call5_cst : Ref sig .tc := ⟨.hbm, 204, rfl⟩
abbrev main_call5_call0_cst : Ref sig .tc := ⟨.hbm, 205, rfl⟩
abbrev main_call5_call0_v0 : Ref sig .tc := ⟨.hbm, 206, rfl⟩
abbrev main_call5_call0_v1 : Ref sig .tc := ⟨.hbm, 207, rfl⟩
abbrev main_call5_call0_cst_0 : Ref sig .tc := ⟨.hbm, 208, rfl⟩
abbrev main_call5_call0_v2 : Ref sig .tc := ⟨.hbm, 209, rfl⟩
abbrev main_call5_call0_v3 : Ref sig .tc := ⟨.hbm, 210, rfl⟩
abbrev main_call5_call0_cst_1 : Ref sig .tc := ⟨.hbm, 211, rfl⟩
abbrev main_call5_call0_call0_v0 : Ref sig .tc := ⟨.hbm, 212, rfl⟩
abbrev main_call5_call0_call0_v1 : Ref sig .tc := ⟨.hbm, 213, rfl⟩
abbrev main_call5_call0_v4 : Ref sig .tc := ⟨.hbm, 214, rfl⟩
abbrev main_call5_call0_v5 : Ref sig .tc := ⟨.hbm, 215, rfl⟩
abbrev main_call5_call0_v6 : Ref sig .tc := ⟨.hbm, 216, rfl⟩
abbrev main_call5_call0_v7 : Ref sig .tc := ⟨.hbm, 217, rfl⟩
abbrev main_call5_call0_v8 : Ref sig .tc := ⟨.hbm, 218, rfl⟩
abbrev main_call5_v0 : Ref sig .tc := ⟨.hbm, 219, rfl⟩
abbrev main_call5_cst_0 : Ref sig .tc := ⟨.hbm, 220, rfl⟩
abbrev main_call5_v1 : Ref sig .tc := ⟨.hbm, 221, rfl⟩
abbrev main_v109 : Ref sig .tc := ⟨.hbm, 222, rfl⟩
abbrev main_v110 : Ref sig .tc := ⟨.hbm, 223, rfl⟩
abbrev main_v111 : Ref sig .tc := ⟨.hbm, 224, rfl⟩
abbrev main_v112 : Ref sig .tc := ⟨.hbm, 225, rfl⟩
abbrev main_v113 : Ref sig .tc := ⟨.hbm, 226, rfl⟩
abbrev main_call6_cst : Ref sig .tc := ⟨.hbm, 227, rfl⟩
abbrev main_call6_call0_cst : Ref sig .tc := ⟨.hbm, 228, rfl⟩
abbrev main_call6_call0_v0 : Ref sig .tc := ⟨.hbm, 229, rfl⟩
abbrev main_call6_call0_v1 : Ref sig .tc := ⟨.hbm, 230, rfl⟩
abbrev main_call6_call0_cst_0 : Ref sig .tc := ⟨.hbm, 231, rfl⟩
abbrev main_call6_call0_v2 : Ref sig .tc := ⟨.hbm, 232, rfl⟩
abbrev main_call6_call0_v3 : Ref sig .tc := ⟨.hbm, 233, rfl⟩
abbrev main_call6_call0_cst_1 : Ref sig .tc := ⟨.hbm, 234, rfl⟩
abbrev main_call6_call0_call0_v0 : Ref sig .tc := ⟨.hbm, 235, rfl⟩
abbrev main_call6_call0_call0_v1 : Ref sig .tc := ⟨.hbm, 236, rfl⟩
abbrev main_call6_call0_v4 : Ref sig .tc := ⟨.hbm, 237, rfl⟩
abbrev main_call6_call0_v5 : Ref sig .tc := ⟨.hbm, 238, rfl⟩
abbrev main_call6_call0_v6 : Ref sig .tc := ⟨.hbm, 239, rfl⟩
abbrev main_call6_call0_v7 : Ref sig .tc := ⟨.hbm, 240, rfl⟩
abbrev main_call6_call0_v8 : Ref sig .tc := ⟨.hbm, 241, rfl⟩
abbrev main_call6_v0 : Ref sig .tc := ⟨.hbm, 242, rfl⟩
abbrev main_call6_cst_0 : Ref sig .tc := ⟨.hbm, 243, rfl⟩
abbrev main_call6_v1 : Ref sig .tc := ⟨.hbm, 244, rfl⟩
abbrev main_v114 : Ref sig .tc := ⟨.hbm, 245, rfl⟩
abbrev main_v115 : Ref sig .tc := ⟨.hbm, 246, rfl⟩
abbrev main_v116 : Ref sig .tc := ⟨.hbm, 247, rfl⟩
abbrev main_v117 : Ref sig .tc := ⟨.hbm, 248, rfl⟩
abbrev main_v118 : Ref sig .tc := ⟨.hbm, 249, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S50000 : S_.BroadcastsInDim S50000 (![] : Fin 0 → Fin S50000.rank)
  bcast_S1650000_S1650000x1_0 : S1650000.BroadcastsInDim S1650000x1 (![0] : Fin 1 → Fin S1650000x1.rank)
  bcast_S_S1650000 : S_.BroadcastsInDim S1650000 (![] : Fin 0 → Fin S1650000.rank)
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x512_S512x64_S50000x64_1_0_0_1_n_n_wf : DotDims.WF S50000x512 S512x64 S50000x64 [1] [0] [0] [1] [] []
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  dot_S50000x64_S64x64_S50000x64_1_0_0_1_n_n_wf : DotDims.WF S50000x64 S64x64 S50000x64 [1] [0] [0] [1] [] []

variable [Facts₀]

def dot_S50000x512_S512x64_S50000x64_1_0_0_1_n_n : DotDims S50000x512 S512x64 S50000x64 where
  lhsContracting := [1]
  rhsContracting := [0]
  lhsNonContracting := [0]
  rhsNonContracting := [1]
  lhsBatch := []
  rhsBatch := []
  wf := dot_S50000x512_S512x64_S50000x64_1_0_0_1_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.KernelRun.lean ====
/-
  The idealized kernel's run with its result named.

  @main is fourteen segments: eight gridded regions and six stretches of host operations. Run from any memory with
  zero counters, every weakly fair execution terminates, nothing faults, the fifteen argument arrays end as launched,
  and the result buffer ends at the contents the last segment boundary gives it: the fold of the segments' effects
  from the launch memory (a region replaces its output array by what its write-backs leave, a host stretch applies
  its operations). The launch is the one the frame of this program is proved by; here the final state is read at the
  result buffer as well as at the arguments.
-/
import proofs.«159152_j79439715107025_1_alg».proof.Proof.Gen.KernelIdeal.Frame

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last boundary's
    contents and every argument array as launched. -/
theorem run_result : θ_run defs (onTc (τ := τ) (main (F := F))) ⟨m, fun _ => 0, ρ⟩ (fun r => ∀ c : Dev nD,
      r.2.mem ((c.tc : Thread nD τ).loc main_v97) = W14 m ρ c (Proc.devRef .tc main_v97)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v97 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c),
       (h c _ (mem_uc main_arg13 (by decide))).trans (W14_main_arg13 m ρ c),
       (h c _ (mem_uc main_arg14 (by decide))).trans (W14_main_arg14 m ρ c)⟩)

end Cert.KernelIdeal.Val

end
-- ==== Proof.GcnSpec.lean ====
/-
  The network both programs compute, as one function of the argument arrays over the extended reals.

  Two graph-convolution layers and four dense layers over 50000 nodes. A dense layer reads, at node p and channel q,
  the sum over the shared axis of the products of row p of the features and column q of the weights, plus the bias
  at q; all but the last are followed by the scaled exponential linear unit
      selu(x) = s · (x if x > 0, else a · (exp x − 1)),
  with the two constants kept as the single-precision words both programs spell. A graph-convolution layer multiplies
  the features by its weights, aggregates the rows along the edges (self-loops added, each edge weighted by the
  symmetric inverse-square-root degree normalisation), adds the bias and applies selu. The aggregation is the same
  line of gather / scatter-add operations in both programs, so it is kept as ONE function "agg" of the transformed
  features, the edge list and the edge weights, and never opened: everything proved about it is that equal
  arguments give equal results.
-/
import Idealize.ShloMosaic.PureOps
import Idealize.ShloMosaic.PureOps.Ideal
import Idealize.ShloMosaic.Lib.ValueIdx

noncomputable section

namespace Cert.Gcn

open Idealize.ShloMosaic Idealize.ShloMosaic.ValueIdx
open scoped BigOperators

/-! ## Shapes -/

abbrev SN : Shape := ⟨1, ![50000]⟩
abbrev SE : Shape := ⟨1, ![1600000]⟩
abbrev S2xE : Shape := ⟨2, ![2, 1600000]⟩
abbrev S1xE : Shape := ⟨2, ![1, 1600000]⟩
abbrev SEN : Shape := ⟨1, ![1650000]⟩
abbrev SEN1 : Shape := ⟨2, ![1650000, 1]⟩
abbrev SEN64 : Shape := ⟨2, ![1650000, 64]⟩
abbrev SN64 : Shape := ⟨2, ![50000, 64]⟩
abbrev SN512 : Shape := ⟨2, ![50000, 512]⟩
abbrev S512x64 : Shape := ⟨2, ![512, 64]⟩
abbrev S64x64 : Shape := ⟨2, ![64, 64]⟩
abbrev S64 : Shape := ⟨1, ![64]⟩
abbrev S0 : Shape := ⟨0, ![]⟩

/-! ## The dense layers, index by index -/

/-- The scale of selu, as the single-precision word both programs carry. -/
abbrev seluScale : EReal := Ideal.ofBits .f32 0x3F867D5F#32
/-- The slope constant of selu's negative branch, as the single-precision word both programs carry. -/
abbrev seluAlpha : EReal := Ideal.ofBits .f32 0x3FD62D7D#32

/-- selu on the extended reals: the scale times x where x > 0 and times alpha · (exp x − 1) elsewhere. -/
def seluE (x : EReal) : EReal :=
  seluScale * Scalar.select (Ideal.cmp .ogt x 0) x (seluAlpha * (Ideal.exp x - 1))

/-- Rows by columns: entry (p, q) is the sum over the shared axis of x (p, c) · w (c, q). -/
def mm {m k n : ℕ} (x : FVec Ideal ⟨2, ![m, k]⟩ .f32) (w : FVec Ideal ⟨2, ![k, n]⟩ .f32) : FVec Ideal ⟨2, ![m, n]⟩ .f32 :=
  fun i => ∑ c : Fin k, x (ix2 (i 0 : Fin m) c) * w (ix2 c (i 1 : Fin n))

/-- A bias added along the rows, then selu. -/
def biasSelu {m n : ℕ} (a : FVec Ideal ⟨2, ![m, n]⟩ .f32) (b : FVec Ideal ⟨1, ![n]⟩ .f32) : FVec Ideal ⟨2, ![m, n]⟩ .f32 :=
  fun i => seluE (a i + b (ix1 (i 1 : Fin n)))

/-- A dense layer without activation. -/
def lin {m k n : ℕ} (h : FVec Ideal ⟨2, ![m, k]⟩ .f32) (w : FVec Ideal ⟨2, ![k, n]⟩ .f32) (b : FVec Ideal ⟨1, ![n]⟩ .f32) :
    FVec Ideal ⟨2, ![m, n]⟩ .f32 :=
  fun i => mm h w i + b (ix1 (i 1 : Fin n))

/-- A dense layer followed by selu. -/
def linSelu {m k n : ℕ} (h : FVec Ideal ⟨2, ![m, k]⟩ .f32) (w : FVec Ideal ⟨2, ![k, n]⟩ .f32) (b : FVec Ideal ⟨1, ![n]⟩ .f32) :
    FVec Ideal ⟨2, ![m, n]⟩ .f32 :=
  fun i => seluE (lin h w b i)

/-! ## The aggregation along the edges, kept whole -/

/-- The shape relations the aggregation's operations state (each program proves its own copies). -/
structure AggFacts : Prop where
  sl0 : S2xE.Slices ![0, 0] S1xE
  sl1 : S2xE.Slices ![1, 0] S1xE
  sc : S1xE.ShapeCasts SE
  cat : Shape.Concatenates [SE, SN] SEN 0
  bN : S0.BroadcastsInDim SN (![] : Fin 0 → Fin SN.rank)
  bEN1 : SEN.BroadcastsInDim SEN1 (![0] : Fin 1 → Fin SEN1.rank)
  bEN : S0.BroadcastsInDim SEN (![] : Fin 0 → Fin SEN.rank)
  bEN64 : SEN1.BroadcastsInDim SEN64 (![0, 1] : Fin 2 → Fin SEN64.rank)
  bN64 : S0.BroadcastsInDim SN64 (![] : Fin 0 → Fin SN64.rank)
  scat1 : ScatterDims.WF SN SEN1 SEN [] [0] [0] 1
  gat1 : GatherDims.WF SN SEN1 SEN [] [0] [] [0] [] 1 ![1]
  gat2 : GatherDims.WF SN64 SEN1 SEN64 [1] [0] [] [0] [] 1 ![1, 64]
  scat2 : ScatterDims.WF SN64 SEN1 SEN64 [1] [0] [0] 1

variable {F : FTy → Type} [FloatOps F]

/-- Node numbers that may be negative, wrapped once by the number of nodes (what indexing by an integer array does). -/
def wrapIdx (hf : AggFacts) (v : IVec SEN 32) : IVec SEN 32 :=
  select (cmpi .slt v (broadcastInDim SEN ![] hf.bEN (constantI S0 32 0#32)))
    (addi v (broadcastInDim SEN ![] hf.bEN (constantI S0 32 50000#32))) v

/-- The aggregation: sources and targets are the edge list's two rows followed by every node (the self-loops), the
    weights the edge weights followed by ones; the degree of a node is the scatter-add of the weights at the targets,
    its inverse square root kept where the degree is positive and 0 elsewhere; each row gathered at a source is
    scaled by the two ends' factors and the weight, and scatter-added at its target. -/
def agg (hf : AggFacts) (t : FVec F SN64 .f32) (ei : IVec S2xE 32) (ea : FVec F SE .f32) : FVec F SN64 .f32 :=
  let nodes : IVec SN 32 := iotaInDim SN 32 0
  let src : IVec SEN 32 :=
    concatenate SEN 0 [⟨SE, fun i => shapeCast SE (extractStridedSlice S1xE ![0, 0] ei hf.sl0) hf.sc i⟩, ⟨SN, nodes⟩] hf.cat
  let tgt : IVec SEN 32 :=
    concatenate SEN 0 [⟨SE, fun i => shapeCast SE (extractStridedSlice S1xE ![1, 0] ei hf.sl1) hf.sc i⟩, ⟨SN, nodes⟩] hf.cat
  let w : FVec F SEN .f32 :=
    concatenate SEN 0 [⟨SE, ea⟩, ⟨SN, broadcastInDim SN ![] hf.bN (constant (F := F) S0 .f32 0x3F800000#32)⟩] hf.cat
  let deg : FVec F SN .f32 :=
    Host.scatterAdd (⟨[], [0], [0], 1, hf.scat1⟩ : ScatterDims SN SEN1 SEN)
      (broadcastInDim SN ![] hf.bN (constant (F := F) S0 .f32 0x00000000#32)) (broadcastInDim SEN1 ![0] hf.bEN1 tgt) w
  let dinv : FVec F SN .f32 :=
    select (cmpf .ogt deg (broadcastInDim SN ![] hf.bN (constant (F := F) S0 .f32 0x00000000#32))) (Host.rsqrt deg)
      (broadcastInDim SN ![] hf.bN (id (constant (F := F) S0 .f32 0x00000000#32)))
  let g1 : GatherDims SN SEN1 SEN := ⟨[], [0], [], [], [0], 1, ![1], hf.gat1⟩
  let norm : FVec F SEN .f32 :=
    mulf (mulf (Host.gather g1 dinv (broadcastInDim SEN1 ![0] hf.bEN1 (wrapIdx hf src))) w)
      (Host.gather g1 dinv (broadcastInDim SEN1 ![0] hf.bEN1 (wrapIdx hf tgt)))
  let msg : FVec F SEN64 .f32 :=
    mulf (Host.gather (⟨[1], [0], [], [], [0], 1, ![1, 64], hf.gat2⟩ : GatherDims SN64 SEN1 SEN64) t
        (broadcastInDim SEN1 ![0] hf.bEN1 (wrapIdx hf src)))
      (broadcastInDim SEN64 ![0, 1] hf.bEN64 (broadcastInDim SEN1 ![0] hf.bEN1 norm))
  Host.scatterAdd (⟨[1], [0], [0], 1, hf.scat2⟩ : ScatterDims SN64 SEN1 SEN64)
    (broadcastInDim SN64 ![] hf.bN64 (constant (F := F) S0 .f32 0x00000000#32)) (broadcastInDim SEN1 ![0] hf.bEN1 tgt) msg

/-! ## The whole network -/

/-- The network: two graph-convolution layers (transform, aggregate, bias, selu), three dense layers with selu, one
    dense layer without. -/
def net (hf : AggFacts) (x : FVec Ideal SN512 .f32) (ei : IVec S2xE 32) (ea : FVec Ideal SE .f32)
    (gW1 : FVec Ideal S512x64 .f32) (gb1 : FVec Ideal S64 .f32) (gW2 : FVec Ideal S64x64 .f32) (gb2 : FVec Ideal S64 .f32)
    (W0 : FVec Ideal S64x64 .f32) (b0 : FVec Ideal S64 .f32) (W1 : FVec Ideal S64x64 .f32) (b1 : FVec Ideal S64 .f32)
    (W2 : FVec Ideal S64x64 .f32) (b2 : FVec Ideal S64 .f32) (W3 : FVec Ideal S64x64 .f32) (b3 : FVec Ideal S64 .f32) :
    FVec Ideal SN64 .f32 :=
  let h1 : FVec Ideal SN64 .f32 := biasSelu (agg hf (mm x gW1) ei ea) gb1
  let h2 : FVec Ideal SN64 .f32 := biasSelu (agg hf (mm h1 gW2) ei ea) gb2
  lin (linSelu (linSelu (linSelu h2 W0 b0) W1 b1) W2 b2) W3 b3

end Cert.Gcn

end
-- ==== Proof.KAgg.lean ====
/-
  The host glue between the regions is the aggregation along the edges.

  Between the first product and the first bias stage, and again between the second pair, @main runs a line of 58
  host operations: the edge list's two rows followed by the node numbers (the self-loops), the weights followed by
  ones, the degrees by a scatter-add, their inverse square roots where positive, the two gathers of those factors,
  the gather of the transformed rows, the scaling and the final scatter-add. Read from ANY contents of the buffers,
  what the line leaves in its last buffer is the aggregation Cert.Gcn.agg of the three buffers it reads: the
  transformed features, the edge list and the edge weights. The composed term of the operations is that function's
  definition, term for term.
-/
import proofs.«159152_j79439715107025_1_alg».proof.Proof.Gen.KernelIdeal.Frame
import proofs.«159152_j79439715107025_1_alg».proof.Proof.GcnSpec
import Idealize.ShloMosaic.Lib.StableHlo.Run

set_option maxRecDepth 16384

noncomputable section

namespace Cert.KernelIdeal.Val

open Cert.KernelIdeal Cert.KernelIdeal.Gen
open Idealize.ShloMosaic Idealize.ShloMosaic.TcCoe Idealize.SL.Sem Idealize.ShloMosaic.StableHlo

variable {F : FTy → Type} [FloatOps F]

/-- The first aggregation: from any contents X, the stretch leaves in its last buffer the aggregation of the
    transformed features, the edge list and the edge weights X holds. -/
theorem agg1_any (hf : Cert.Gcn.AggFacts) (X : Valuation τ sig (Elt F)) :
    StableHlo.after hostOps1_2 (StableHlo.after hostOps1_1 (StableHlo.after hostOps1 X)) (Proc.devRef .tc main_v45)
      = Cert.Gcn.agg hf (X (Proc.devRef .tc main_v0)) (X (Proc.devRef .tc main_arg1)) (X (Proc.devRef .tc main_arg2)) := by
  after_results_simp
  rfl

/-- The second aggregation, the same line over its own buffers. -/
theorem agg2_any (hf : Cert.Gcn.AggFacts) (X : Valuation τ sig (Elt F)) :
    StableHlo.after hostOps3_2 (StableHlo.after hostOps3_1 (StableHlo.after hostOps3 X)) (Proc.devRef .tc main_v92)
      = Cert.Gcn.agg hf (X (Proc.devRef .tc main_v47)) (X (Proc.devRef .tc main_arg1)) (X (Proc.devRef .tc main_arg2)) := by
  after_results_simp
  rfl

end Cert.KernelIdeal.Val

end
-- ==== Proof.LibFoldSteps.lean ====
/-
  A straight-line program in single-assignment form, read one operation at a time at the END valuation.

  A line of operations runs from given buffer contents; each operation rewrites the one buffer it writes, as a
  function of the contents of its operand buffers at that moment, and leaves every other buffer alone. Suppose each
  buffer is written by at most one operation of the line, and an operation's operands are written before it (or not
  at all). Then an operand is never written again after the operation has read it, and neither is the operation's
  own result: so at the END of the line the operation's buffer holds its function of the END contents of its
  operands. That is one equation per operation about one and the same valuation — the contents after the whole
  line — and the end contents of every buffer follow in program order, each from the equations of its operands; no
  composed term is ever built.

  The line is a list `ops`; `wrs` names, in order, the buffer each operation writes (one fact, `hw`, ties the two
  lists together), and "not written from the `k`-th operation on" is non-membership in `wrs.drop k`, decided over the
  references. `step_nullary … step_ternary` are the equation for an operation of zero to three operands, given which
  operation stands at position `k`. The variants `step_nullaryT … step_ternaryT` are the same for the operations of a
  called function, which carry each buffer with the type of the value it holds and move contents between that type and
  the buffer's own along the equation of the two: at a literal buffer that equation is `rfl`, the moves are the
  identity, and the variants' conclusion is the operation's own function at the operands' end contents, with no
  move left in it.
-/
import Idealize.ShloMosaic.Lib.StableHlo.Run

noncomputable section

namespace Cert.LibFoldSteps

open Idealize.ShloMosaic Idealize.ShloMosaic.TcCoe Idealize.SL.Sem Idealize.ShloMosaic.StableHlo

section General

variable {τ : Topo} {sig : RefSig} {Val : EltTy → Type}

/-- Running two lines one after the other is running their concatenation. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

variable {ops : List (HloOp τ sig Val)} {wrs : List (Ref sig .tc)}

/-- A buffer that none of the operations from the `k`-th on writes keeps its contents through them: `wrs` names, in
    order, the one buffer each operation writes. -/
theorem after_drop_frame (hw : ops.map HloOp.writes = wrs.map fun r => ({Proc.devRef .tc r} : Finset (DevRef τ sig)))
    (k : ℕ) (X : Valuation τ sig Val) (r : Ref sig .tc) (hr : r ∉ wrs.drop k) :
    after (ops.drop k) X (Proc.devRef .tc r) = X (Proc.devRef .tc r) := by
  refine after_of_forall_not_mem _ X fun op hop hmem => hr ?_
  have h1 : op.writes ∈ ((ops.map HloOp.writes).drop k) := by
    rw [← List.map_drop]; exact List.mem_map_of_mem hop
  rw [hw, ← List.map_drop] at h1
  obtain ⟨r', hr', he⟩ := List.mem_map.mp h1
  rw [← he, Finset.mem_singleton] at hmem
  exact (Proc.devRef_injective _ hmem) ▸ hr'

/-- The line split at its `k`-th operation. -/
theorem after_split {k : ℕ} {op : HloOp τ sig Val} (hk : ops[k]? = some op) (V₀ : Valuation τ sig Val) :
    after ops V₀ = after (ops.drop (k + 1)) (op.result (after (ops.take k) V₀)) := by
  obtain ⟨h, rfl⟩ := List.getElem?_eq_some_iff.mp hk
  conv_lhs => rw [← List.take_append_drop k ops, after_append, List.drop_eq_getElem_cons h, after_cons]

/-- An operand of the `k`-th operation, not written from there on, holds at the end what it held before the operation. -/
theorem read_operand (hw : ops.map HloOp.writes = wrs.map fun r => ({Proc.devRef .tc r} : Finset (DevRef τ sig)))
    (k : ℕ) (V₀ : Valuation τ sig Val) (a : Ref sig .tc) (ha : a ∉ wrs.drop k) :
    after (ops.take k) V₀ (Proc.devRef .tc a) = after ops V₀ (Proc.devRef .tc a) := by
  conv_rhs => rw [← List.take_append_drop k ops, after_append]
  exact (after_drop_frame hw k _ a ha).symm

/-- The end contents of the buffer of a `k`-th operation without operands. -/
theorem step_nullary (hw : ops.map HloOp.writes = wrs.map fun r => ({Proc.devRef .tc r} : Finset (DevRef τ sig)))
    (k : ℕ) {y : Ref sig .tc} {v : y.ty.Contents Val} {hy}
    (hk : ops[k]? = some (nullary y v hy)) (hy' : y ∉ wrs.drop (k + 1)) (V₀ : Valuation τ sig Val) :
    after ops V₀ (Proc.devRef .tc y) = v := by
  rw [after_split hk V₀, after_drop_frame hw (k + 1) _ y hy', nullary_result]

/-- The end contents of the buffer of a `k`-th operation of one operand, from the operand's. -/
theorem step_unary (hw : ops.map HloOp.writes = wrs.map fun r => ({Proc.devRef .tc r} : Finset (DevRef τ sig)))
    (k : ℕ) {x y : Ref sig .tc} {f : x.ty.Contents Val → y.ty.Contents Val} {hx hy}
    (hk : ops[k]? = some (unary x y f hx hy)) (hy' : y ∉ wrs.drop (k + 1)) (hx' : x ∉ wrs.drop k)
    (V₀ : Valuation τ sig Val) {vx : x.ty.Contents Val} (Hx : after ops V₀ (Proc.devRef .tc x) = vx) :
    after ops V₀ (Proc.devRef .tc y) = f vx := by
  rw [after_split hk V₀, after_drop_frame hw (k + 1) _ y hy', unary_result, read_operand hw k V₀ x hx', Hx]

/-- The same for two operands. -/
theorem step_binary (hw : ops.map HloOp.writes = wrs.map fun r => ({Proc.devRef .tc r} : Finset (DevRef τ sig)))
    (k : ℕ) {a b y : Ref sig .tc} {f : a.ty.Contents Val → b.ty.Contents Val → y.ty.Contents Val} {ha hb hy}
    (hk : ops[k]? = some (binary a b y f ha hb hy)) (hy' : y ∉ wrs.drop (k + 1)) (ha' : a ∉ wrs.drop k)
    (hb' : b ∉ wrs.drop k) (V₀ : Valuation τ sig Val) {va : a.ty.Contents Val} {vb : b.ty.Contents Val}
    (Ha : after ops V₀ (Proc.devRef .tc a) = va) (Hb : after ops V₀ (Proc.devRef .tc b) = vb) :
    after ops V₀ (Proc.devRef .tc y) = f va vb := by
  rw [after_split hk V₀, after_drop_frame hw (k + 1) _ y hy', binary_result, read_operand hw k V₀ a ha',
    read_operand hw k V₀ b hb', Ha, Hb]

/-- The same for three operands. -/
theorem step_ternary (hw : ops.map HloOp.writes = wrs.map fun r => ({Proc.devRef .tc r} : Finset (DevRef τ sig)))
    (k : ℕ) {c a b y : Ref sig .tc} {f : c.ty.Contents Val → a.ty.Contents Val → b.ty.Contents Val → y.ty.Contents Val}
    {hc ha hb hy}
    (hk : ops[k]? = some (ternary c a b y f hc ha hb hy)) (hy' : y ∉ wrs.drop (k + 1)) (hc' : c ∉ wrs.drop k)
    (ha' : a ∉ wrs.drop k) (hb' : b ∉ wrs.drop k) (V₀ : Valuation τ sig Val)
    {vc : c.ty.Contents Val} {va : a.ty.Contents Val} {vb : b.ty.Contents Val}
    (Hc : after ops V₀ (Proc.devRef .tc c) = vc) (Ha : after ops V₀ (Proc.devRef .tc a) = va)
    (Hb : after ops V₀ (Proc.devRef .tc b) = vb) :
    after ops V₀ (Proc.devRef .tc y) = f vc va vb := by
  rw [after_split hk V₀, after_drop_frame hw (k + 1) _ y hy', ternary_result, read_operand hw k V₀ c hc',
    read_operand hw k V₀ a ha', read_operand hw k V₀ b hb', Hc, Ha, Hb]

/-! A called function's operations carry each buffer with the type of the value it holds, and move contents between
that type and the buffer's own along the equation of the two; at a literal buffer the equation is `rfl` and the
moves are the identity. The four steps again for such operations, stated without the moves, so that what a step
concludes is the operation's own function at the operands' end contents. -/

/-- The end contents of the buffer of a `k`-th operation without operands, in a called function. -/
theorem step_nullaryT (hw : ops.map HloOp.writes = wrs.map fun r => ({Proc.devRef .tc r} : Finset (DevRef τ sig)))
    (k : ℕ) {ry : Ref sig .tc} {hdy : ry.space ≠ .host} {huy : ry.isScoped = false} {v : ry.ty.Contents Val}
    (hk : ops[k]? = some (TRef.nullary (TRef.of (T := ry.ty) ry rfl hdy huy) v))
    (hy' : ry ∉ wrs.drop (k + 1)) (V₀ : Valuation τ sig Val) :
    after ops V₀ (Proc.devRef .tc ry) = v :=
  step_nullary hw k hk hy' V₀

/-- One operand. -/
theorem step_unaryT (hw : ops.map HloOp.writes = wrs.map fun r => ({Proc.devRef .tc r} : Finset (DevRef τ sig)))
    (k : ℕ) {rx ry : Ref sig .tc} {hdx : rx.space ≠ .host} {hux : rx.isScoped = false}
    {hdy : ry.space ≠ .host} {huy : ry.isScoped = false} {f : rx.ty.Contents Val → ry.ty.Contents Val}
    (hk : ops[k]? = some (TRef.unary (TRef.of (T := rx.ty) rx rfl hdx hux) (TRef.of (T := ry.ty) ry rfl hdy huy) f))
    (hy' : ry ∉ wrs.drop (k + 1)) (hx' : rx ∉ wrs.drop k) (V₀ : Valuation τ sig Val)
    {vx : rx.ty.Contents Val} (Hx : after ops V₀ (Proc.devRef .tc rx) = vx) :
    after ops V₀ (Proc.devRef .tc ry) = f vx :=
  step_unary hw k hk hy' hx' V₀ Hx

/-- Two operands. -/
theorem step_binaryT (hw : ops.map HloOp.writes = wrs.map fun r => ({Proc.devRef .tc r} : Finset (DevRef τ sig)))
    (k : ℕ) {ra rb ry : Ref sig .tc} {hda : ra.space ≠ .host} {hua : ra.isScoped = false}
    {hdb : rb.space ≠ .host} {hub : rb.isScoped = false} {hdy : ry.space ≠ .host} {huy : ry.isScoped = false}
    {f : ra.ty.Contents Val → rb.ty.Contents Val → ry.ty.Contents Val}
    (hk : ops[k]? = some (TRef.binary (TRef.of (T := ra.ty) ra rfl hda hua) (TRef.of (T := rb.ty) rb rfl hdb hub)
      (TRef.of (T := ry.ty) ry rfl hdy huy) f))
    (hy' : ry ∉ wrs.drop (k + 1)) (ha' : ra ∉ wrs.drop k) (hb' : rb ∉ wrs.drop k) (V₀ : Valuation τ sig Val)
    {va : ra.ty.Contents Val} {vb : rb.ty.Contents Val}
    (Ha : after ops V₀ (Proc.devRef .tc ra) = va) (Hb : after ops V₀ (Proc.devRef .tc rb) = vb) :
    after ops V₀ (Proc.devRef .tc ry) = f va vb :=
  step_binary hw k hk hy' ha' hb' V₀ Ha Hb

/-- Three operands. -/
theorem step_ternaryT (hw : ops.map HloOp.writes = wrs.map fun r => ({Proc.devRef .tc r} : Finset (DevRef τ sig)))
    (k : ℕ) {rc ra rb ry : Ref sig .tc} {hdc : rc.space ≠ .host} {huc : rc.isScoped = false}
    {hda : ra.space ≠ .host} {hua : ra.isScoped = false}
    {hdb : rb.space ≠ .host} {hub : rb.isScoped = false} {hdy : ry.space ≠ .host} {huy : ry.isScoped = false}
    {f : rc.ty.Contents Val → ra.ty.Contents Val → rb.ty.Contents Val → ry.ty.Contents Val}
    (hk : ops[k]? = some (TRef.ternary (TRef.of (T := rc.ty) rc rfl hdc huc) (TRef.of (T := ra.ty) ra rfl hda hua)
      (TRef.of (T := rb.ty) rb rfl hdb hub) (TRef.of (T := ry.ty) ry rfl hdy huy) f))
    (hy' : ry ∉ wrs.drop (k + 1)) (hc' : rc ∉ wrs.drop k) (ha' : ra ∉ wrs.drop k) (hb' : rb ∉ wrs.drop k)
    (V₀ : Valuation τ sig Val)
    {vc : rc.ty.Contents Val} {va : ra.ty.Contents Val} {vb : rb.ty.Contents Val}
    (Hc : after ops V₀ (Proc.devRef .tc rc) = vc) (Ha : after ops V₀ (Proc.devRef .tc ra) = va)
    (Hb : after ops V₀ (Proc.devRef .tc rb) = vb) :
    after ops V₀ (Proc.devRef .tc ry) = f vc va vb :=
  step_ternary hw k hk hy' hc' ha' hb' V₀ Hc Ha Hb

end General

end Cert.LibFoldSteps

end
-- ==== Proof.KArgs.lean ====
/-
  The kernel's arguments are unchanged at the earlier boundaries of its run.

  The run is a fold through fifteen boundaries: a region replaces the contents of its own arrays only, and a line of
  host operations only those of the buffers its operations write. An argument buffer is written by neither, and
  before the region that first reads it through a window no region names it at all; so at such a boundary it still
  holds what the launch memory held. Each line of host operations is first given its frame: a buffer outside the
  list of the buffers the line writes, in order, keeps its contents through the line.
-/
import proofs.«159152_j79439715107025_1_alg».proof.Proof.Gen.KernelIdeal.Frame
import proofs.«159152_j79439715107025_1_alg».proof.Proof.LibFoldSteps

set_option maxRecDepth 16384

noncomputable section

namespace Cert.KernelIdeal.Val

open Idealize.ShloMosaic Idealize.ShloMosaic.TcCoe Idealize.SL.Sem
open Cert.KernelIdeal Cert.KernelIdeal.Gen

variable {F : FTy → Type} [FloatOps F]

/-! ## The frame of each line of host operations -/

/-- A buffer that none of the operations of the line writes keeps its contents through it. -/
theorem hostOps1_frame (X : Valuation τ sig (Elt F)) (b : Ref sig .tc)
    (hb : b ∉ ([main_v1, main_v2, main_v3, main_v4, main_v5, main_v6, main_v7, main_cst, main_v8, main_v9, main_cst_0, main_v10, main_v11, main_v12, main_cst_1, main_v13, main_v14, main_v15, main_cst_2] : List (Ref sig .tc))) :
    StableHlo.after (hostOps1 (F := F)) X (Proc.devRef .tc b) = X (Proc.devRef .tc b) :=
  Cert.LibFoldSteps.after_drop_frame (ops := hostOps1 (F := F))
    (wrs := [main_v1, main_v2, main_v3, main_v4, main_v5, main_v6, main_v7, main_cst, main_v8, main_v9, main_cst_0, main_v10, main_v11, main_v12, main_cst_1, main_v13, main_v14, main_v15, main_cst_2]) rfl 0 X b hb

/-- A buffer that none of the operations of the line writes keeps its contents through it. -/
theorem hostOps1_1_frame (X : Valuation τ sig (Elt F)) (b : Ref sig .tc)
    (hb : b ∉ ([main_call0_v0, main_call0_v1, main_v16] : List (Ref sig .tc))) :
    StableHlo.after (hostOps1_1 (F := F)) X (Proc.devRef .tc b) = X (Proc.devRef .tc b) :=
  Cert.LibFoldSteps.after_drop_frame (ops := hostOps1_1 (F := F))
    (wrs := [main_call0_v0, main_call0_v1, main_v16]) rfl 0 X b hb

/-- A buffer that none of the operations of the line writes keeps its contents through it. -/
theorem hostOps1_2_frame (X : Valuation τ sig (Elt F)) (b : Ref sig .tc)
    (hb : b ∉ ([main_c, main_v17, main_v18, main_c_3, main_v19, main_v20, main_v21, main_v22, main_v23, main_v24, main_c_4, main_v25, main_v26, main_c_5, main_v27, main_v28, main_v29, main_v30, main_v31, main_v32, main_c_6, main_v33, main_v34, main_c_7, main_v35, main_v36, main_v37, main_v38, main_v39, main_v40, main_v41, main_v42, main_cst_8, main_v43, main_v44, main_v45] : List (Ref sig .tc))) :
    StableHlo.after (hostOps1_2 (F := F)) X (Proc.devRef .tc b) = X (Proc.devRef .tc b) :=
  Cert.LibFoldSteps.after_drop_frame (ops := hostOps1_2 (F := F))
    (wrs := [main_c, main_v17, main_v18, main_c_3, main_v19, main_v20, main_v21, main_v22, main_v23, main_v24, main_c_4, main_v25, main_v26, main_c_5, main_v27, main_v28, main_v29, main_v30, main_v31, main_v32, main_c_6, main_v33, main_v34, main_c_7, main_v35, main_v36, main_v37, main_v38, main_v39, main_v40, main_v41, main_v42, main_cst_8, main_v43, main_v44, main_v45]) rfl 0 X b hb

/-- A buffer that none of the operations of the line writes keeps its contents through it. -/
theorem hostOps3_frame (X : Valuation τ sig (Elt F)) (b : Ref sig .tc)
    (hb : b ∉ ([main_v48, main_v49, main_v50, main_v51, main_v52, main_v53, main_v54, main_cst_9, main_v55, main_v56, main_cst_10, main_v57, main_v58, main_v59, main_cst_11, main_v60, main_v61, main_v62, main_cst_12] : List (Ref sig .tc))) :
    StableHlo.after (hostOps3 (F := F)) X (Proc.devRef .tc b) = X (Proc.devRef .tc b) :=
  Cert.LibFoldSteps.after_drop_frame (ops := hostOps3 (F := F))
    (wrs := [main_v48, main_v49, main_v50, main_v51, main_v52, main_v53, main_v54, main_cst_9, main_v55, main_v56, main_cst_10, main_v57, main_v58, main_v59, main_cst_11, main_v60, main_v61, main_v62, main_cst_12]) rfl 0 X b hb

/-- A buffer that none of the operations of the line writes keeps its contents through it. -/
theorem hostOps3_1_frame (X : Valuation τ sig (Elt F)) (b : Ref sig .tc)
    (hb : b ∉ ([main_call1_v0, main_call1_v1, main_v63] : List (Ref sig .tc))) :
    StableHlo.after (hostOps3_1 (F := F)) X (Proc.devRef .tc b) = X (Proc.devRef .tc b) :=
  Cert.LibFoldSteps.after_drop_frame (ops := hostOps3_1 (F := F))
    (wrs := [main_call1_v0, main_call1_v1, main_v63]) rfl 0 X b hb

/-- A buffer that none of the operations of the line writes keeps its contents through it. -/
theorem hostOps3_2_frame (X : Valuation τ sig (Elt F)) (b : Ref sig .tc)
    (hb : b ∉ ([main_c_13, main_v64, main_v65, main_c_14, main_v66, main_v67, main_v68, main_v69, main_v70, main_v71, main_c_15, main_v72, main_v73, main_c_16, main_v74, main_v75, main_v76, main_v77, main_v78, main_v79, main_c_17, main_v80, main_v81, main_c_18, main_v82, main_v83, main_v84, main_v85, main_v86, main_v87, main_v88, main_v89, main_cst_19, main_v90, main_v91, main_v92] : List (Ref sig .tc))) :
    StableHlo.after (hostOps3_2 (F := F)) X (Proc.devRef .tc b) = X (Proc.devRef .tc b) :=
  Cert.LibFoldSteps.after_drop_frame (ops := hostOps3_2 (F := F))
    (wrs := [main_c_13, main_v64, main_v65, main_c_14, main_v66, main_v67, main_v68, main_v69, main_v70, main_v71, main_c_15, main_v72, main_v73, main_c_16, main_v74, main_v75, main_v76, main_v77, main_v78, main_v79, main_c_17, main_v80, main_v81, main_c_18, main_v82, main_v83, main_v84, main_v85, main_v86, main_v87, main_v88, main_v89, main_cst_19, main_v90, main_v91, main_v92]) rfl 0 X b hb

/-! ## The arguments at the earlier boundaries -/

variable (m : (ℓ : Loc nD τ sig) → Buf (Elt F) ℓ) (ρ : Dev nD → PrngReg) (c : Dev nD)

theorem W1_main_arg1 : Gen.W1 m ρ c (Proc.devRef .tc main_arg1) = m ((c : Thread nD τ).loc main_arg1) :=
  calc Gen.W1 m ρ c (Proc.devRef .tc main_arg1)
    _ = Gen.W0 m ρ c (Proc.devRef .tc main_arg1) := W1_of_ne m ρ c main_arg1 (by decide)
    _ = m ((c : Thread nD τ).loc main_arg1) := rfl

theorem W1_main_arg2 : Gen.W1 m ρ c (Proc.devRef .tc main_arg2) = m ((c : Thread nD τ).loc main_arg2) :=
  calc Gen.W1 m ρ c (Proc.devRef .tc main_arg2)
    _ = Gen.W0 m ρ c (Proc.devRef .tc main_arg2) := W1_of_ne m ρ c main_arg2 (by decide)
    _ = m ((c : Thread nD τ).loc main_arg2) := rfl

theorem W4_main_arg4 : Gen.W4 m ρ c (Proc.devRef .tc main_arg4) = m ((c : Thread nD τ).loc main_arg4) :=
  calc Gen.W4 m ρ c (Proc.devRef .tc main_arg4)
    _ = Gen.W3 m ρ c (Proc.devRef .tc main_arg4) := hostOps1_2_frame _ main_arg4 (by decide)
    _ = Gen.W2 m ρ c (Proc.devRef .tc main_arg4) := hostOps1_1_frame _ main_arg4 (by decide)
    _ = Gen.W1 m ρ c (Proc.devRef .tc main_arg4) := hostOps1_frame _ main_arg4 (by decide)
    _ = Gen.W0 m ρ c (Proc.devRef .tc main_arg4) := W1_of_ne m ρ c main_arg4 (by decide)
    _ = m ((c : Thread nD τ).loc main_arg4) := rfl

theorem W5_main_arg5 : Gen.W5 m ρ c (Proc.devRef .tc main_arg5) = m ((c : Thread nD τ).loc main_arg5) :=
  calc Gen.W5 m ρ c (Proc.devRef .tc main_arg5)
    _ = Gen.W4 m ρ c (Proc.devRef .tc main_arg5) := W5_of_ne m ρ c main_arg5 (by decide)
    _ = Gen.W3 m ρ c (Proc.devRef .tc main_arg5) := hostOps1_2_frame _ main_arg5 (by decide)
    _ = Gen.W2 m ρ c (Proc.devRef .tc main_arg5) := hostOps1_1_frame _ main_arg5 (by decide)
    _ = Gen.W1 m ρ c (Proc.devRef .tc main_arg5) := hostOps1_frame _ main_arg5 (by decide)
    _ = Gen.W0 m ρ c (Proc.devRef .tc main_arg5) := W1_of_ne m ρ c main_arg5 (by decide)
    _ = m ((c : Thread nD τ).loc main_arg5) := rfl

theorem W6_main_arg1 : Gen.W6 m ρ c (Proc.devRef .tc main_arg1) = m ((c : Thread nD τ).loc main_arg1) :=
  calc Gen.W6 m ρ c (Proc.devRef .tc main_arg1)
    _ = Gen.W5 m ρ c (Proc.devRef .tc main_arg1) := W6_of_ne m ρ c main_arg1 (by decide)
    _ = Gen.W4 m ρ c (Proc.devRef .tc main_arg1) := W5_of_ne m ρ c main_arg1 (by decide)
    _ = Gen.W3 m ρ c (Proc.devRef .tc main_arg1) := hostOps1_2_frame _ main_arg1 (by decide)
    _ = Gen.W2 m ρ c (Proc.devRef .tc main_arg1) := hostOps1_1_frame _ main_arg1 (by decide)
    _ = Gen.W1 m ρ c (Proc.devRef .tc main_arg1) := hostOps1_frame _ main_arg1 (by decide)
    _ = Gen.W0 m ρ c (Proc.devRef .tc main_arg1) := W1_of_ne m ρ c main_arg1 (by decide)
    _ = m ((c : Thread nD τ).loc main_arg1) := rfl

theorem W6_main_arg2 : Gen.W6 m ρ c (Proc.devRef .tc main_arg2) = m ((c : Thread nD τ).loc main_arg2) :=
  calc Gen.W6 m ρ c (Proc.devRef .tc main_arg2)
    _ = Gen.W5 m ρ c (Proc.devRef .tc main_arg2) := W6_of_ne m ρ c main_arg2 (by decide)
    _ = Gen.W4 m ρ c (Proc.devRef .tc main_arg2) := W5_of_ne m ρ c main_arg2 (by decide)
    _ = Gen.W3 m ρ c (Proc.devRef .tc main_arg2) := hostOps1_2_frame _ main_arg2 (by decide)
    _ = Gen.W2 m ρ c (Proc.devRef .tc main_arg2) := hostOps1_1_frame _ main_arg2 (by decide)
    _ = Gen.W1 m ρ c (Proc.devRef .tc main_arg2) := hostOps1_frame _ main_arg2 (by decide)
    _ = Gen.W0 m ρ c (Proc.devRef .tc main_arg2) := W1_of_ne m ρ c main_arg2 (by decide)
    _ = m ((c : Thread nD τ).loc main_arg2) := rfl

theorem W9_main_arg6 : Gen.W9 m ρ c (Proc.devRef .tc main_arg6) = m ((c : Thread nD τ).loc main_arg6) :=
  calc Gen.W9 m ρ c (Proc.devRef .tc main_arg6)
    _ = Gen.W8 m ρ c (Proc.devRef .tc main_arg6) := hostOps3_2_frame _ main_arg6 (by decide)
    _ = Gen.W7 m ρ c (Proc.devRef .tc main_arg6) := hostOps3_1_frame _ main_arg6 (by decide)
    _ = Gen.W6 m ρ c (Proc.devRef .tc main_arg6) := hostOps3_frame _ main_arg6 (by decide)
    _ = Gen.W5 m ρ c (Proc.devRef .tc main_arg6) := W6_of_ne m ρ c main_arg6 (by decide)
    _ = Gen.W4 m ρ c (Proc.devRef .tc main_arg6) := W5_of_ne m ρ c main_arg6 (by decide)
    _ = Gen.W3 m ρ c (Proc.devRef .tc main_arg6) := hostOps1_2_frame _ main_arg6 (by decide)
    _ = Gen.W2 m ρ c (Proc.devRef .tc main_arg6) := hostOps1_1_frame _ main_arg6 (by decide)
    _ = Gen.W1 m ρ c (Proc.devRef .tc main_arg6) := hostOps1_frame _ main_arg6 (by decide)
    _ = Gen.W0 m ρ c (Proc.devRef .tc main_arg6) := W1_of_ne m ρ c main_arg6 (by decide)
    _ = m ((c : Thread nD τ).loc main_arg6) := rfl

theorem W10_main_arg7 : Gen.W10 m ρ c (Proc.devRef .tc main_arg7) = m ((c : Thread nD τ).loc main_arg7) :=
  calc Gen.W10 m ρ c (Proc.devRef .tc main_arg7)
    _ = Gen.W9 m ρ c (Proc.devRef .tc main_arg7) := W10_of_ne m ρ c main_arg7 (by decide)
    _ = Gen.W8 m ρ c (Proc.devRef .tc main_arg7) := hostOps3_2_frame _ main_arg7 (by decide)
    _ = Gen.W7 m ρ c (Proc.devRef .tc main_arg7) := hostOps3_1_frame _ main_arg7 (by decide)
    _ = Gen.W6 m ρ c (Proc.devRef .tc main_arg7) := hostOps3_frame _ main_arg7 (by decide)
    _ = Gen.W5 m ρ c (Proc.devRef .tc main_arg7) := W6_of_ne m ρ c main_arg7 (by decide)
    _ = Gen.W4 m ρ c (Proc.devRef .tc main_arg7) := W5_of_ne m ρ c main_arg7 (by decide)
    _ = Gen.W3 m ρ c (Proc.devRef .tc main_arg7) := hostOps1_2_frame _ main_arg7 (by decide)
    _ = Gen.W2 m ρ c (Proc.devRef .tc main_arg7) := hostOps1_1_frame _ main_arg7 (by decide)
    _ = Gen.W1 m ρ c (Proc.devRef .tc main_arg7) := hostOps1_frame _ main_arg7 (by decide)
    _ = Gen.W0 m ρ c (Proc.devRef .tc main_arg7) := W1_of_ne m ρ c main_arg7 (by decide)
    _ = m ((c : Thread nD τ).loc main_arg7) := rfl

theorem W10_main_arg8 : Gen.W10 m ρ c (Proc.devRef .tc main_arg8) = m ((c : Thread nD τ).loc main_arg8) :=
  calc Gen.W10 m ρ c (Proc.devRef .tc main_arg8)
    _ = Gen.W9 m ρ c (Proc.devRef .tc main_arg8) := W10_of_ne m ρ c main_arg8 (by decide)
    _ = Gen.W8 m ρ c (Proc.devRef .tc main_arg8) := hostOps3_2_frame _ main_arg8 (by decide)
    _ = Gen.W7 m ρ c (Proc.devRef .tc main_arg8) := hostOps3_1_frame _ main_arg8 (by decide)
    _ = Gen.W6 m ρ c (Proc.devRef .tc main_arg8) := hostOps3_frame _ main_arg8 (by decide)
    _ = Gen.W5 m ρ c (Proc.devRef .tc main_arg8) := W6_of_ne m ρ c main_arg8 (by decide)
    _ = Gen.W4 m ρ c (Proc.devRef .tc main_arg8) := W5_of_ne m ρ c main_arg8 (by decide)
    _ = Gen.W3 m ρ c (Proc.devRef .tc main_arg8) := hostOps1_2_frame _ main_arg8 (by decide)
    _ = Gen.W2 m ρ c (Proc.devRef .tc main_arg8) := hostOps1_1_frame _ main_arg8 (by decide)
    _ = Gen.W1 m ρ c (Proc.devRef .tc main_arg8) := hostOps1_frame _ main_arg8 (by decide)
    _ = Gen.W0 m ρ c (Proc.devRef .tc main_arg8) := W1_of_ne m ρ c main_arg8 (by decide)
    _ = m ((c : Thread nD τ).loc main_arg8) := rfl

theorem W11_main_arg9 : Gen.W11 m ρ c (Proc.devRef .tc main_arg9) = m ((c : Thread nD τ).loc main_arg9) :=
  calc Gen.W11 m ρ c (Proc.devRef .tc main_arg9)
    _ = Gen.W10 m ρ c (Proc.devRef .tc main_arg9) := W11_of_ne m ρ c main_arg9 (by decide)
    _ = Gen.W9 m ρ c (Proc.devRef .tc main_arg9) := W10_of_ne m ρ c main_arg9 (by decide)
    _ = Gen.W8 m ρ c (Proc.devRef .tc main_arg9) := hostOps3_2_frame _ main_arg9 (by decide)
    _ = Gen.W7 m ρ c (Proc.devRef .tc main_arg9) := hostOps3_1_frame _ main_arg9 (by decide)
    _ = Gen.W6 m ρ c (Proc.devRef .tc main_arg9) := hostOps3_frame _ main_arg9 (by decide)
    _ = Gen.W5 m ρ c (Proc.devRef .tc main_arg9) := W6_of_ne m ρ c main_arg9 (by decide)
    _ = Gen.W4 m ρ c (Proc.devRef .tc main_arg9) := W5_of_ne m ρ c main_arg9 (by decide)
    _ = Gen.W3 m ρ c (Proc.devRef .tc main_arg9) := hostOps1_2_frame _ main_arg9 (by decide)
    _ = Gen.W2 m ρ c (Proc.devRef .tc main_arg9) := hostOps1_1_frame _ main_arg9 (by decide)
    _ = Gen.W1 m ρ c (Proc.devRef .tc main_arg9) := hostOps1_frame _ main_arg9 (by decide)
    _ = Gen.W0 m ρ c (Proc.devRef .tc main_arg9) := W1_of_ne m ρ c main_arg9 (by decide)
    _ = m ((c : Thread nD τ).loc main_arg9) := rfl

theorem W11_main_arg10 : Gen.W11 m ρ c (Proc.devRef .tc main_arg10) = m ((c : Thread nD τ).loc main_arg10) :=
  calc Gen.W11 m ρ c (Proc.devRef .tc main_arg10)
    _ = Gen.W10 m ρ c (Proc.devRef .tc main_arg10) := W11_of_ne m ρ c main_arg10 (by decide)
    _ = Gen.W9 m ρ c (Proc.devRef .tc main_arg10) := W10_of_ne m ρ c main_arg10 (by decide)
    _ = Gen.W8 m ρ c (Proc.devRef .tc main_arg10) := hostOps3_2_frame _ main_arg10 (by decide)
    _ = Gen.W7 m ρ c (Proc.devRef .tc main_arg10) := hostOps3_1_frame _ main_arg10 (by decide)
    _ = Gen.W6 m ρ c (Proc.devRef .tc main_arg10) := hostOps3_frame _ main_arg10 (by decide)
    _ = Gen.W5 m ρ c (Proc.devRef .tc main_arg10) := W6_of_ne m ρ c main_arg10 (by decide)
    _ = Gen.W4 m ρ c (Proc.devRef .tc main_arg10) := W5_of_ne m ρ c main_arg10 (by decide)
    _ = Gen.W3 m ρ c (Proc.devRef .tc main_arg10) := hostOps1_2_frame _ main_arg10 (by decide)
    _ = Gen.W2 m ρ c (Proc.devRef .tc main_arg10) := hostOps1_1_frame _ main_arg10 (by decide)
    _ = Gen.W1 m ρ c (Proc.devRef .tc main_arg10) := hostOps1_frame _ main_arg10 (by decide)
    _ = Gen.W0 m ρ c (Proc.devRef .tc main_arg10) := W1_of_ne m ρ c main_arg10 (by decide)
    _ = m ((c : Thread nD τ).loc main_arg10) := rfl

theorem W12_main_arg11 : Gen.W12 m ρ c (Proc.devRef .tc main_arg11) = m ((c : Thread nD τ).loc main_arg11) :=
  calc Gen.W12 m ρ c (Proc.devRef .tc main_arg11)
    _ = Gen.W11 m ρ c (Proc.devRef .tc main_arg11) := W12_of_ne m ρ c main_arg11 (by decide)
    _ = Gen.W10 m ρ c (Proc.devRef .tc main_arg11) := W11_of_ne m ρ c main_arg11 (by decide)
    _ = Gen.W9 m ρ c (Proc.devRef .tc main_arg11) := W10_of_ne m ρ c main_arg11 (by decide)
    _ = Gen.W8 m ρ c (Proc.devRef .tc main_arg11) := hostOps3_2_frame _ main_arg11 (by decide)
    _ = Gen.W7 m ρ c (Proc.devRef .tc main_arg11) := hostOps3_1_frame _ main_arg11 (by decide)
    _ = Gen.W6 m ρ c (Proc.devRef .tc main_arg11) := hostOps3_frame _ main_arg11 (by decide)
    _ = Gen.W5 m ρ c (Proc.devRef .tc main_arg11) := W6_of_ne m ρ c main_arg11 (by decide)
    _ = Gen.W4 m ρ c (Proc.devRef .tc main_arg11) := W5_of_ne m ρ c main_arg11 (by decide)
    _ = Gen.W3 m ρ c (Proc.devRef .tc main_arg11) := hostOps1_2_frame _ main_arg11 (by decide)
    _ = Gen.W2 m ρ c (Proc.devRef .tc main_arg11) := hostOps1_1_frame _ main_arg11 (by decide)
    _ = Gen.W1 m ρ c (Proc.devRef .tc main_arg11) := hostOps1_frame _ main_arg11 (by decide)
    _ = Gen.W0 m ρ c (Proc.devRef .tc main_arg11) := W1_of_ne m ρ c main_arg11 (by decide)
    _ = m ((c : Thread nD τ).loc main_arg11) := rfl

theorem W12_main_arg12 : Gen.W12 m ρ c (Proc.devRef .tc main_arg12) = m ((c : Thread nD τ).loc main_arg12) :=
  calc Gen.W12 m ρ c (Proc.devRef .tc main_arg12)
    _ = Gen.W11 m ρ c (Proc.devRef .tc main_arg12) := W12_of_ne m ρ c main_arg12 (by decide)
    _ = Gen.W10 m ρ c (Proc.devRef .tc main_arg12) := W11_of_ne m ρ c main_arg12 (by decide)
    _ = Gen.W9 m ρ c (Proc.devRef .tc main_arg12) := W10_of_ne m ρ c main_arg12 (by decide)
    _ = Gen.W8 m ρ c (Proc.devRef .tc main_arg12) := hostOps3_2_frame _ main_arg12 (by decide)
    _ = Gen.W7 m ρ c (Proc.devRef .tc main_arg12) := hostOps3_1_frame _ main_arg12 (by decide)
    _ = Gen.W6 m ρ c (Proc.devRef .tc main_arg12) := hostOps3_frame _ main_arg12 (by decide)
    _ = Gen.W5 m ρ c (Proc.devRef .tc main_arg12) := W6_of_ne m ρ c main_arg12 (by decide)
    _ = Gen.W4 m ρ c (Proc.devRef .tc main_arg12) := W5_of_ne m ρ c main_arg12 (by decide)
    _ = Gen.W3 m ρ c (Proc.devRef .tc main_arg12) := hostOps1_2_frame _ main_arg12 (by decide)
    _ = Gen.W2 m ρ c (Proc.devRef .tc main_arg12) := hostOps1_1_frame _ main_arg12 (by decide)
    _ = Gen.W1 m ρ c (Proc.devRef .tc main_arg12) := hostOps1_frame _ main_arg12 (by decide)
    _ = Gen.W0 m ρ c (Proc.devRef .tc main_arg12) := W1_of_ne m ρ c main_arg12 (by decide)
    _ = m ((c : Thread nD τ).loc main_arg12) := rfl

theorem W13_main_arg13 : Gen.W13 m ρ c (Proc.devRef .tc main_arg13) = m ((c : Thread nD τ).loc main_arg13) :=
  calc Gen.W13 m ρ c (Proc.devRef .tc main_arg13)
    _ = Gen.W12 m ρ c (Proc.devRef .tc main_arg13) := W13_of_ne m ρ c main_arg13 (by decide)
    _ = Gen.W11 m ρ c (Proc.devRef .tc main_arg13) := W12_of_ne m ρ c main_arg13 (by decide)
    _ = Gen.W10 m ρ c (Proc.devRef .tc main_arg13) := W11_of_ne m ρ c main_arg13 (by decide)
    _ = Gen.W9 m ρ c (Proc.devRef .tc main_arg13) := W10_of_ne m ρ c main_arg13 (by decide)
    _ = Gen.W8 m ρ c (Proc.devRef .tc main_arg13) := hostOps3_2_frame _ main_arg13 (by decide)
    _ = Gen.W7 m ρ c (Proc.devRef .tc main_arg13) := hostOps3_1_frame _ main_arg13 (by decide)
    _ = Gen.W6 m ρ c (Proc.devRef .tc main_arg13) := hostOps3_frame _ main_arg13 (by decide)
    _ = Gen.W5 m ρ c (Proc.devRef .tc main_arg13) := W6_of_ne m ρ c main_arg13 (by decide)
    _ = Gen.W4 m ρ c (Proc.devRef .tc main_arg13) := W5_of_ne m ρ c main_arg13 (by decide)
    _ = Gen.W3 m ρ c (Proc.devRef .tc main_arg13) := hostOps1_2_frame _ main_arg13 (by decide)
    _ = Gen.W2 m ρ c (Proc.devRef .tc main_arg13) := hostOps1_1_frame _ main_arg13 (by decide)
    _ = Gen.W1 m ρ c (Proc.devRef .tc main_arg13) := hostOps1_frame _ main_arg13 (by decide)
    _ = Gen.W0 m ρ c (Proc.devRef .tc main_arg13) := W1_of_ne m ρ c main_arg13 (by decide)
    _ = m ((c : Thread nD τ).loc main_arg13) := rfl

theorem W13_main_arg14 : Gen.W13 m ρ c (Proc.devRef .tc main_arg14) = m ((c : Thread nD τ).loc main_arg14) :=
  calc Gen.W13 m ρ c (Proc.devRef .tc main_arg14)
    _ = Gen.W12 m ρ c (Proc.devRef .tc main_arg14) := W13_of_ne m ρ c main_arg14 (by decide)
    _ = Gen.W11 m ρ c (Proc.devRef .tc main_arg14) := W12_of_ne m ρ c main_arg14 (by decide)
    _ = Gen.W10 m ρ c (Proc.devRef .tc main_arg14) := W11_of_ne m ρ c main_arg14 (by decide)
    _ = Gen.W9 m ρ c (Proc.devRef .tc main_arg14) := W10_of_ne m ρ c main_arg14 (by decide)
    _ = Gen.W8 m ρ c (Proc.devRef .tc main_arg14) := hostOps3_2_frame _ main_arg14 (by decide)
    _ = Gen.W7 m ρ c (Proc.devRef .tc main_arg14) := hostOps3_1_frame _ main_arg14 (by decide)
    _ = Gen.W6 m ρ c (Proc.devRef .tc main_arg14) := hostOps3_frame _ main_arg14 (by decide)
    _ = Gen.W5 m ρ c (Proc.devRef .tc main_arg14) := W6_of_ne m ρ c main_arg14 (by decide)
    _ = Gen.W4 m ρ c (Proc.devRef .tc main_arg14) := W5_of_ne m ρ c main_arg14 (by decide)
    _ = Gen.W3 m ρ c (Proc.devRef .tc main_arg14) := hostOps1_2_frame _ main_arg14 (by decide)
    _ = Gen.W2 m ρ c (Proc.devRef .tc main_arg14) := hostOps1_1_frame _ main_arg14 (by decide)
    _ = Gen.W1 m ρ c (Proc.devRef .tc main_arg14) := hostOps1_frame _ main_arg14 (by decide)
    _ = Gen.W0 m ρ c (Proc.devRef .tc main_arg14) := W1_of_ne m ρ c main_arg14 (by decide)
    _ = m ((c : Thread nD τ).loc main_arg14) := rfl

end Cert.KernelIdeal.Val

end
-- ==== Proof.LibPlainMatmul.lean ====
/-
  Two families of small facts about arrays read at coordinates, over literal rank-2 and rank-3 shapes of any sizes.

  * A plain rows-by-columns matrix product — the left operand contracted on its columns, the right on its rows, no
    batch axis — into the zero accumulator, over the extended reals: at `(p, q)` it is the sum over the shared axis
    of the products of row `p` of the left operand and column `q` of the right. A product record of any program
    with these dimension numbers unifies with `plainDims` by unfolding, so the lemma applies to it through
    `refine (matmul_zero_plain _ _ _ p q).trans ?_`.
  * Unit axes added by a shape cast (`[a, c] → [a, 1, c]`, `[c] → [1, 1, c]`) and broadcasts along one or two unit
    axes (`[a, 1, c]`, `[1, b, c]`, `[1, 1, c] → [a, b, c]`), each read at explicit coordinates: a unit axis
    contributes nothing to the row-major position, and a broadcast reads its operand at coordinate zero of the
    axes it spreads.
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibPlainMatmul

open Idealize.ShloMosaic Idealize.ShloMosaic.ValueIdx
open scoped BigOperators

/-! ## A rows-by-columns product into the zero accumulator -/

/-- The dimension numbers of a plain m × k by k × n product: the left operand contracted on its columns, the right on
    its rows, no batch axis. -/
abbrev plainDims {m k n : Nat} (wf : DotDims.WF (⟨2, ![m, k]⟩ : Shape) ⟨2, ![k, n]⟩ ⟨2, ![m, n]⟩ [1] [0] [0] [1] [] []) :
    DotDims ⟨2, ![m, k]⟩ ⟨2, ![k, n]⟩ ⟨2, ![m, n]⟩ := ⟨[1], [0], [0], [1], [], [], wf⟩

section PlainDims
variable {m k n : Nat} (wf : DotDims.WF (⟨2, ![m, k]⟩ : Shape) ⟨2, ![k, n]⟩ ⟨2, ![m, n]⟩ [1] [0] [0] [1] [] [])

/-- The left operand is read in the result's row … -/
theorem plain_lhs_row (j : (⟨2, ![m, n]⟩ : Shape).Idx) (c : (plainDims wf).contr.Idx) :
    ((plainDims wf).lhsIdx j c 0).val = (j 0).val := by
  unfold DotDims.lhsIdx
  rw [dif_neg (show ¬(0 : Fin (⟨2, ![m, k]⟩ : Shape).rank) ∈ (plainDims wf).lhsBatch from List.not_mem_nil),
    dif_pos (show (0 : Fin (⟨2, ![m, k]⟩ : Shape).rank) ∈ (plainDims wf).lhsNonContracting from List.mem_singleton.mpr rfl)]
  rfl

/-- … and the right operand in the result's column. -/
theorem plain_rhs_col (j : (⟨2, ![m, n]⟩ : Shape).Idx) (c : (plainDims wf).contr.Idx) :
    ((plainDims wf).rhsIdx j c 1).val = (j 1).val := by
  unfold DotDims.rhsIdx
  rw [dif_neg (show ¬(1 : Fin (⟨2, ![k, n]⟩ : Shape).rank) ∈ (plainDims wf).rhsBatch from List.not_mem_nil),
    dif_pos (show (1 : Fin (⟨2, ![k, n]⟩ : Shape).rank) ∈ (plainDims wf).rhsNonContracting from List.mem_singleton.mpr rfl)]
  rfl

/-- Such a product into the zero accumulator reads, at (p, q), the sum over the shared axis of the products of row p
    of the left operand and column q of the right. -/
theorem matmul_zero_plain {φ₁ φ₂ : FTy} (l : FVec Ideal ⟨2, ![m, k]⟩ φ₁) (r : FVec Ideal ⟨2, ![k, n]⟩ φ₂)
    (p : Fin m) (q : Fin n) :
    FloatOps.matmul (plainDims wf) none l r (constant (F := Ideal) ⟨2, ![m, n]⟩ .f32 0x00000000#32) (ix2 p q)
      = ∑ c : Fin k, l (ix2 p c) * r (ix2 c q) := by
  rw [Ideal.matmul_constant_zero_apply, ← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_row wf _ _
      | ⟨1, _⟩ => exact ((plainDims wf).lhsIdx_val_of_single rfl _ _).trans hc)
  have er : (plainDims wf).rhsIdx (ix2 p q) ((contrEquiv1 (plainDims wf) k rfl rfl).symm c) = ix2 c q :=
    funext fun a => Fin.ext (by
      match a with
      | ⟨0, _⟩ => exact ((plainDims wf).rhsIdx_val_of_single rfl _ _).trans hc
      | ⟨1, _⟩ => exact plain_rhs_col wf _ _)
  rw [el, er]

end PlainDims

/-! ## Unit axes added, and broadcasts along an axis, read at coordinates -/

section Layout
variable {α : Type}

/-- An [a, c] array cast to [a, 1, c] reads, at (p, z, s), the operand at (p, s). -/
theorem shapeCast_ac_a1c_apply {a c : ℕ} (x : (⟨2, ![a, c]⟩ : Shape).Idx → α)
    (h : (⟨2, ![a, c]⟩ : Shape).ShapeCasts ⟨3, ![a, 1, c]⟩) (p : Fin a) (z : Fin 1) (s : Fin c) :
    shapeCast ⟨3, ![a, 1, c]⟩ x h (ix3 p z s) = x (ix2 p s) :=
  shapeCast_apply x h _ _ (by
    have hz : z.val = 0 := by omega
    rw [Shape.rowMajor_val_three, Shape.rowMajor_val_two]
    show p.val * c + s.val = (p.val * 1 + z.val) * c + s.val
    rw [hz, Nat.mul_one, Nat.add_zero])

/-- A [c] array cast to [1, 1, c] reads, at (y, z, s), the operand at s. -/
theorem shapeCast_c_11c_apply {c : ℕ} (x : (⟨1, ![c]⟩ : Shape).Idx → α)
    (h : (⟨1, ![c]⟩ : Shape).ShapeCasts ⟨3, ![1, 1, c]⟩) (y z : Fin 1) (s : Fin c) :
    shapeCast ⟨3, ![1, 1, c]⟩ x h (ix3 y z s) = x (ix1 s) :=
  shapeCast_apply x h _ _ (by
    have hy : y.val = 0 := by omega
    have hz : z.val = 0 := by omega
    rw [Shape.rowMajor_val_three, Shape.rowMajor_val_one]
    show s.val = (y.val * 1 + z.val) * c + s.val
    simp only [hy, hz, Nat.zero_mul, Nat.zero_add, Nat.mul_one])

/-- An [a, 1, c] array broadcast to [a, b, c] reads, at (p, q, s), the operand at (p, 0, s). -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (s : Fin c) :
    broadcastTo ⟨3, ![a, b, c]⟩ x h (ix3 p q s) = x (ix3 p (0 : Fin 1) s) := by
  refine broadcastTo_apply x h (ix3 p q s) (ix3 p (0 : Fin 1) s) fun ax => ?_
  match ax with
  | ⟨0, _⟩ =>
    show p.val = if a = 1 then 0 else p.val
    split
    · have := p.isLt; omega
    · rfl
  | ⟨1, _⟩ => rfl
  | ⟨2, _⟩ =>
    show s.val = if c = 1 then 0 else s.val
    split
    · have := s.isLt; omega
    · rfl

/-- A [1, b, c] array broadcast to [a, b, c] reads, at (p, q, s), the operand at (0, q, s). -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (s : Fin c) :
    broadcastTo ⟨3, ![a, b, c]⟩ x h (ix3 p q s) = x (ix3 (0 : Fin 1) q s) := by
  refine broadcastTo_apply x h (ix3 p q s) (ix3 (0 : Fin 1) q s) fun ax => ?_
  match ax with
  | ⟨0, _⟩ => rfl
  | ⟨1, _⟩ =>
    show q.val = if b = 1 then 0 else q.val
    split
    · have := q.isLt; omega
    · rfl
  | ⟨2, _⟩ =>
    show s.val = if c = 1 then 0 else s.val
    split
    · have := s.isLt; omega
    · rfl

/-- A [1, 1, c] array broadcast to [a, b, c] reads, at (p, q, s), the operand at (0, 0, s). -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (s : Fin c) :
    broadcastTo ⟨3, ![a, b, c]⟩ x h (ix3 p q s) = x (ix3 (0 : Fin 1) (0 : Fin 1) s) := by
  refine broadcastTo_apply x h (ix3 p q s) (ix3 (0 : Fin 1) (0 : Fin 1) s) fun ax => ?_
  match ax with
  | ⟨0, _⟩ => rfl
  | ⟨1, _⟩ => rfl
  | ⟨2, _⟩ =>
    show s.val = if c = 1 then 0 else s.val
    split
    · have := s.isLt; omega
    · rfl

end Layout

end Cert.LibPlainMatmul

end
-- ==== Proof.KRegion0.lean ====
/-
  The value of the first product of the network as the kernel computes it: the features, 50000 rows of 512
  channels, times the first layer's 512 × 64 weights.

  The rows are cut in 25 blocks of 2000. At block t the body multiplies rows 2000 t … 2000 t + 1999 of the features
  by the whole matrix of weights and writes rows 2000 t … 2000 t + 1999 of the result. Over the extended reals the
  narrowing of the operands to a shorter float is the identity and the product accumulates into zero, so entry
  (p, q) of a block is the sum over the 512 channels of the products of row p of the block and column q of the
  weights. Row r of the result lies in block r / 2000, so the 25 blocks fill the result, which is therefore the
  rows-by-columns product of the two arrays as the region finds them.
-/
import proofs.«159152_j79439715107025_1_alg».proof.Proof.Gen.KernelIdeal.Frame
import proofs.«159152_j79439715107025_1_alg».proof.Proof.GcnSpec
import proofs.«159152_j79439715107025_1_alg».proof.Proof.LibPlainMatmul

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-- The zero offset of a whole-block rectangle, as a constant function. -/
theorem zero2 : (![0, 0] : Fin 2 → Nat) = fun _ => 0 := funext fun a => by fin_cases a <;> rfl

/-! ## Region 0: the features times the first layer's weights -/

/-- The body's product at (p, q): row p of the features block against column q of the weights. -/
theorem pay0_apply (x0 : Vec Ideal S2000x512 .f32) (x1 : Vec Ideal S512x64 .f32) (p : Fin 2000) (q : Fin 64) :
    k0_pay1 x0 x1 (ix2 p q) = ∑ c : Fin 512, x0 (ix2 p c) * x1 (ix2 c q) := by
  unfold k0_pay1
  refine (Cert.LibPlainMatmul.matmul_zero_plain _ _ _ p q).trans ?_
  rfl

/-- When row (j 0) of the block is row (i 0) of the array and column (j 1) of the block of weights is column (i 1)
    of the weights, the body's product at j is the whole product at i. -/
theorem pay0_mm (A : FVec Ideal S50000x512 .f32) (W : FVec Ideal S512x64 .f32)
    (x0 : Vec Ideal S2000x512 .f32) (x1 : Vec Ideal S512x64 .f32) (j : S2000x64.Idx) (i : S50000x64.Idx)
    (h0 : ∀ c : Fin 512, x0 (ix2 (j 0) c) = A (ix2 (i 0) c))
    (h1 : ∀ c : Fin 512, x1 (ix2 c (j 1)) = W (ix2 c (i 1))) :
    k0_pay1 x0 x1 j = Cert.Gcn.mm A W i := by
  refine (congrArg (k0_pay1 x0 x1) (eq_ix2 j)).trans ?_
  refine (pay0_apply x0 x1 (j 0) (j 1)).trans ?_
  show _ = ∑ c : Fin 512, A (ix2 (i 0) c) * W (ix2 c (i 1))
  exact Finset.sum_congr rfl fun c _ => by rw [h0 c, h1 c]

/-- The index maps over the 25 points: the features and the result move down the rows with the point, the weights
    stay. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point t writes back is block t of the whole product: row r of block t is row 2000 t + r of the features,
    and the weights are read whole. -/
theorem flushed0 (c : Dev nD) (t : Fin cfg0.N) :
    (dat0 (F := Ideal) V c).flushed 2 t
      = ((cfg0.win 2).blk t).view.read (Elt Ideal) (Cert.Gcn.mm (V c main_arg0) (V c main_arg3)) := by
  show (cfg0.win 2).cut (grid0.coords t) ((dat0 V c).after 2 t) = _
  rw [after0_2]
  unfold out0_2
  rw [View.canon_unit_zero zero2]
  simp only [View.ld_unit_zero (S := S2000x512) zero2, View.ld_unit_zero (S := S512x64) zero2]
  obtain ⟨e0, e1, e2, e3, e4, e5⟩ := idx0 t
  funext j
  show k0_pay1 (iblk0 V c 0 t) (iblk0 V c 1 t) j
    = Cert.Gcn.mm (V c main_arg0) (V c main_arg3) (((cfg0.win 2).blk t).view.emb j)
  refine pay0_mm (V c main_arg0) (V c main_arg3) _ _ j _ (fun k => ?_) (fun k => ?_)
  · show V c main_arg0 (((cfg0.win 0).blk t).view.emb (ix2 (j 0) k)) = _
    refine congrArg (V c main_arg0) (funext fun a => Fin.ext ?_)
    match a with
    | ⟨0, _⟩ =>
      show win0_0.index t (0 : Fin 2) * 2000 + 1 * (j 0).val = win0_2.index t (0 : Fin 2) * 2000 + 1 * (j 0).val
      omega
    | ⟨1, _⟩ =>
      show win0_0.index t (1 : Fin 2) * 512 + 1 * k.val = k.val
      omega
  · show V c main_arg3 (((cfg0.win 1).blk t).view.emb (ix2 k (j 1))) = _
    refine congrArg (V c main_arg3) (funext fun a => Fin.ext ?_)
    match a with
    | ⟨0, _⟩ =>
      show win0_1.index t (0 : Fin 2) * 512 + 1 * k.val = k.val
      omega
    | ⟨1, _⟩ =>
      show win0_1.index t (1 : Fin 2) * 64 + 1 * (j 1).val = win0_2.index t (1 : Fin 2) * 64 + 1 * (j 1).val
      omega

/-- An index of the result is in point t's block iff each coordinate is in the block's range on its axis. -/
theorem mem_blk0 (t : Fin cfg0.N) (i : S50000x64.Idx) :
    i ∈ ((cfg0.win 2).blk t).view.set ↔ ∀ a : Fin 2, win0_2.index t a * S2000x64.size a ≤ (i a).val
      ∧ (i a).val < win0_2.index t a * S2000x64.size a + S2000x64.size a := by
  show i ∈ ((View.whole main_v0).slice (win0_2.rect t)).set ↔ _
  rw [View.set_slice_whole, Rect.mem_set_unit]
  exact Iff.rfl

/-- Every row r of the result is in the block of point r / 2000. -/
theorem cover0 (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  have hlt : (i 0).val / 2000 < 25 := by omega
  obtain ⟨-, -, -, -, e4, e5⟩ := idx0 ⟨(i 0).val / 2000, hlt⟩
  have e4' : win0_2.index ⟨(i 0).val / 2000, hlt⟩ (0 : Fin 2) = (i 0).val / 2000 := e4
  refine ⟨⟨(i 0).val / 2000, hlt⟩, flush0_2 _, ?_⟩
  rw [mem_blk0]
  intro a
  match a with
  | ⟨0, _⟩ =>
    show win0_2.index ⟨(i 0).val / 2000, hlt⟩ (0 : Fin 2) * 2000 ≤ (i 0).val
      ∧ (i 0).val < win0_2.index ⟨(i 0).val / 2000, hlt⟩ (0 : Fin 2) * 2000 + 2000
    omega
  | ⟨1, _⟩ =>
    show win0_2.index ⟨(i 0).val / 2000, hlt⟩ (1 : Fin 2) * 64 ≤ (i 1).val
      ∧ (i 1).val < win0_2.index ⟨(i 0).val / 2000, hlt⟩ (1 : Fin 2) * 64 + 64
    omega

/-- After region 0 its result array is the features times the first layer's weights. -/
theorem final0 (c : Dev nD) :
    (dat0 (F := Ideal) V c).arrAt 2 cfg0.N = Cert.Gcn.mm (V c main_arg0) (V c main_arg3) :=
  (dat0 V c).arrAt_eq_of_cover 2 (Cert.Gcn.mm (V c main_arg0) (V c main_arg3)) (fun t _ => flushed0 V c t) cover0

end Cert.KernelIdeal.Val

end
-- ==== Proof.KSelu.lean ====
/-
  The kernel's spelling of selu, read at one entry.

  The kernel writes selu(v) = s · (v where v > 0, else a · (exp v − 1)) with four single-precision constants: the scale s,
  the slope a, zero and one. Over the extended reals the words for zero and one denote 0 and 1, so at every entry the
  expression is the specification's seluE of that entry.
-/
import proofs.«159152_j79439715107025_1_alg».proof.Proof.GcnSpec
import Idealize.ShloMosaic.Lib.ValueIdx
import Idealize.ShloMosaic.PureOps.Ideal.Laws

noncomputable section

namespace Cert.KernelIdeal.Val

open Idealize.ShloMosaic Idealize.ShloMosaic.ValueIdx

/-- The single-precision word 0x3F800000 denotes 1. -/
theorem ofBits_one_f32 : Ideal.ofBits .f32 0x3F800000#32 = 1 := by
  simp [Ideal.ofBits, Ideal.ieee, -EReal.coe_mul]; norm_num

/-- The kernel's selu expression at an entry is seluE of that entry. -/
theorem kselu_apply {s : Shape} (v : FVec Ideal s .f32) (i : s.Idx) :
    mulf (broadcast s (Scalar.ofBits (F := Ideal) .f32 0x3F867D5F#32))
      (select (cmpf .ogt v (broadcast s (Scalar.ofBits (F := Ideal) .f32 0x00000000#32))) v
        (mulf (broadcast s (Scalar.ofBits (F := Ideal) .f32 0x3FD62D7D#32))
          (subf (exp v) (broadcast s (Scalar.ofBits (F := Ideal) .f32 0x3F800000#32))))) i
      = Cert.Gcn.seluE (v i) := by
  show Ideal.ofBits .f32 0x3F867D5F#32 *
      Scalar.select (Ideal.cmp .ogt (v i) (Ideal.ofBits .f32 0x00000000#32)) (v i)
        (Ideal.ofBits .f32 0x3FD62D7D#32 * (Ideal.exp (v i) - Ideal.ofBits .f32 0x3F800000#32))
      = Cert.Gcn.seluE (v i)
  rw [Ideal.ofBits_zero_f32, ofBits_one_f32]
  rfl

end Cert.KernelIdeal.Val

end
-- ==== Proof.KRegion1.lean ====
/-
  The first bias-and-selu region of the kernel, read as one function of its two input arrays.

  The region walks the 50000 rows of the aggregated features in 25 blocks of 2000 rows. At each block it adds the
  64-entry bias to every row (the bias is re-laid as a [1, 64] row and repeated down the 2000 rows), applies selu
  entry by entry, and writes the block back to the same rows of the output. Entry (p, q) of a block's result is
  therefore selu (a (p, q) + b q) of the block's own entry and the bias; the block at point t sits at rows
  2000 t … 2000 t + 1999 of both the input and the output, and the 25 blocks cover every row, so the output array
  ends as the specification's biasSelu of the whole input array and the bias.
-/
import proofs.«159152_j79439715107025_1_alg».proof.Proof.Gen.KernelIdeal.Frame
import proofs.«159152_j79439715107025_1_alg».proof.Proof.GcnSpec
import proofs.«159152_j79439715107025_1_alg».proof.Proof.KSelu
import Idealize.ShloMosaic.Lib.Pipeline.Value
import Idealize.ShloMosaic.Lib.ValueLayout
import Idealize.ShloMosaic.Lib.ValueIdx

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

/-- A [64] vector re-laid as a [1, 64] row and repeated down 2000 rows reads, at (p, q), the vector at q. -/
theorem biasRows_apply {α : Type} (b : S64.Idx → α) (hc : S64.ShapeCasts S1x64) (hb : S1x64.Broadcasts S2000x64)
    (p : Fin 2000) (q : Fin 64) :
    broadcastTo S2000x64 (shapeCast S1x64 b hc) hb (ix2 p q) = b (ix1 q) := by
  refine (broadcastTo_apply _ hb (ix2 p q) (ix2 (0 : Fin 1) q) fun ax => ?_).trans ?_
  · match ax with
    | ⟨0, _⟩ => rfl
    | ⟨1, _⟩ => rfl
  · exact shapeCast_apply b hc _ _ (by
      rw [Shape.rowMajor_val_two, Shape.rowMajor_val_one]
      show q.val = 0 * 64 + q.val
      omega)

/-- Entry (p, q) of the body's result: selu of the block's entry plus the bias at q. -/
theorem pay1_apply (x0 : Vec Ideal S2000x64 .f32) (x1 : Vec Ideal S64 .f32) (p : Fin 2000) (q : Fin 64) :
    k1_pay1 x0 x1 (ix2 p q) = Cert.Gcn.seluE (x0 (ix2 p q) + x1 (ix1 q)) := by
  unfold k1_pay1
  refine (kselu_apply _ _).trans ?_
  refine congrArg Cert.Gcn.seluE ?_
  refine (addf_apply _ _ _).trans ?_
  rw [shapeCast_self, biasRows_apply]

theorem hz2 : (![0, 0] : Fin 2 → Nat) = fun _ => 0 := funext fun a => by fin_cases a <;> rfl
theorem hz1 : (![0] : Fin 1 → Nat) = fun _ => 0 := funext fun a => by fin_cases a <;> rfl

/-- The block index maps, decided over the 25 grid points: at point t the feature and output windows sit at block row
    t, block column 0; the bias window is always its one block. -/
theorem idx_facts1 : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

/-- One entry of a block's result is the specification at the array entry the block's entry comes from: the block entry
    equals the array entry, the block's bias is the bias, and the column is unchanged. -/
theorem entry1 (A : S50000x64.Idx → EReal) (B : S64.Idx → EReal) (x0 : Vec Ideal S2000x64 .f32) (x1 : Vec Ideal S64 .f32)
    (j : S2000x64.Idx) (i : S50000x64.Idx) (h0 : x0 j = A i) (h1 : ∀ q : Fin 64, x1 (ix1 q) = B (ix1 q))
    (hi : (i 1).val = (j 1).val) :
    k1_pay1 x0 x1 j = Cert.Gcn.biasSelu (m := 50000) (n := 64) A B i := by
  obtain ⟨p, q, rfl⟩ : ∃ (p : Fin 2000) (q : Fin 64), j = ix2 p q := ⟨j 0, j 1, eq_ix2 j⟩
  rw [pay1_apply]
  unfold Cert.Gcn.biasSelu
  have hq : (i 1 : Fin 64) = q := Fin.ext hi
  rw [h0, h1, hq]

/-- What point t writes back is block t of biasSelu of the two arrays as the region finds them. -/
theorem flushed1_eq (V : (c : Dev nD) → (b : Ref sig .tc) → Buf (Elt Ideal) ((c : Thread nD τ).loc b)) (c : Dev nD)
    (t : Fin cfg1.N) :
    (dat1 (F := Ideal) V c).flushed 2 t
      = ((cfg1.win 2).blk t).view.read (Elt Ideal)
          (Cert.Gcn.biasSelu (m := 50000) (n := 64) (V c main_v45) (V c main_arg4)) := by
  show (cfg1.win 2).cut (grid1.coords t) ((dat1 V c).after 2 t) = _
  rw [after1_2]
  unfold out1_2
  rw [View.canon_unit_zero hz2]
  simp only [View.ld_unit_zero (S := S2000x64) hz2, View.ld_unit_zero (S := S64) hz1]
  obtain ⟨e00, e01, e10, e20, e21⟩ := idx_facts1 t
  funext j
  refine entry1 (V c main_v45) (V c main_arg4) (iblk1 V c 0 t) (iblk1 V c 1 t) j (((cfg1.win 2).blk t).view.emb j) ?_ ?_ ?_
  · show V c main_v45 (((cfg1.win 0).blk t).view.emb j) = V c main_v45 (((cfg1.win 2).blk t).view.emb j)
    refine congrArg _ (funext fun a => Fin.ext ?_)
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 64 + 1 * (j 1).val = win1_2.index t (1 : Fin 2) * 64 + 1 * (j 1).val; omega
  · intro q
    show V c main_arg4 (((cfg1.win 1).blk t).view.emb (ix1 q)) = V c main_arg4 (ix1 q)
    refine congrArg _ (funext fun a => Fin.ext ?_)
    match a with
    | ⟨0, _⟩ => show win1_1.index t (0 : Fin 1) * 64 + 1 * q.val = q.val; omega
  · show win1_2.index t (1 : Fin 2) * 64 + 1 * (j 1).val = (j 1).val; omega

/-- An array index is in point t's block iff each coordinate is in the block's range on its axis. -/
theorem mem_blk1 (t : Fin cfg1.N) (i : S50000x64.Idx) :
    i ∈ ((cfg1.win 2).blk t).view.set ↔ ∀ a : Fin 2, win1_2.index t a * S2000x64.size a ≤ (i a).val
      ∧ (i a).val < win1_2.index t a * S2000x64.size a + S2000x64.size a := by
  show i ∈ ((View.whole main_v46).slice (win1_2.rect t)).set ↔ _
  rw [View.set_slice_whole, Rect.mem_set_unit]
  exact Iff.rfl

/-- Every entry of the output is in some point's block: row r is in the block of point r / 2000. -/
theorem cover1 (i : S50000x64.Idx) :
    ∃ t : Fin cfg1.N, (cfg1.win 2).flush t = true ∧ i ∈ ((cfg1.win 2).blk t).view.set := by
  have hi0 : (i 0).val < 50000 := (i 0).isLt
  have hi1 : (i 1).val < 64 := (i 1).isLt
  have hN : cfg1.N = 25 := N_1
  have hlt : (i 0).val / 2000 < cfg1.N := by rw [hN]; omega
  obtain ⟨-, -, -, e20, e21⟩ := idx_facts1 ⟨(i 0).val / 2000, hlt⟩
  have e20' : win1_2.index ⟨(i 0).val / 2000, hlt⟩ (0 : Fin 2) = (i 0).val / 2000 := e20
  refine ⟨⟨(i 0).val / 2000, hlt⟩, flush1_2 _, ?_⟩
  rw [mem_blk1]
  intro a
  match a with
  | ⟨0, _⟩ =>
    show win1_2.index ⟨(i 0).val / 2000, hlt⟩ (0 : Fin 2) * 2000 ≤ (i 0).val
      ∧ (i 0).val < win1_2.index ⟨(i 0).val / 2000, hlt⟩ (0 : Fin 2) * 2000 + 2000
    omega
  | ⟨1, _⟩ =>
    show win1_2.index ⟨(i 0).val / 2000, hlt⟩ (1 : Fin 2) * 64 ≤ (i 1).val
      ∧ (i 1).val < win1_2.index ⟨(i 0).val / 2000, hlt⟩ (1 : Fin 2) * 64 + 64
    omega

/-- The region's output array, after its 25 points, is biasSelu of the feature array and the bias as the region finds
    them. -/
theorem final1 (V : (c : Dev nD) → (b : Ref sig .tc) → Buf (Elt Ideal) ((c : Thread nD τ).loc b)) (c : Dev nD) :
    (dat1 (F := Ideal) V c).arrAt 2 cfg1.N
      = Cert.Gcn.biasSelu (m := 50000) (n := 64) (V c main_v45) (V c main_arg4) :=
  (dat1 (F := Ideal) V c).arrAt_eq_of_cover 2 _ (fun t _ => flushed1_eq V c t) cover1

end Cert.KernelIdeal.Val

end
-- ==== Proof.KRegion2.lean ====
/-
  The value of the second layer's product as the kernel computes it: the first layer's output, 50000 rows of 64
  channels, times the second layer's 64 × 64 weights.

  The rows are cut in 25 blocks of 2000. At block t the body multiplies rows 2000 t … 2000 t + 1999 of the left
  operand by the whole matrix of weights and writes the same rows of the result. Over the extended reals the
  narrowing of the operands to a shorter float is the identity and the product accumulates into zero, so entry
  (p, q) of a block is the sum over the 64 channels of the products of row p of the block and column q of the
  weights. Row r of the result lies in block r / 2000, so the 25 blocks fill the result, which is therefore the
  rows-by-columns product of the two arrays as the region finds them.
-/
import proofs.«159152_j79439715107025_1_alg».proof.Proof.Gen.KernelIdeal.Frame
import proofs.«159152_j79439715107025_1_alg».proof.Proof.GcnSpec
import proofs.«159152_j79439715107025_1_alg».proof.Proof.LibPlainMatmul

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-- The zero offset of a whole-block rectangle, as a constant function. -/
private theorem zero2 : (![0, 0] : Fin 2 → Nat) = fun _ => 0 := funext fun a => by fin_cases a <;> rfl

/-! ## Region 2: a 50000 × 64 array times a 64 × 64 matrix of weights -/

/-- The body's product at (p, q): row p of the block against column q of the weights (the cast of the block to
    its own shape changes nothing). -/
theorem pay2_apply (x0 : Vec Ideal S2000x64 .f32) (x1 : Vec Ideal S64x64 .f32) (p : Fin 2000) (q : Fin 64) :
    k2_pay1 x0 x1 (ix2 p q) = ∑ c : Fin 64, x0 (ix2 p c) * x1 (ix2 c q) := by
  unfold k2_pay1
  refine (Cert.LibPlainMatmul.matmul_zero_plain _ _ _ p q).trans ?_
  refine Finset.sum_congr rfl fun c _ => ?_
  show shapeCast S2000x64 x0 shapeCasts_S2000x64_S2000x64 (ix2 p c) * x1 (ix2 c q) = _
  rw [shapeCast_self]

/-- When row (j 0) of the block is row (i 0) of the array and column (j 1) of the block of weights is column (i 1)
    of the weights, the body's product at j is the whole product at i. -/
theorem pay2_mm (A : FVec Ideal S50000x64 .f32) (W : FVec Ideal S64x64 .f32)
    (x0 : Vec Ideal S2000x64 .f32) (x1 : Vec Ideal S64x64 .f32) (j : S2000x64.Idx) (i : S50000x64.Idx)
    (h0 : ∀ c : Fin 64, x0 (ix2 (j 0) c) = A (ix2 (i 0) c))
    (h1 : ∀ c : Fin 64, x1 (ix2 c (j 1)) = W (ix2 c (i 1))) :
    k2_pay1 x0 x1 j = Cert.Gcn.mm A W i := by
  refine (congrArg (k2_pay1 x0 x1) (eq_ix2 j)).trans ?_
  refine (pay2_apply x0 x1 (j 0) (j 1)).trans ?_
  show _ = ∑ c : Fin 64, A (ix2 (i 0) c) * W (ix2 c (i 1))
  exact Finset.sum_congr rfl fun c _ => by rw [h0 c, h1 c]

/-- The index maps over the 25 points: the left operand and the result move down the rows with the point, the
    weights stay. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- What point t writes back is block t of the whole product: row r of block t is row 2000 t + r of the left
    operand, and the weights are read whole. -/
theorem flushed2 (c : Dev nD) (t : Fin cfg2.N) :
    (dat2 (F := Ideal) V c).flushed 2 t
      = ((cfg2.win 2).blk t).view.read (Elt Ideal) (Cert.Gcn.mm (V c main_v46) (V c main_arg5)) := by
  show (cfg2.win 2).cut (grid2.coords t) ((dat2 V c).after 2 t) = _
  rw [after2_2]
  unfold out2_2
  rw [View.canon_unit_zero zero2]
  simp only [View.ld_unit_zero (S := S2000x64) zero2, View.ld_unit_zero (S := S64x64) zero2]
  obtain ⟨e0, e1, e2, e3, e4, e5⟩ := idx2 t
  funext j
  show k2_pay1 (iblk2 V c 0 t) (iblk2 V c 1 t) j
    = Cert.Gcn.mm (V c main_v46) (V c main_arg5) (((cfg2.win 2).blk t).view.emb j)
  refine pay2_mm (V c main_v46) (V c main_arg5) _ _ j _ (fun k => ?_) (fun k => ?_)
  · show V c main_v46 (((cfg2.win 0).blk t).view.emb (ix2 (j 0) k)) = _
    refine congrArg (V c main_v46) (funext fun a => Fin.ext ?_)
    match a with
    | ⟨0, _⟩ =>
      show win2_0.index t (0 : Fin 2) * 2000 + 1 * (j 0).val = win2_2.index t (0 : Fin 2) * 2000 + 1 * (j 0).val
      omega
    | ⟨1, _⟩ =>
      show win2_0.index t (1 : Fin 2) * 64 + 1 * k.val = k.val
      omega
  · show V c main_arg5 (((cfg2.win 1).blk t).view.emb (ix2 k (j 1))) = _
    refine congrArg (V c main_arg5) (funext fun a => Fin.ext ?_)
    match a with
    | ⟨0, _⟩ =>
      show win2_1.index t (0 : Fin 2) * 64 + 1 * k.val = k.val
      omega
    | ⟨1, _⟩ =>
      show win2_1.index t (1 : Fin 2) * 64 + 1 * (j 1).val = win2_2.index t (1 : Fin 2) * 64 + 1 * (j 1).val
      omega

/-- An index of the result is in point t's block iff each coordinate is in the block's range on its axis. -/
theorem mem_blk2 (t : Fin cfg2.N) (i : S50000x64.Idx) :
    i ∈ ((cfg2.win 2).blk t).view.set ↔ ∀ a : Fin 2, win2_2.index t a * S2000x64.size a ≤ (i a).val
      ∧ (i a).val < win2_2.index t a * S2000x64.size a + S2000x64.size a := by
  show i ∈ ((View.whole main_v47).slice (win2_2.rect t)).set ↔ _
  rw [View.set_slice_whole, Rect.mem_set_unit]
  exact Iff.rfl

/-- Every row r of the result is in the block of point r / 2000. -/
theorem cover2 (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  have hlt : (i 0).val / 2000 < 25 := by omega
  obtain ⟨-, -, -, -, e4, e5⟩ := idx2 ⟨(i 0).val / 2000, hlt⟩
  have e4' : win2_2.index ⟨(i 0).val / 2000, hlt⟩ (0 : Fin 2) = (i 0).val / 2000 := e4
  refine ⟨⟨(i 0).val / 2000, hlt⟩, flush2_2 _, ?_⟩
  rw [mem_blk2]
  intro a
  match a with
  | ⟨0, _⟩ =>
    show win2_2.index ⟨(i 0).val / 2000, hlt⟩ (0 : Fin 2) * 2000 ≤ (i 0).val
      ∧ (i 0).val < win2_2.index ⟨(i 0).val / 2000, hlt⟩ (0 : Fin 2) * 2000 + 2000
    omega
  | ⟨1, _⟩ =>
    show win2_2.index ⟨(i 0).val / 2000, hlt⟩ (1 : Fin 2) * 64 ≤ (i 1).val
      ∧ (i 1).val < win2_2.index ⟨(i 0).val / 2000, hlt⟩ (1 : Fin 2) * 64 + 64
    omega

/-- After region 2 its result array is the left operand times the weights, as the region finds them. -/
theorem final2 (c : Dev nD) :
    (dat2 (F := Ideal) V c).arrAt 2 cfg2.N = Cert.Gcn.mm (V c main_v46) (V c main_arg5) :=
  (dat2 V c).arrAt_eq_of_cover 2 (Cert.Gcn.mm (V c main_v46) (V c main_arg5)) (fun t _ => flushed2 V c t) cover2

end Cert.KernelIdeal.Val

end
-- ==== Proof.KRegion3.lean ====
/-
  The second bias-and-selu region of the kernel, read as one function of its two input arrays.

  The region walks the 50000 rows of the second layer's aggregated features in 25 blocks of 2000 rows. At each block it adds the
  64-entry bias to every row (the bias is re-laid as a [1, 64] row and repeated down the 2000 rows), applies selu
  entry by entry, and writes the block back to the same rows of the output. Entry (p, q) of a block's result is
  therefore selu (a (p, q) + b q) of the block's own entry and the bias; the block at point t sits at rows
  2000 t … 2000 t + 1999 of both the input and the output, and the 25 blocks cover every row, so the output array
  ends as the specification's biasSelu of the whole input array and the bias.
-/
import proofs.«159152_j79439715107025_1_alg».proof.Proof.Gen.KernelIdeal.Frame
import proofs.«159152_j79439715107025_1_alg».proof.Proof.GcnSpec
import proofs.«159152_j79439715107025_1_alg».proof.Proof.KSelu
import proofs.«159152_j79439715107025_1_alg».proof.Proof.KRegion1
import Idealize.ShloMosaic.Lib.Pipeline.Value
import Idealize.ShloMosaic.Lib.ValueLayout
import Idealize.ShloMosaic.Lib.ValueIdx

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

/-- Entry (p, q) of the body's result: selu of the block's entry plus the bias at q. -/
theorem pay3_apply (x0 : Vec Ideal S2000x64 .f32) (x1 : Vec Ideal S64 .f32) (p : Fin 2000) (q : Fin 64) :
    k3_pay1 x0 x1 (ix2 p q) = Cert.Gcn.seluE (x0 (ix2 p q) + x1 (ix1 q)) := by
  unfold k3_pay1
  refine (kselu_apply _ _).trans ?_
  refine congrArg Cert.Gcn.seluE ?_
  refine (addf_apply _ _ _).trans ?_
  rw [shapeCast_self, biasRows_apply]

/-- The block index maps, decided over the 25 grid points: at point t the feature and output windows sit at block row
    t, block column 0; the bias window is always its one block. -/
theorem idx_facts3 : ∀ t : Fin cfg3.N, win3_0.index t (0 : Fin 2) = t.val ∧ win3_0.index t (1 : Fin 2) = 0
    ∧ win3_1.index t (0 : Fin 1) = 0
    ∧ win3_2.index t (0 : Fin 2) = t.val ∧ win3_2.index t (1 : Fin 2) = 0 :=
  (by decide +kernel : ∀ t : Fin grid3.N, _)

/-- One entry of a block's result is the specification at the array entry the block's entry comes from: the block entry
    equals the array entry, the block's bias is the bias, and the column is unchanged. -/
theorem entry3 (A : S50000x64.Idx → EReal) (B : S64.Idx → EReal) (x0 : Vec Ideal S2000x64 .f32) (x1 : Vec Ideal S64 .f32)
    (j : S2000x64.Idx) (i : S50000x64.Idx) (h0 : x0 j = A i) (h1 : ∀ q : Fin 64, x1 (ix1 q) = B (ix1 q))
    (hi : (i 1).val = (j 1).val) :
    k3_pay1 x0 x1 j = Cert.Gcn.biasSelu (m := 50000) (n := 64) A B i := by
  obtain ⟨p, q, rfl⟩ : ∃ (p : Fin 2000) (q : Fin 64), j = ix2 p q := ⟨j 0, j 1, eq_ix2 j⟩
  rw [pay3_apply]
  unfold Cert.Gcn.biasSelu
  have hq : (i 1 : Fin 64) = q := Fin.ext hi
  rw [h0, h1, hq]

/-- What point t writes back is block t of biasSelu of the two arrays as the region finds them. -/
theorem flushed3_eq (V : (c : Dev nD) → (b : Ref sig .tc) → Buf (Elt Ideal) ((c : Thread nD τ).loc b)) (c : Dev nD)
    (t : Fin cfg3.N) :
    (dat3 (F := Ideal) V c).flushed 2 t
      = ((cfg3.win 2).blk t).view.read (Elt Ideal)
          (Cert.Gcn.biasSelu (m := 50000) (n := 64) (V c main_v92) (V c main_arg6)) := by
  show (cfg3.win 2).cut (grid3.coords t) ((dat3 V c).after 2 t) = _
  rw [after3_2]
  unfold out3_2
  rw [View.canon_unit_zero hz2]
  simp only [View.ld_unit_zero (S := S2000x64) hz2, View.ld_unit_zero (S := S64) hz1]
  obtain ⟨e00, e01, e10, e20, e21⟩ := idx_facts3 t
  funext j
  refine entry3 (V c main_v92) (V c main_arg6) (iblk3 V c 0 t) (iblk3 V c 1 t) j (((cfg3.win 2).blk t).view.emb j) ?_ ?_ ?_
  · show V c main_v92 (((cfg3.win 0).blk t).view.emb j) = V c main_v92 (((cfg3.win 2).blk t).view.emb j)
    refine congrArg _ (funext fun a => Fin.ext ?_)
    match a with
    | ⟨0, _⟩ => show win3_0.index t (0 : Fin 2) * 2000 + 1 * (j 0).val = win3_2.index t (0 : Fin 2) * 2000 + 1 * (j 0).val; omega
    | ⟨1, _⟩ => show win3_0.index t (1 : Fin 2) * 64 + 1 * (j 1).val = win3_2.index t (1 : Fin 2) * 64 + 1 * (j 1).val; omega
  · intro q
    show V c main_arg6 (((cfg3.win 1).blk t).view.emb (ix1 q)) = V c main_arg6 (ix1 q)
    refine congrArg _ (funext fun a => Fin.ext ?_)
    match a with
    | ⟨0, _⟩ => show win3_1.index t (0 : Fin 1) * 64 + 1 * q.val = q.val; omega
  · show win3_2.index t (1 : Fin 2) * 64 + 1 * (j 1).val = (j 1).val; omega

/-- An array index is in point t's block iff each coordinate is in the block's range on its axis. -/
theorem mem_blk3 (t : Fin cfg3.N) (i : S50000x64.Idx) :
    i ∈ ((cfg3.win 2).blk t).view.set ↔ ∀ a : Fin 2, win3_2.index t a * S2000x64.size a ≤ (i a).val
      ∧ (i a).val < win3_2.index t a * S2000x64.size a + S2000x64.size a := by
  show i ∈ ((View.whole main_v93).slice (win3_2.rect t)).set ↔ _
  rw [View.set_slice_whole, Rect.mem_set_unit]
  exact Iff.rfl

/-- Every entry of the output is in some point's block: row r is in the block of point r / 2000. -/
theorem cover3 (i : S50000x64.Idx) :
    ∃ t : Fin cfg3.N, (cfg3.win 2).flush t = true ∧ i ∈ ((cfg3.win 2).blk t).view.set := by
  have hi0 : (i 0).val < 50000 := (i 0).isLt
  have hi1 : (i 1).val < 64 := (i 1).isLt
  have hN : cfg3.N = 25 := N_3
  have hlt : (i 0).val / 2000 < cfg3.N := by rw [hN]; omega
  obtain ⟨-, -, -, e20, e21⟩ := idx_facts3 ⟨(i 0).val / 2000, hlt⟩
  have e20' : win3_2.index ⟨(i 0).val / 2000, hlt⟩ (0 : Fin 2) = (i 0).val / 2000 := e20
  refine ⟨⟨(i 0).val / 2000, hlt⟩, flush3_2 _, ?_⟩
  rw [mem_blk3]
  intro a
  match a with
  | ⟨0, _⟩ =>
    show win3_2.index ⟨(i 0).val / 2000, hlt⟩ (0 : Fin 2) * 2000 ≤ (i 0).val
      ∧ (i 0).val < win3_2.index ⟨(i 0).val / 2000, hlt⟩ (0 : Fin 2) * 2000 + 2000
    omega
  | ⟨1, _⟩ =>
    show win3_2.index ⟨(i 0).val / 2000, hlt⟩ (1 : Fin 2) * 64 ≤ (i 1).val
      ∧ (i 1).val < win3_2.index ⟨(i 0).val / 2000, hlt⟩ (1 : Fin 2) * 64 + 64
    omega

/-- The region's output array, after its 25 points, is biasSelu of the feature array and the bias as the region finds
    them. -/
theorem final3 (V : (c : Dev nD) → (b : Ref sig .tc) → Buf (Elt Ideal) ((c : Thread nD τ).loc b)) (c : Dev nD) :
    (dat3 (F := Ideal) V c).arrAt 2 cfg3.N
      = Cert.Gcn.biasSelu (m := 50000) (n := 64) (V c main_v92) (V c main_arg6) :=
  (dat3 (F := Ideal) V c).arrAt_eq_of_cover 2 _ (fun t _ => flushed3_eq V c t) cover3

end Cert.KernelIdeal.Val

end
-- ==== Proof.KRegion4.lean ====
/-
  The first dense layer with selu, as the kernel computes it, read as one function of its three input arrays.

  The region walks the 50000 rows of the features in 25 blocks of 2000 rows. At each block it multiplies the block
  by the whole 64 × 64 matrix of weights, adds the 64-entry bias to every row (the bias re-laid as a [1, 64] row and
  repeated down the rows), applies selu entry by entry, and writes the block back to the same rows of the output.
  Over the extended reals narrowing an operand to a shorter float is the identity and the product accumulates into
  zero, so entry (p, q) of a block's result is selu of the sum over the 64 channels of the products of row p of the
  block and column q of the weights, plus the bias at q. Block t sits at rows 2000 t … 2000 t + 1999 of both the
  input and the output, and the 25 blocks cover every row, so the output array ends as the specification's linSelu
  of the whole feature array, the weights and the bias.
-/
import proofs.«159152_j79439715107025_1_alg».proof.Proof.Gen.KernelIdeal.Frame
import proofs.«159152_j79439715107025_1_alg».proof.Proof.GcnSpec
import proofs.«159152_j79439715107025_1_alg».proof.Proof.KSelu
import proofs.«159152_j79439715107025_1_alg».proof.Proof.KRegion1
import proofs.«159152_j79439715107025_1_alg».proof.Proof.LibPlainMatmul
import Idealize.ShloMosaic.Lib.Pipeline.Value
import Idealize.ShloMosaic.Lib.ValueLayout
import Idealize.ShloMosaic.Lib.ValueIdx

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-- Entry (p, q) of the body's result: selu of row p of the block against column q of the weights, plus the bias at q. -/
theorem pay4_apply (x0 : Vec Ideal S2000x64 .f32) (x1 : Vec Ideal S64x64 .f32) (x2 : Vec Ideal S64 .f32)
    (p : Fin 2000) (q : Fin 64) :
    k4_pay1 x0 x1 x2 (ix2 p q)
      = Cert.Gcn.seluE ((∑ c : Fin 64, x0 (ix2 p c) * x1 (ix2 c q)) + x2 (ix1 q)) := by
  unfold k4_pay1
  refine (kselu_apply _ _).trans ?_
  refine congrArg Cert.Gcn.seluE ?_
  refine (addf_apply _ _ _).trans ?_
  refine congrArg₂ (· + ·) ?_ (biasRows_apply _ _ _ p q)
  refine (Cert.LibPlainMatmul.matmul_zero_plain _ _ _ p q).trans ?_
  rw [shapeCast_self]
  rfl

/-- The block index maps, decided over the 25 grid points: at point t the feature and output windows sit at block row
    t, block column 0; the weights and the bias are always their one block. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = t.val ∧ win4_3.index t (1 : Fin 2) = 0 :=
  (by decide +kernel : ∀ t : Fin grid4.N, _)

/-- One entry of a block's result is the specification at the array entry it is written to: row (j 0) of the block is
    row (i 0) of the array, the block of weights is the weights, the block's bias is the bias, and the column is
    unchanged. -/
theorem entry4 (A : S50000x64.Idx → EReal) (W : S64x64.Idx → EReal) (B : S64.Idx → EReal)
    (x0 : Vec Ideal S2000x64 .f32) (x1 : Vec Ideal S64x64 .f32) (x2 : Vec Ideal S64 .f32)
    (j : S2000x64.Idx) (i : S50000x64.Idx)
    (h0 : ∀ c : Fin 64, x0 (ix2 (j 0) c) = A (ix2 (i 0) c))
    (h1 : ∀ (c q : Fin 64), x1 (ix2 c q) = W (ix2 c q))
    (h2 : ∀ q : Fin 64, x2 (ix1 q) = B (ix1 q))
    (hi : (i 1).val = (j 1).val) :
    k4_pay1 x0 x1 x2 j = Cert.Gcn.linSelu (m := 50000) (k := 64) (n := 64) A W B i := by
  refine (congrArg (k4_pay1 x0 x1 x2) (eq_ix2 j)).trans ?_
  refine (pay4_apply x0 x1 x2 (j 0) (j 1)).trans ?_
  have hq : (i 1 : Fin 64) = j 1 := Fin.ext hi
  show _ = Cert.Gcn.seluE ((∑ c : Fin 64, A (ix2 (i 0) c) * W (ix2 c (i 1 : Fin 64))) + B (ix1 (i 1 : Fin 64)))
  rw [hq]
  exact congrArg Cert.Gcn.seluE (congrArg₂ (· + ·)
    (Finset.sum_congr rfl fun c _ => congrArg₂ (· * ·) (h0 c) (h1 c (j 1))) (h2 (j 1)))

/-- What point t writes back is block t of linSelu of the three arrays as the region finds them. -/
theorem flushed4_eq (V : (c : Dev nD) → (b : Ref sig .tc) → Buf (Elt Ideal) ((c : Thread nD τ).loc b)) (c : Dev nD)
    (t : Fin cfg4.N) :
    (dat4 (F := Ideal) V c).flushed 3 t
      = ((cfg4.win 3).blk t).view.read (Elt Ideal)
          (Cert.Gcn.linSelu (m := 50000) (k := 64) (n := 64) (V c main_v93) (V c main_arg7) (V c main_arg8)) := by
  show (cfg4.win 3).cut (grid4.coords t) ((dat4 V c).after 3 t) = _
  rw [after4_3]
  unfold out4_3
  rw [View.canon_unit_zero hz2]
  simp only [View.ld_unit_zero (S := S2000x64) hz2, View.ld_unit_zero (S := S64x64) hz2, View.ld_unit_zero (S := S64) hz1]
  obtain ⟨e00, e01, e10, e11, e20, e30, e31⟩ := idx_facts4 t
  funext j
  refine entry4 (V c main_v93) (V c main_arg7) (V c main_arg8) (iblk4 V c 0 t) (iblk4 V c 1 t) (iblk4 V c 2 t) j
    (((cfg4.win 3).blk t).view.emb j) (fun k => ?_) (fun k q => ?_) (fun q => ?_) ?_
  · show V c main_v93 (((cfg4.win 0).blk t).view.emb (ix2 (j 0) k)) = _
    refine congrArg (V c main_v93) (funext fun a => Fin.ext ?_)
    match a with
    | ⟨0, _⟩ =>
      show win4_0.index t (0 : Fin 2) * 2000 + 1 * (j 0).val = win4_3.index t (0 : Fin 2) * 2000 + 1 * (j 0).val
      omega
    | ⟨1, _⟩ =>
      show win4_0.index t (1 : Fin 2) * 64 + 1 * k.val = k.val
      omega
  · show V c main_arg7 (((cfg4.win 1).blk t).view.emb (ix2 k q)) = _
    refine congrArg (V c main_arg7) (funext fun a => Fin.ext ?_)
    match a with
    | ⟨0, _⟩ =>
      show win4_1.index t (0 : Fin 2) * 64 + 1 * k.val = k.val
      omega
    | ⟨1, _⟩ =>
      show win4_1.index t (1 : Fin 2) * 64 + 1 * q.val = q.val
      omega
  · show V c main_arg8 (((cfg4.win 2).blk t).view.emb (ix1 q)) = _
    refine congrArg (V c main_arg8) (funext fun a => Fin.ext ?_)
    match a with
    | ⟨0, _⟩ =>
      show win4_2.index t (0 : Fin 1) * 64 + 1 * q.val = q.val
      omega
  · show win4_3.index t (1 : Fin 2) * 64 + 1 * (j 1).val = (j 1).val
    omega

/-- An array index is in point t's block iff each coordinate is in the block's range on its axis. -/
theorem mem_blk4 (t : Fin cfg4.N) (i : S50000x64.Idx) :
    i ∈ ((cfg4.win 3).blk t).view.set ↔ ∀ a : Fin 2, win4_3.index t a * S2000x64.size a ≤ (i a).val
      ∧ (i a).val < win4_3.index t a * S2000x64.size a + S2000x64.size a := by
  show i ∈ ((View.whole main_v94).slice (win4_3.rect t)).set ↔ _
  rw [View.set_slice_whole, Rect.mem_set_unit]
  exact Iff.rfl

/-- Every entry of the output is in some point's block: row r is in the block of point r / 2000. -/
theorem cover4 (i : S50000x64.Idx) :
    ∃ t : Fin cfg4.N, (cfg4.win 3).flush t = true ∧ i ∈ ((cfg4.win 3).blk t).view.set := by
  have hi0 : (i 0).val < 50000 := (i 0).isLt
  have hi1 : (i 1).val < 64 := (i 1).isLt
  have hN : cfg4.N = 25 := N_4
  have hlt : (i 0).val / 2000 < cfg4.N := by rw [hN]; omega
  obtain ⟨-, -, -, -, -, e30, e31⟩ := idx_facts4 ⟨(i 0).val / 2000, hlt⟩
  have e30' : win4_3.index ⟨(i 0).val / 2000, hlt⟩ (0 : Fin 2) = (i 0).val / 2000 := e30
  refine ⟨⟨(i 0).val / 2000, hlt⟩, flush4_3 _, ?_⟩
  rw [mem_blk4]
  intro a
  match a with
  | ⟨0, _⟩ =>
    show win4_3.index ⟨(i 0).val / 2000, hlt⟩ (0 : Fin 2) * 2000 ≤ (i 0).val
      ∧ (i 0).val < win4_3.index ⟨(i 0).val / 2000, hlt⟩ (0 : Fin 2) * 2000 + 2000
    omega
  | ⟨1, _⟩ =>
    show win4_3.index ⟨(i 0).val / 2000, hlt⟩ (1 : Fin 2) * 64 ≤ (i 1).val
      ∧ (i 1).val < win4_3.index ⟨(i 0).val / 2000, hlt⟩ (1 : Fin 2) * 64 + 64
    omega

/-- The region's output array, after its 25 points, is linSelu of the feature array, the weights and the bias as the
    region finds them. -/
theorem final4 (V : (c : Dev nD) → (b : Ref sig .tc) → Buf (Elt Ideal) ((c : Thread nD τ).loc b)) (c : Dev nD) :
    (dat4 (F := Ideal) V c).arrAt 3 cfg4.N
      = Cert.Gcn.linSelu (m := 50000) (k := 64) (n := 64) (V c main_v93) (V c main_arg7) (V c main_arg8) :=
  (dat4 (F := Ideal) V c).arrAt_eq_of_cover 3 _ (fun t _ => flushed4_eq V c t) cover4

end Cert.KernelIdeal.Val

end
-- ==== Proof.KRegion5.lean ====
/-
  The second dense layer with selu, as the kernel computes it, read as one function of its three input arrays.

  The region walks the 50000 rows of the features in 25 blocks of 2000 rows. At each block it multiplies the block
  by the whole 64 × 64 matrix of weights, adds the 64-entry bias to every row (the bias re-laid as a [1, 64] row and
  repeated down the rows), applies selu entry by entry, and writes the block back to the same rows of the output.
  Over the extended reals narrowing an operand to a shorter float is the identity and the product accumulates into
  zero, so entry (p, q) of a block's result is selu of the sum over the 64 channels of the products of row p of the
  block and column q of the weights, plus the bias at q. Block t sits at rows 2000 t … 2000 t + 1999 of both the
  input and the output, and the 25 blocks cover every row, so the output array ends as the specification's linSelu
  of the whole feature array, the weights and the bias.
-/
import proofs.«159152_j79439715107025_1_alg».proof.Proof.Gen.KernelIdeal.Frame
import proofs.«159152_j79439715107025_1_alg».proof.Proof.GcnSpec
import proofs.«159152_j79439715107025_1_alg».proof.Proof.KSelu
import proofs.«159152_j79439715107025_1_alg».proof.Proof.KRegion1
import proofs.«159152_j79439715107025_1_alg».proof.Proof.LibPlainMatmul
import Idealize.ShloMosaic.Lib.Pipeline.Value
import Idealize.ShloMosaic.Lib.ValueLayout
import Idealize.ShloMosaic.Lib.ValueIdx

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-- Entry (p, q) of the body's result: selu of row p of the block against column q of the weights, plus the bias at q. -/
theorem pay5_apply (x0 : Vec Ideal S2000x64 .f32) (x1 : Vec Ideal S64x64 .f32) (x2 : Vec Ideal S64 .f32)
    (p : Fin 2000) (q : Fin 64) :
    k5_pay1 x0 x1 x2 (ix2 p q)
      = Cert.Gcn.seluE ((∑ c : Fin 64, x0 (ix2 p c) * x1 (ix2 c q)) + x2 (ix1 q)) := by
  unfold k5_pay1
  refine (kselu_apply _ _).trans ?_
  refine congrArg Cert.Gcn.seluE ?_
  refine (addf_apply _ _ _).trans ?_
  refine congrArg₂ (· + ·) ?_ (biasRows_apply _ _ _ p q)
  refine (Cert.LibPlainMatmul.matmul_zero_plain _ _ _ p q).trans ?_
  rw [shapeCast_self]
  rfl

/-- The block index maps, decided over the 25 grid points: at point t the feature and output windows sit at block row
    t, block column 0; the weights and the bias are always their one block. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 1) = 0
    ∧ win5_3.index t (0 : Fin 2) = t.val ∧ win5_3.index t (1 : Fin 2) = 0 :=
  (by decide +kernel : ∀ t : Fin grid5.N, _)

/-- One entry of a block's result is the specification at the array entry it is written to: row (j 0) of the block is
    row (i 0) of the array, the block of weights is the weights, the block's bias is the bias, and the column is
    unchanged. -/
theorem entry5 (A : S50000x64.Idx → EReal) (W : S64x64.Idx → EReal) (B : S64.Idx → EReal)
    (x0 : Vec Ideal S2000x64 .f32) (x1 : Vec Ideal S64x64 .f32) (x2 : Vec Ideal S64 .f32)
    (j : S2000x64.Idx) (i : S50000x64.Idx)
    (h0 : ∀ c : Fin 64, x0 (ix2 (j 0) c) = A (ix2 (i 0) c))
    (h1 : ∀ (c q : Fin 64), x1 (ix2 c q) = W (ix2 c q))
    (h2 : ∀ q : Fin 64, x2 (ix1 q) = B (ix1 q))
    (hi : (i 1).val = (j 1).val) :
    k5_pay1 x0 x1 x2 j = Cert.Gcn.linSelu (m := 50000) (k := 64) (n := 64) A W B i := by
  refine (congrArg (k5_pay1 x0 x1 x2) (eq_ix2 j)).trans ?_
  refine (pay5_apply x0 x1 x2 (j 0) (j 1)).trans ?_
  have hq : (i 1 : Fin 64) = j 1 := Fin.ext hi
  show _ = Cert.Gcn.seluE ((∑ c : Fin 64, A (ix2 (i 0) c) * W (ix2 c (i 1 : Fin 64))) + B (ix1 (i 1 : Fin 64)))
  rw [hq]
  exact congrArg Cert.Gcn.seluE (congrArg₂ (· + ·)
    (Finset.sum_congr rfl fun c _ => congrArg₂ (· * ·) (h0 c) (h1 c (j 1))) (h2 (j 1)))

/-- What point t writes back is block t of linSelu of the three arrays as the region finds them. -/
theorem flushed5_eq (V : (c : Dev nD) → (b : Ref sig .tc) → Buf (Elt Ideal) ((c : Thread nD τ).loc b)) (c : Dev nD)
    (t : Fin cfg5.N) :
    (dat5 (F := Ideal) V c).flushed 3 t
      = ((cfg5.win 3).blk t).view.read (Elt Ideal)
          (Cert.Gcn.linSelu (m := 50000) (k := 64) (n := 64) (V c main_v94) (V c main_arg9) (V c main_arg10)) := by
  show (cfg5.win 3).cut (grid5.coords t) ((dat5 V c).after 3 t) = _
  rw [after5_3]
  unfold out5_3
  rw [View.canon_unit_zero hz2]
  simp only [View.ld_unit_zero (S := S2000x64) hz2, View.ld_unit_zero (S := S64x64) hz2, View.ld_unit_zero (S := S64) hz1]
  obtain ⟨e00, e01, e10, e11, e20, e30, e31⟩ := idx_facts5 t
  funext j
  refine entry5 (V c main_v94) (V c main_arg9) (V c main_arg10) (iblk5 V c 0 t) (iblk5 V c 1 t) (iblk5 V c 2 t) j
    (((cfg5.win 3).blk t).view.emb j) (fun k => ?_) (fun k q => ?_) (fun q => ?_) ?_
  · show V c main_v94 (((cfg5.win 0).blk t).view.emb (ix2 (j 0) k)) = _
    refine congrArg (V c main_v94) (funext fun a => Fin.ext ?_)
    match a with
    | ⟨0, _⟩ =>
      show win5_0.index t (0 : Fin 2) * 2000 + 1 * (j 0).val = win5_3.index t (0 : Fin 2) * 2000 + 1 * (j 0).val
      omega
    | ⟨1, _⟩ =>
      show win5_0.index t (1 : Fin 2) * 64 + 1 * k.val = k.val
      omega
  · show V c main_arg9 (((cfg5.win 1).blk t).view.emb (ix2 k q)) = _
    refine congrArg (V c main_arg9) (funext fun a => Fin.ext ?_)
    match a with
    | ⟨0, _⟩ =>
      show win5_1.index t (0 : Fin 2) * 64 + 1 * k.val = k.val
      omega
    | ⟨1, _⟩ =>
      show win5_1.index t (1 : Fin 2) * 64 + 1 * q.val = q.val
      omega
  · show V c main_arg10 (((cfg5.win 2).blk t).view.emb (ix1 q)) = _
    refine congrArg (V c main_arg10) (funext fun a => Fin.ext ?_)
    match a with
    | ⟨0, _⟩ =>
      show win5_2.index t (0 : Fin 1) * 64 + 1 * q.val = q.val
      omega
  · show win5_3.index t (1 : Fin 2) * 64 + 1 * (j 1).val = (j 1).val
    omega

/-- An array index is in point t's block iff each coordinate is in the block's range on its axis. -/
theorem mem_blk5 (t : Fin cfg5.N) (i : S50000x64.Idx) :
    i ∈ ((cfg5.win 3).blk t).view.set ↔ ∀ a : Fin 2, win5_3.index t a * S2000x64.size a ≤ (i a).val
      ∧ (i a).val < win5_3.index t a * S2000x64.size a + S2000x64.size a := by
  show i ∈ ((View.whole main_v95).slice (win5_3.rect t)).set ↔ _
  rw [View.set_slice_whole, Rect.mem_set_unit]
  exact Iff.rfl

/-- Every entry of the output is in some point's block: row r is in the block of point r / 2000. -/
theorem cover5 (i : S50000x64.Idx) :
    ∃ t : Fin cfg5.N, (cfg5.win 3).flush t = true ∧ i ∈ ((cfg5.win 3).blk t).view.set := by
  have hi0 : (i 0).val < 50000 := (i 0).isLt
  have hi1 : (i 1).val < 64 := (i 1).isLt
  have hN : cfg5.N = 25 := N_5
  have hlt : (i 0).val / 2000 < cfg5.N := by rw [hN]; omega
  obtain ⟨-, -, -, -, -, e30, e31⟩ := idx_facts5 ⟨(i 0).val / 2000, hlt⟩
  have e30' : win5_3.index ⟨(i 0).val / 2000, hlt⟩ (0 : Fin 2) = (i 0).val / 2000 := e30
  refine ⟨⟨(i 0).val / 2000, hlt⟩, flush5_3 _, ?_⟩
  rw [mem_blk5]
  intro a
  match a with
  | ⟨0, _⟩ =>
    show win5_3.index ⟨(i 0).val / 2000, hlt⟩ (0 : Fin 2) * 2000 ≤ (i 0).val
      ∧ (i 0).val < win5_3.index ⟨(i 0).val / 2000, hlt⟩ (0 : Fin 2) * 2000 + 2000
    omega
  | ⟨1, _⟩ =>
    show win5_3.index ⟨(i 0).val / 2000, hlt⟩ (1 : Fin 2) * 64 ≤ (i 1).val
      ∧ (i 1).val < win5_3.index ⟨(i 0).val / 2000, hlt⟩ (1 : Fin 2) * 64 + 64
    omega

/-- The region's output array, after its 25 points, is linSelu of the feature array, the weights and the bias as the
    region finds them. -/
theorem final5 (V : (c : Dev nD) → (b : Ref sig .tc) → Buf (Elt Ideal) ((c : Thread nD τ).loc b)) (c : Dev nD) :
    (dat5 (F := Ideal) V c).arrAt 3 cfg5.N
      = Cert.Gcn.linSelu (m := 50000) (k := 64) (n := 64) (V c main_v94) (V c main_arg9) (V c main_arg10) :=
  (dat5 (F := Ideal) V c).arrAt_eq_of_cover 3 _ (fun t _ => flushed5_eq V c t) cover5

end Cert.KernelIdeal.Val

end
-- ==== Proof.KRegion6.lean ====
/-
  The value of the third dense layer with selu as the kernel computes it: 50000 rows of 64 features times the
  layer's 64 × 64 weights, plus its bias along the rows, then selu entry by entry.

  The rows are cut in 25 blocks of 2000. At block t the body multiplies rows 2000 t … 2000 t + 1999 of the features
  by the whole matrix of weights, adds the bias (a row of 64 laid as a 1 × 64 array and repeated down the 2000
  rows), applies selu(x) = s · (x where x > 0, else a · (exp x − 1)) and writes the same rows of the result. Over
  the extended reals the narrowing of the operands to a shorter float is the identity and the product accumulates
  into zero, so entry (p, q) of a block is selu of the sum over the 64 channels of the products of row p of the
  block and column q of the weights, plus the bias at q. Row r of the result lies in block r / 2000, so the 25
  blocks fill the result, which is therefore the dense layer with selu of the three arrays as the region finds
  them.
-/
import proofs.«159152_j79439715107025_1_alg».proof.Proof.Gen.KernelIdeal.Frame
import proofs.«159152_j79439715107025_1_alg».proof.Proof.GcnSpec
import proofs.«159152_j79439715107025_1_alg».proof.Proof.LibPlainMatmul
import proofs.«159152_j79439715107025_1_alg».proof.Proof.KSelu

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-- The zero offset of a whole-block rectangle, as a constant function. -/
private theorem zero2 : (![0, 0] : Fin 2 → Nat) = fun _ => 0 := funext fun a => by fin_cases a <;> rfl
private theorem zero1 : (![0] : Fin 1 → Nat) = fun _ => 0 := funext fun a => by fin_cases a; rfl

/-! ## The bias laid along the rows -/

/-- A [c] array cast to [1, c] reads, at (z, s), the operand at s. -/
private theorem shapeCast_c_1c_apply {α : Type} {c : ℕ} (x : (⟨1, ![c]⟩ : Shape).Idx → α)
    (h : (⟨1, ![c]⟩ : Shape).ShapeCasts ⟨2, ![1, c]⟩) (z : Fin 1) (s : Fin c) :
    shapeCast ⟨2, ![1, c]⟩ x h (ix2 z s) = x (ix1 s) :=
  shapeCast_apply x h _ _ (by
    have hz : z.val = 0 := by omega
    rw [Shape.rowMajor_val_two, Shape.rowMajor_val_one]
    show s.val = z.val * c + s.val
    rw [hz, Nat.zero_mul, Nat.zero_add])

/-- A [1, c] array repeated down the rows to [a, c] reads, at (p, s), the operand at (0, s). -/
private theorem broadcastTo_1c_ac_apply {α : Type} {a c : ℕ} (x : (⟨2, ![1, c]⟩ : Shape).Idx → α)
    (h : (⟨2, ![1, c]⟩ : Shape).Broadcasts ⟨2, ![a, c]⟩) (p : Fin a) (s : Fin c) :
    broadcastTo ⟨2, ![a, c]⟩ x h (ix2 p s) = x (ix2 (0 : Fin 1) s) := by
  refine broadcastTo_apply x h (ix2 p s) (ix2 (0 : Fin 1) s) fun ax => ?_
  match ax with
  | ⟨0, _⟩ => rfl
  | ⟨1, _⟩ =>
    show s.val = if c = 1 then 0 else s.val
    split
    · have := s.isLt; omega
    · rfl

/-! ## Region 6: a dense layer followed by selu -/

/-- The body's value at (p, q): selu of row p of the block against column q of the weights plus the bias at q. -/
theorem pay6_apply (x0 : Vec Ideal S2000x64 .f32) (x1 : Vec Ideal S64x64 .f32) (x2 : Vec Ideal S64 .f32)
    (p : Fin 2000) (q : Fin 64) :
    k6_pay1 x0 x1 x2 (ix2 p q)
      = Cert.Gcn.seluE ((∑ c : Fin 64, x0 (ix2 p c) * x1 (ix2 c q)) + x2 (ix1 q)) := by
  unfold k6_pay1
  refine (kselu_apply _ (ix2 p q)).trans ?_
  refine congrArg Cert.Gcn.seluE ?_
  refine (addf_apply _ _ _).trans ?_
  refine congrArg₂ (· + ·) ?_ ?_
  · refine (Cert.LibPlainMatmul.matmul_zero_plain _ _ _ p q).trans ?_
    refine Finset.sum_congr rfl fun c _ => ?_
    show shapeCast S2000x64 x0 shapeCasts_S2000x64_S2000x64 (ix2 p c) * x1 (ix2 c q) = _
    rw [shapeCast_self]
  · refine (broadcastTo_1c_ac_apply _ _ p q).trans ?_
    exact shapeCast_c_1c_apply _ _ 0 q

/-- When row (j 0) of the block is row (i 0) of the array, column (j 1) of the block of weights is column (i 1) of
    the weights and the bias block at (j 1) is the bias at (i 1), the body's value at j is the layer's at i. -/
theorem pay6_lin (A : FVec Ideal S50000x64 .f32) (W : FVec Ideal S64x64 .f32) (B : FVec Ideal S64 .f32)
    (x0 : Vec Ideal S2000x64 .f32) (x1 : Vec Ideal S64x64 .f32) (x2 : Vec Ideal S64 .f32)
    (j : S2000x64.Idx) (i : S50000x64.Idx)
    (h0 : ∀ c : Fin 64, x0 (ix2 (j 0) c) = A (ix2 (i 0) c))
    (h1 : ∀ c : Fin 64, x1 (ix2 c (j 1)) = W (ix2 c (i 1)))
    (h2 : x2 (ix1 (j 1)) = B (ix1 (i 1))) :
    k6_pay1 x0 x1 x2 j = Cert.Gcn.linSelu A W B i := by
  refine (congrArg (k6_pay1 x0 x1 x2) (eq_ix2 j)).trans ?_
  refine (pay6_apply x0 x1 x2 (j 0) (j 1)).trans ?_
  show _ = Cert.Gcn.seluE ((∑ c : Fin 64, A (ix2 (i 0) c) * W (ix2 c (i 1))) + B (ix1 (i 1)))
  rw [h2]
  exact congrArg (fun s => Cert.Gcn.seluE (s + B (ix1 (i 1)))) (Finset.sum_congr rfl fun c _ => by rw [h0 c, h1 c])

/-- The index maps over the 25 points: the features and the result move down the rows with the point, the weights
    and the bias stay. -/
theorem idx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 1) = 0
    ∧ win6_3.index t (0 : Fin 2) = t.val ∧ win6_3.index t (1 : Fin 2) = 0 :=
  (by decide +kernel : ∀ t : Fin grid6.N, _)

variable (V : (c : Dev nD) → (b : Ref sig .tc) → Buf (Elt Ideal) ((c : Thread nD τ).loc b))

/-- What point t writes back is block t of the layer's result: row r of block t is row 2000 t + r of the features,
    and the weights and the bias are read whole. -/
theorem flushed6 (c : Dev nD) (t : Fin cfg6.N) :
    (dat6 (F := Ideal) V c).flushed 3 t
      = ((cfg6.win 3).blk t).view.read (Elt Ideal) (Cert.Gcn.linSelu (V c main_v95) (V c main_arg11) (V c main_arg12)) := by
  show (cfg6.win 3).cut (grid6.coords t) ((dat6 V c).after 3 t) = _
  rw [after6_3]
  unfold out6_3
  rw [View.canon_unit_zero zero2]
  simp only [View.ld_unit_zero (S := S2000x64) zero2, View.ld_unit_zero (S := S64x64) zero2,
    View.ld_unit_zero (S := S64) zero1]
  obtain ⟨e0, e1, e2, e3, e4, e5, e6⟩ := idx6 t
  funext j
  show k6_pay1 (iblk6 V c 0 t) (iblk6 V c 1 t) (iblk6 V c 2 t) j
    = Cert.Gcn.linSelu (V c main_v95) (V c main_arg11) (V c main_arg12) (((cfg6.win 3).blk t).view.emb j)
  refine pay6_lin (V c main_v95) (V c main_arg11) (V c main_arg12) _ _ _ j _ (fun k => ?_) (fun k => ?_) ?_
  · show V c main_v95 (((cfg6.win 0).blk t).view.emb (ix2 (j 0) k)) = _
    refine congrArg (V c main_v95) (funext fun a => Fin.ext ?_)
    match a with
    | ⟨0, _⟩ =>
      show win6_0.index t (0 : Fin 2) * 2000 + 1 * (j 0).val = win6_3.index t (0 : Fin 2) * 2000 + 1 * (j 0).val
      omega
    | ⟨1, _⟩ =>
      show win6_0.index t (1 : Fin 2) * 64 + 1 * k.val = k.val
      omega
  · show V c main_arg11 (((cfg6.win 1).blk t).view.emb (ix2 k (j 1))) = _
    refine congrArg (V c main_arg11) (funext fun a => Fin.ext ?_)
    match a with
    | ⟨0, _⟩ =>
      show win6_1.index t (0 : Fin 2) * 64 + 1 * k.val = k.val
      omega
    | ⟨1, _⟩ =>
      show win6_1.index t (1 : Fin 2) * 64 + 1 * (j 1).val = win6_3.index t (1 : Fin 2) * 64 + 1 * (j 1).val
      omega
  · show V c main_arg12 (((cfg6.win 2).blk t).view.emb (ix1 (j 1))) = _
    refine congrArg (V c main_arg12) (funext fun a => Fin.ext ?_)
    match a with
    | ⟨0, _⟩ =>
      show win6_2.index t (0 : Fin 1) * 64 + 1 * (j 1).val = win6_3.index t (1 : Fin 2) * 64 + 1 * (j 1).val
      omega

/-- An index of the result is in point t's block iff each coordinate is in the block's range on its axis. -/
theorem mem_blk6 (t : Fin cfg6.N) (i : S50000x64.Idx) :
    i ∈ ((cfg6.win 3).blk t).view.set ↔ ∀ a : Fin 2, win6_3.index t a * S2000x64.size a ≤ (i a).val
      ∧ (i a).val < win6_3.index t a * S2000x64.size a + S2000x64.size a := by
  show i ∈ ((View.whole main_v96).slice (win6_3.rect t)).set ↔ _
  rw [View.set_slice_whole, Rect.mem_set_unit]
  exact Iff.rfl

/-- Every row r of the result is in the block of point r / 2000. -/
theorem cover6 (i : S50000x64.Idx) :
    ∃ t : Fin cfg6.N, (cfg6.win 3).flush t = true ∧ i ∈ ((cfg6.win 3).blk t).view.set := by
  have hi0 : (i 0).val < 50000 := (i 0).isLt
  have hi1 : (i 1).val < 64 := (i 1).isLt
  have hlt : (i 0).val / 2000 < 25 := by omega
  obtain ⟨-, -, -, -, -, e5, e6⟩ := idx6 ⟨(i 0).val / 2000, hlt⟩
  have e5' : win6_3.index ⟨(i 0).val / 2000, hlt⟩ (0 : Fin 2) = (i 0).val / 2000 := e5
  refine ⟨⟨(i 0).val / 2000, hlt⟩, flush6_3 _, ?_⟩
  rw [mem_blk6]
  intro a
  match a with
  | ⟨0, _⟩ =>
    show win6_3.index ⟨(i 0).val / 2000, hlt⟩ (0 : Fin 2) * 2000 ≤ (i 0).val
      ∧ (i 0).val < win6_3.index ⟨(i 0).val / 2000, hlt⟩ (0 : Fin 2) * 2000 + 2000
    omega
  | ⟨1, _⟩ =>
    show win6_3.index ⟨(i 0).val / 2000, hlt⟩ (1 : Fin 2) * 64 ≤ (i 1).val
      ∧ (i 1).val < win6_3.index ⟨(i 0).val / 2000, hlt⟩ (1 : Fin 2) * 64 + 64
    omega

/-- After region 6 its result array is the dense layer with selu of the arrays the region finds. -/
theorem final6 (c : Dev nD) :
    (dat6 (F := Ideal) V c).arrAt 3 cfg6.N = Cert.Gcn.linSelu (V c main_v95) (V c main_arg11) (V c main_arg12) :=
  (dat6 V c).arrAt_eq_of_cover 3 (Cert.Gcn.linSelu (V c main_v95) (V c main_arg11) (V c main_arg12)) (fun t _ => flushed6 V c t) cover6

end Cert.KernelIdeal.Val

end
-- ==== Proof.KRegion7.lean ====
/-
  The value of the last dense layer as the kernel computes it: 50000 rows of 64 features times the layer's 64 × 64
  weights, plus its bias along the rows.

  The rows are cut in 25 blocks of 2000. At block t the body multiplies rows 2000 t … 2000 t + 1999 of the features
  by the whole matrix of weights, adds the bias (a row of 64 laid as a 1 × 64 array and repeated down the 2000
  rows) and writes the same rows of the result. Over the extended reals the narrowing of the operands to a shorter
  float is the identity and the product accumulates into zero, so entry (p, q) of a block is the sum over the 64
  channels of the products of row p of the block and column q of the weights, plus the bias at q. Row r of the
  result lies in block r / 2000, so the 25 blocks fill the result, which is therefore the dense layer of the three
  arrays as the region finds them.
-/
import proofs.«159152_j79439715107025_1_alg».proof.Proof.Gen.KernelIdeal.Frame
import proofs.«159152_j79439715107025_1_alg».proof.Proof.GcnSpec
import proofs.«159152_j79439715107025_1_alg».proof.Proof.LibPlainMatmul

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-- The zero offset of a whole-block rectangle, as a constant function. -/
private theorem zero2 : (![0, 0] : Fin 2 → Nat) = fun _ => 0 := funext fun a => by fin_cases a <;> rfl
private theorem zero1 : (![0] : Fin 1 → Nat) = fun _ => 0 := funext fun a => by fin_cases a; rfl

/-! ## The bias laid along the rows -/

/-- A [c] array cast to [1, c] reads, at (z, s), the operand at s. -/
private theorem shapeCast_c_1c_apply {α : Type} {c : ℕ} (x : (⟨1, ![c]⟩ : Shape).Idx → α)
    (h : (⟨1, ![c]⟩ : Shape).ShapeCasts ⟨2, ![1, c]⟩) (z : Fin 1) (s : Fin c) :
    shapeCast ⟨2, ![1, c]⟩ x h (ix2 z s) = x (ix1 s) :=
  shapeCast_apply x h _ _ (by
    have hz : z.val = 0 := by omega
    rw [Shape.rowMajor_val_two, Shape.rowMajor_val_one]
    show s.val = z.val * c + s.val
    rw [hz, Nat.zero_mul, Nat.zero_add])

/-- A [1, c] array repeated down the rows to [a, c] reads, at (p, s), the operand at (0, s). -/
private theorem broadcastTo_1c_ac_apply {α : Type} {a c : ℕ} (x : (⟨2, ![1, c]⟩ : Shape).Idx → α)
    (h : (⟨2, ![1, c]⟩ : Shape).Broadcasts ⟨2, ![a, c]⟩) (p : Fin a) (s : Fin c) :
    broadcastTo ⟨2, ![a, c]⟩ x h (ix2 p s) = x (ix2 (0 : Fin 1) s) := by
  refine broadcastTo_apply x h (ix2 p s) (ix2 (0 : Fin 1) s) fun ax => ?_
  match ax with
  | ⟨0, _⟩ => rfl
  | ⟨1, _⟩ =>
    show s.val = if c = 1 then 0 else s.val
    split
    · have := s.isLt; omega
    · rfl

/-! ## Region 7: a dense layer -/

/-- The body's value at (p, q): row p of the block against column q of the weights, plus the bias at q. -/
theorem pay7_apply (x0 : Vec Ideal S2000x64 .f32) (x1 : Vec Ideal S64x64 .f32) (x2 : Vec Ideal S64 .f32)
    (p : Fin 2000) (q : Fin 64) :
    k7_pay1 x0 x1 x2 (ix2 p q) = (∑ c : Fin 64, x0 (ix2 p c) * x1 (ix2 c q)) + x2 (ix1 q) := by
  unfold k7_pay1
  refine (addf_apply _ _ _).trans ?_
  refine congrArg₂ (· + ·) ?_ ?_
  · refine (Cert.LibPlainMatmul.matmul_zero_plain _ _ _ p q).trans ?_
    refine Finset.sum_congr rfl fun c _ => ?_
    show shapeCast S2000x64 x0 shapeCasts_S2000x64_S2000x64 (ix2 p c) * x1 (ix2 c q) = _
    rw [shapeCast_self]
  · refine (broadcastTo_1c_ac_apply _ _ p q).trans ?_
    exact shapeCast_c_1c_apply _ _ 0 q

/-- When row (j 0) of the block is row (i 0) of the array, column (j 1) of the block of weights is column (i 1) of
    the weights and the bias block at (j 1) is the bias at (i 1), the body's value at j is the layer's at i. -/
theorem pay7_lin (A : FVec Ideal S50000x64 .f32) (W : FVec Ideal S64x64 .f32) (B : FVec Ideal S64 .f32)
    (x0 : Vec Ideal S2000x64 .f32) (x1 : Vec Ideal S64x64 .f32) (x2 : Vec Ideal S64 .f32)
    (j : S2000x64.Idx) (i : S50000x64.Idx)
    (h0 : ∀ c : Fin 64, x0 (ix2 (j 0) c) = A (ix2 (i 0) c))
    (h1 : ∀ c : Fin 64, x1 (ix2 c (j 1)) = W (ix2 c (i 1)))
    (h2 : x2 (ix1 (j 1)) = B (ix1 (i 1))) :
    k7_pay1 x0 x1 x2 j = Cert.Gcn.lin A W B i := by
  refine (congrArg (k7_pay1 x0 x1 x2) (eq_ix2 j)).trans ?_
  refine (pay7_apply x0 x1 x2 (j 0) (j 1)).trans ?_
  show _ = (∑ c : Fin 64, A (ix2 (i 0) c) * W (ix2 c (i 1))) + B (ix1 (i 1))
  rw [h2]
  exact congrArg (fun s => s + B (ix1 (i 1))) (Finset.sum_congr rfl fun c _ => by rw [h0 c, h1 c])

/-- The index maps over the 25 points: the features and the result move down the rows with the point, the weights
    and the bias stay. -/
theorem idx7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 1) = 0
    ∧ win7_3.index t (0 : Fin 2) = t.val ∧ win7_3.index t (1 : Fin 2) = 0 :=
  (by decide +kernel : ∀ t : Fin grid7.N, _)

variable (V : (c : Dev nD) → (b : Ref sig .tc) → Buf (Elt Ideal) ((c : Thread nD τ).loc b))

/-- What point t writes back is block t of the layer's result: row r of block t is row 2000 t + r of the features,
    and the weights and the bias are read whole. -/
theorem flushed7 (c : Dev nD) (t : Fin cfg7.N) :
    (dat7 (F := Ideal) V c).flushed 3 t
      = ((cfg7.win 3).blk t).view.read (Elt Ideal) (Cert.Gcn.lin (V c main_v96) (V c main_arg13) (V c main_arg14)) := by
  show (cfg7.win 3).cut (grid7.coords t) ((dat7 V c).after 3 t) = _
  rw [after7_3]
  unfold out7_3
  rw [View.canon_unit_zero zero2]
  simp only [View.ld_unit_zero (S := S2000x64) zero2, View.ld_unit_zero (S := S64x64) zero2,
    View.ld_unit_zero (S := S64) zero1]
  obtain ⟨e0, e1, e2, e3, e4, e5, e6⟩ := idx7 t
  funext j
  show k7_pay1 (iblk7 V c 0 t) (iblk7 V c 1 t) (iblk7 V c 2 t) j
    = Cert.Gcn.lin (V c main_v96) (V c main_arg13) (V c main_arg14) (((cfg7.win 3).blk t).view.emb j)
  refine pay7_lin (V c main_v96) (V c main_arg13) (V c main_arg14) _ _ _ j _ (fun k => ?_) (fun k => ?_) ?_
  · show V c main_v96 (((cfg7.win 0).blk t).view.emb (ix2 (j 0) k)) = _
    refine congrArg (V c main_v96) (funext fun a => Fin.ext ?_)
    match a with
    | ⟨0, _⟩ =>
      show win7_0.index t (0 : Fin 2) * 2000 + 1 * (j 0).val = win7_3.index t (0 : Fin 2) * 2000 + 1 * (j 0).val
      omega
    | ⟨1, _⟩ =>
      show win7_0.index t (1 : Fin 2) * 64 + 1 * k.val = k.val
      omega
  · show V c main_arg13 (((cfg7.win 1).blk t).view.emb (ix2 k (j 1))) = _
    refine congrArg (V c main_arg13) (funext fun a => Fin.ext ?_)
    match a with
    | ⟨0, _⟩ =>
      show win7_1.index t (0 : Fin 2) * 64 + 1 * k.val = k.val
      omega
    | ⟨1, _⟩ =>
      show win7_1.index t (1 : Fin 2) * 64 + 1 * (j 1).val = win7_3.index t (1 : Fin 2) * 64 + 1 * (j 1).val
      omega
  · show V c main_arg14 (((cfg7.win 2).blk t).view.emb (ix1 (j 1))) = _
    refine congrArg (V c main_arg14) (funext fun a => Fin.ext ?_)
    match a with
    | ⟨0, _⟩ =>
      show win7_2.index t (0 : Fin 1) * 64 + 1 * (j 1).val = win7_3.index t (1 : Fin 2) * 64 + 1 * (j 1).val
      omega

/-- An index of the result is in point t's block iff each coordinate is in the block's range on its axis. -/
theorem mem_blk7 (t : Fin cfg7.N) (i : S50000x64.Idx) :
    i ∈ ((cfg7.win 3).blk t).view.set ↔ ∀ a : Fin 2, win7_3.index t a * S2000x64.size a ≤ (i a).val
      ∧ (i a).val < win7_3.index t a * S2000x64.size a + S2000x64.size a := by
  show i ∈ ((View.whole main_v97).slice (win7_3.rect t)).set ↔ _
  rw [View.set_slice_whole, Rect.mem_set_unit]
  exact Iff.rfl

/-- Every row r of the result is in the block of point r / 2000. -/
theorem cover7 (i : S50000x64.Idx) :
    ∃ t : Fin cfg7.N, (cfg7.win 3).flush t = true ∧ i ∈ ((cfg7.win 3).blk t).view.set := by
  have hi0 : (i 0).val < 50000 := (i 0).isLt
  have hi1 : (i 1).val < 64 := (i 1).isLt
  have hlt : (i 0).val / 2000 < 25 := by omega
  obtain ⟨-, -, -, -, -, e5, e6⟩ := idx7 ⟨(i 0).val / 2000, hlt⟩
  have e5' : win7_3.index ⟨(i 0).val / 2000, hlt⟩ (0 : Fin 2) = (i 0).val / 2000 := e5
  refine ⟨⟨(i 0).val / 2000, hlt⟩, flush7_3 _, ?_⟩
  rw [mem_blk7]
  intro a
  match a with
  | ⟨0, _⟩ =>
    show win7_3.index ⟨(i 0).val / 2000, hlt⟩ (0 : Fin 2) * 2000 ≤ (i 0).val
      ∧ (i 0).val < win7_3.index ⟨(i 0).val / 2000, hlt⟩ (0 : Fin 2) * 2000 + 2000
    omega
  | ⟨1, _⟩ =>
    show win7_3.index ⟨(i 0).val / 2000, hlt⟩ (1 : Fin 2) * 64 ≤ (i 1).val
      ∧ (i 1).val < win7_3.index ⟨(i 0).val / 2000, hlt⟩ (1 : Fin 2) * 64 + 64
    omega

/-- After region 7 its result array is the dense layer of the arrays the region finds. -/
theorem final7 (c : Dev nD) :
    (dat7 (F := Ideal) V c).arrAt 3 cfg7.N = Cert.Gcn.lin (V c main_v96) (V c main_arg13) (V c main_arg14) :=
  (dat7 V c).arrAt_eq_of_cover 3 (Cert.Gcn.lin (V c main_v96) (V c main_arg13) (V c main_arg14)) (fun t _ => flushed7 V c t) cover7

end Cert.KernelIdeal.Val

end
-- ==== Proof.KernelValue.lean ====
/-
  The idealized kernel's result is the network of its arguments.

  The contents of the result buffer at the last segment boundary are followed back to the launch memory, one
  segment at a time. A region's output array is, by its region's value lemma, the layer of what the region finds in
  the arrays its windows read; those arrays hold what the previous segment left (an earlier region's output, or the
  last buffer of a stretch of host operations) or, for the weights, the biases, the edge list and the edge weights,
  what was launched, since no segment writes an argument. The two stretches of host operations are the aggregation
  along the edges. Composing the ten equations is the definition of the network.
-/
import proofs.«159152_j79439715107025_1_alg».proof.Proof.Gen.KernelIdeal.Frame
import proofs.«159152_j79439715107025_1_alg».proof.Proof.GcnSpec
import proofs.«159152_j79439715107025_1_alg».proof.Proof.KAgg
import proofs.«159152_j79439715107025_1_alg».proof.Proof.KArgs
import proofs.«159152_j79439715107025_1_alg».proof.Proof.KRegion0
import proofs.«159152_j79439715107025_1_alg».proof.Proof.KRegion1
import proofs.«159152_j79439715107025_1_alg».proof.Proof.KRegion2
import proofs.«159152_j79439715107025_1_alg».proof.Proof.KRegion3
import proofs.«159152_j79439715107025_1_alg».proof.Proof.KRegion4
import proofs.«159152_j79439715107025_1_alg».proof.Proof.KRegion5
import proofs.«159152_j79439715107025_1_alg».proof.Proof.KRegion6
import proofs.«159152_j79439715107025_1_alg».proof.Proof.KRegion7

set_option maxRecDepth 16384

noncomputable section

namespace Cert.KernelIdeal.Val

open Cert.KernelIdeal Cert.KernelIdeal.Gen
open Idealize.ShloMosaic Idealize.ShloMosaic.TcCoe Idealize.SL.Sem Idealize.ShloMosaic.StableHlo

section Chain
variable (m : (ℓ : Loc nD τ sig) → Buf (Elt Ideal) ℓ) (ρ : Dev nD → PrngReg) (c : Dev nD) (hf : Cert.Gcn.AggFacts)

/-- The result buffer's final contents are the network of the launch contents of the fifteen arguments: region by
    region and stretch by stretch, each boundary's contents at the buffer the next segment reads. -/
theorem result_eq :
    W14 m ρ c (Proc.devRef .tc main_v97)
      = Cert.Gcn.net hf (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14)) := by
  -- the first product
  have t1 : W1 m ρ c (Proc.devRef .tc main_v0)
      = Cert.Gcn.mm (m ((c : Thread nD τ).loc main_arg0)) (m ((c : Thread nD τ).loc main_arg3)) :=
    (W1_arr m ρ c 2).trans (final0 (V0 m ρ) c)
  -- the first aggregation
  have a1 : W4 m ρ c (Proc.devRef .tc main_v45)
      = Cert.Gcn.agg hf (Cert.Gcn.mm (m ((c : Thread nD τ).loc main_arg0)) (m ((c : Thread nD τ).loc main_arg3)))
          (m ((c : Thread nD τ).loc main_arg1)) (m ((c : Thread nD τ).loc main_arg2)) := by
    refine (agg1_any hf (W1 m ρ c)).trans ?_
    rw [t1, W1_main_arg1 m ρ c, W1_main_arg2 m ρ c]
  -- bias and selu
  have h1 : W5 m ρ c (Proc.devRef .tc main_v46) = Cert.Gcn.biasSelu (W4 m ρ c (Proc.devRef .tc main_v45)) (m ((c : Thread nD τ).loc main_arg4)) := by
    refine ((W5_arr m ρ c 2).trans (final1 (V4 m ρ) c)).trans ?_
    rw [show V4 m ρ c main_arg4 = m ((c : Thread nD τ).loc main_arg4) from W4_main_arg4 m ρ c]
  -- the second product
  have t2 : W6 m ρ c (Proc.devRef .tc main_v47) = Cert.Gcn.mm (W5 m ρ c (Proc.devRef .tc main_v46)) (m ((c : Thread nD τ).loc main_arg5)) := by
    refine ((W6_arr m ρ c 2).trans (final2 (V5 m ρ) c)).trans ?_
    rw [show V5 m ρ c main_arg5 = m ((c : Thread nD τ).loc main_arg5) from W5_main_arg5 m ρ c]
  -- the second aggregation
  have a2 : W9 m ρ c (Proc.devRef .tc main_v92)
      = Cert.Gcn.agg (F := Ideal) hf (W6 m ρ c (Proc.devRef .tc main_v47)) (m ((c : Thread nD τ).loc main_arg1)) (m ((c : Thread nD τ).loc main_arg2)) := by
    refine (agg2_any hf (W6 m ρ c)).trans ?_
    rw [W6_main_arg1 m ρ c, W6_main_arg2 m ρ c]
  have h2 : W10 m ρ c (Proc.devRef .tc main_v93) = Cert.Gcn.biasSelu (W9 m ρ c (Proc.devRef .tc main_v92)) (m ((c : Thread nD τ).loc main_arg6)) := by
    refine ((W10_arr m ρ c 2).trans (final3 (V9 m ρ) c)).trans ?_
    rw [show V9 m ρ c main_arg6 = m ((c : Thread nD τ).loc main_arg6) from W9_main_arg6 m ρ c]
  -- the dense layers
  have h3 : W11 m ρ c (Proc.devRef .tc main_v94)
      = Cert.Gcn.linSelu (W10 m ρ c (Proc.devRef .tc main_v93)) (m ((c : Thread nD τ).loc main_arg7)) (m ((c : Thread nD τ).loc main_arg8)) := by
    refine ((W11_arr m ρ c 3).trans (final4 (V10 m ρ) c)).trans ?_
    rw [show V10 m ρ c main_arg7 = m ((c : Thread nD τ).loc main_arg7) from W10_main_arg7 m ρ c,
      show V10 m ρ c main_arg8 = m ((c : Thread nD τ).loc main_arg8) from W10_main_arg8 m ρ c]
  have h4 : W12 m ρ c (Proc.devRef .tc main_v95)
      = Cert.Gcn.linSelu (W11 m ρ c (Proc.devRef .tc main_v94)) (m ((c : Thread nD τ).loc main_arg9)) (m ((c : Thread nD τ).loc main_arg10)) := by
    refine ((W12_arr m ρ c 3).trans (final5 (V11 m ρ) c)).trans ?_
    rw [show V11 m ρ c main_arg9 = m ((c : Thread nD τ).loc main_arg9) from W11_main_arg9 m ρ c,
      show V11 m ρ c main_arg10 = m ((c : Thread nD τ).loc main_arg10) from W11_main_arg10 m ρ c]
  have h5 : W13 m ρ c (Proc.devRef .tc main_v96)
      = Cert.Gcn.linSelu (W12 m ρ c (Proc.devRef .tc main_v95)) (m ((c : Thread nD τ).loc main_arg11)) (m ((c : Thread nD τ).loc main_arg12)) := by
    refine ((W13_arr m ρ c 3).trans (final6 (V12 m ρ) c)).trans ?_
    rw [show V12 m ρ c main_arg11 = m ((c : Thread nD τ).loc main_arg11) from W12_main_arg11 m ρ c,
      show V12 m ρ c main_arg12 = m ((c : Thread nD τ).loc main_arg12) from W12_main_arg12 m ρ c]
  have h6 : W14 m ρ c (Proc.devRef .tc main_v97)
      = Cert.Gcn.lin (W13 m ρ c (Proc.devRef .tc main_v96)) (m ((c : Thread nD τ).loc main_arg13)) (m ((c : Thread nD τ).loc main_arg14)) := by
    refine ((W14_arr m ρ c 3).trans (final7 (V13 m ρ) c)).trans ?_
    rw [show V13 m ρ c main_arg13 = m ((c : Thread nD τ).loc main_arg13) from W13_main_arg13 m ρ c,
      show V13 m ρ c main_arg14 = m ((c : Thread nD τ).loc main_arg14) from W13_main_arg14 m ρ c]
  rw [h6, h5, h4, h3, h2, a2, t2, h1, a1]
  rfl

end Chain

end Cert.KernelIdeal.Val

end
-- ==== Proof.LibHostRead.lean ====
/-
  Reading the contents of a buffer after a long straight line of host operations.

  `StableHlo.after ops V` is what the buffers hold once the operations `ops` have run in order from
  contents `V`. When the line is in single-assignment form — operation number `k` writes exactly the
  reference `W[k]`, and nothing an operation reads or writes is written again later — the FINAL contents
  satisfy each operation's own equation: the result buffer of operation `k` holds the operation's function
  of the final contents of its operands. These are the lemmas `after_nullary_fix`, `after_unary_fix`,
  `after_binary_fix`, `after_ternary_fix`, `after_reshape_fix` below, one per builder.

  Their side conditions are made to be cheap on a literal list of a couple of hundred operations:
  * `Aligned ops W`, proved ONCE per line: the operations and the list of the references they write, paired
    in order (on literal lists it unfolds to a conjunction of equations each closed by `rfl`);
  * `ops[k]? = some (unary x y f hx hy)` for the literal position `k`, closed by `rfl`;
  * that the operands and the result are not among the references written after position `k`,
    `x ∉ W.drop (k + 1)`, and that an operand is not the result, `x ≠ y`: decided over references.
  Nothing is unfolded along the line: the cost of one reading does not grow with the operations before it.
-/
import Idealize.ShloMosaic.Lib.StableHlo
import Idealize.ShloMosaic.Lib.StableHlo.Run

noncomputable section

namespace LibHostRead

open Idealize.ShloMosaic Idealize.ShloMosaic.StableHlo

variable {τ : Topo} {sig : RefSig} {Val : EltTy → Type}

/-- Two lines run one after the other. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The operations `ops` write exactly the references `W`, one each, paired in order. -/
def Aligned : List (HloOp τ sig Val) → List (Ref sig .tc) → Prop
  | [], [] => True
  | op :: ops, y :: W => op.writes = {Proc.devRef (τ := τ) .tc y} ∧ Aligned ops W
  | [], _ :: _ => False
  | _ :: _, [] => False

theorem Aligned.drop : ∀ {ops : List (HloOp τ sig Val)} {W : List (Ref sig .tc)}, Aligned ops W →
    ∀ n : Nat, Aligned (ops.drop n) (W.drop n)
  | _, _, h, 0 => h
  | [], [], _, _ + 1 => trivial
  | _ :: _, _ :: _, h, n + 1 => Aligned.drop h.2 n
  | [], _ :: _, h, _ + 1 => h.elim
  | _ :: _, [], h, _ + 1 => h.elim

/-- Every operation of an aligned line writes one reference, and that reference is in the list. -/
theorem Aligned.writes_of_mem : ∀ {ops : List (HloOp τ sig Val)} {W : List (Ref sig .tc)}, Aligned ops W →
    ∀ op ∈ ops, ∃ y ∈ W, op.writes = {Proc.devRef (τ := τ) .tc y}
  | [], [], _, _, hop => (List.not_mem_nil hop).elim
  | o :: _, y :: _, h, op, hop => by
    rcases List.mem_cons.mp hop with rfl | hop
    · exact ⟨y, List.mem_cons_self, h.1⟩
    · obtain ⟨z, hz, e⟩ := Aligned.writes_of_mem h.2 op hop
      exact ⟨z, List.mem_cons_of_mem _ hz, e⟩
  | [], _ :: _, h, _, _ => h.elim
  | _ :: _, [], h, _, _ => h.elim

/-- A reference not among those written after position `k` is written by no operation after position `k`. -/
theorem Aligned.not_written_after {ops : List (HloOp τ sig Val)} {W : List (Ref sig .tc)} (hA : Aligned ops W) (k : Nat)
    {r : Ref sig .tc} (hr : r ∉ W.drop (k + 1)) : ∀ op ∈ ops.drop (k + 1), Proc.devRef (τ := τ) .tc r ∉ op.writes := by
  intro op hop hmem
  obtain ⟨y, hy, e⟩ := (hA.drop (k + 1)).writes_of_mem op hop
  rw [e, Finset.mem_singleton] at hmem
  exact hr (Proc.devRef_injective _ hmem ▸ hy)

/-- The contents of a buffer after the line, when nothing after position `k` writes it: what operation `k` leaves
    there, run from the contents the operations before it leave. -/
theorem after_eq_result_of_not_written {ops : List (HloOp τ sig Val)} {k : Nat} {op : HloOp τ sig Val}
    (hk : ops[k]? = some op) (V : Valuation τ sig Val) {b : DevRef τ sig}
    (hpost : ∀ o ∈ ops.drop (k + 1), b ∉ o.writes) :
    after ops V b = op.result (after (ops.take k) V) b := by
  obtain ⟨hlt, rfl⟩ := List.getElem?_eq_some_iff.mp hk
  have hsplit : ops = ops.take k ++ ops[k] :: ops.drop (k + 1) := by
    rw [← List.drop_eq_getElem_cons hlt, List.take_append_drop]
  conv_lhs => rw [hsplit]
  rw [after_append, after_cons, after_of_forall_not_mem _ _ hpost]

section Fix

variable {ops : List (HloOp τ sig Val)} {W : List (Ref sig .tc)} (hA : Aligned ops W) (k : Nat)
include hA

/-- A constant's buffer holds the constant at the end. -/
theorem after_nullary_fix {y : Ref sig .tc} {v : y.ty.Contents Val} {hy}
    (hk : ops[k]? = some (nullary y v hy)) (hy' : y ∉ W.drop (k + 1)) (V : Valuation τ sig Val) :
    after ops V (Proc.devRef .tc y) = v := by
  rw [after_eq_result_of_not_written hk V (hA.not_written_after k hy'), nullary_result]

/-- A one-operand operation's result buffer holds, at the end, its function of the operand's final contents. -/
theorem after_unary_fix {x y : Ref sig .tc} {f : x.ty.Contents Val → y.ty.Contents Val} {hx hy}
    (hk : ops[k]? = some (unary x y f hx hy)) (hxy : x ≠ y) (hx' : x ∉ W.drop (k + 1)) (hy' : y ∉ W.drop (k + 1))
    (V : Valuation τ sig Val) :
    after ops V (Proc.devRef .tc y) = f (after ops V (Proc.devRef .tc x)) := by
  rw [after_eq_result_of_not_written hk V (hA.not_written_after k hy'), unary_result,
    after_eq_result_of_not_written hk V (hA.not_written_after k hx'), unary_result_ne _ _ _ _ _ _ hxy]

/-- A two-operand operation's. -/
theorem after_binary_fix {a b y : Ref sig .tc} {f : a.ty.Contents Val → b.ty.Contents Val → y.ty.Contents Val} {ha hb hy}
    (hk : ops[k]? = some (binary a b y f ha hb hy)) (hay : a ≠ y) (hby : b ≠ y)
    (ha' : a ∉ W.drop (k + 1)) (hb' : b ∉ W.drop (k + 1)) (hy' : y ∉ W.drop (k + 1)) (V : Valuation τ sig Val) :
    after ops V (Proc.devRef .tc y) = f (after ops V (Proc.devRef .tc a)) (after ops V (Proc.devRef .tc b)) := by
  rw [after_eq_result_of_not_written hk V (hA.not_written_after k hy'), binary_result,
    after_eq_result_of_not_written hk V (hA.not_written_after k ha'), binary_result_ne _ _ _ _ _ _ _ _ hay,
    after_eq_result_of_not_written hk V (hA.not_written_after k hb'), binary_result_ne _ _ _ _ _ _ _ _ hby]

/-- A three-operand operation's. -/
theorem after_ternary_fix {c a b y : Ref sig .tc}
    {f : c.ty.Contents Val → a.ty.Contents Val → b.ty.Contents Val → y.ty.Contents Val} {hc ha hb hy}
    (hk : ops[k]? = some (ternary c a b y f hc ha hb hy)) (hcy : c ≠ y) (hay : a ≠ y) (hby : b ≠ y)
    (hc' : c ∉ W.drop (k + 1)) (ha' : a ∉ W.drop (k + 1)) (hb' : b ∉ W.drop (k + 1)) (hy' : y ∉ W.drop (k + 1))
    (V : Valuation τ sig Val) :
    after ops V (Proc.devRef .tc y)
      = f (after ops V (Proc.devRef .tc c)) (after ops V (Proc.devRef .tc a)) (after ops V (Proc.devRef .tc b)) := by
  rw [after_eq_result_of_not_written hk V (hA.not_written_after k hy'), ternary_result,
    after_eq_result_of_not_written hk V (hA.not_written_after k hc'), ternary_result_ne _ _ _ _ _ _ _ _ _ _ hcy,
    after_eq_result_of_not_written hk V (hA.not_written_after k ha'), ternary_result_ne _ _ _ _ _ _ _ _ _ _ hay,
    after_eq_result_of_not_written hk V (hA.not_written_after k hb'), ternary_result_ne _ _ _ _ _ _ _ _ _ _ hby]

/-- A reshape's result buffer holds, at the end, the operand's final contents in row-major order at the result's shape. -/
theorem after_reshape_fix {x y : Ref sig .tc} {he : x.ty.elt = y.ty.elt} {hn : x.ty.shape.ShapeCasts y.ty.shape} {hx hy}
    (hk : ops[k]? = some (reshape x y he hn hx hy)) (hxy : x ≠ y) (hx' : x ∉ W.drop (k + 1)) (hy' : y ∉ W.drop (k + 1))
    (V : Valuation τ sig Val) :
    after ops V (Proc.devRef .tc y) = fun i => he ▸ shapeCast y.ty.shape (after ops V (Proc.devRef .tc x)) hn i := by
  rw [after_eq_result_of_not_written hk V (hA.not_written_after k hy'), reshape_result,
    after_eq_result_of_not_written hk V (hA.not_written_after k hx'), reshape_result_ne _ _ _ _ _ _ _ hxy]

end Fix

/-- A reference the line never writes keeps its contents (for the line's arguments). -/
theorem after_of_not_written {ops : List (HloOp τ sig Val)} {W : List (Ref sig .tc)} (hA : Aligned ops W)
    {r : Ref sig .tc} (hr : r ∉ W) (V : Valuation τ sig Val) :
    after ops V (Proc.devRef .tc r) = V (Proc.devRef .tc r) :=
  after_of_forall_not_mem ops V fun op hop hmem => by
    obtain ⟨y, hy, e⟩ := hA.writes_of_mem op hop
    rw [e, Finset.mem_singleton] at hmem
    exact hr (Proc.devRef_injective _ hmem ▸ hy)

end LibHostRead

end
-- ==== Proof.RefRunOps.lean ====
/-
  The reference program as a list of host operations, cut into stretches.

  The reference is one straight line: a matrix product, the aggregation along the edges, a bias added along the rows
  and the scaled exponential linear unit, repeated layer by layer. Each stretch of the line is one list; the program
  is their concatenation, window by window. For every stretch: the buffers it writes, one per operation and in order;
  that every operation touches device buffers only and determines its result.
-/
import proofs.«159152_j79439715107025_1_alg».proof.Proof.Gen.ReferenceIdeal
import proofs.«159152_j79439715107025_1_alg».proof.Proof.LibHostRead
import Idealize.ShloMosaic.Lib.StableHlo.Run
import Idealize.ShloMosaic.Lib.Pipeline.Regions

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- A property of every entry of two lists holds of every entry of their concatenation. -/
theorem forall_mem_append {α : Type} {p : α → Prop} {l₁ l₂ : List α} (h₁ : ∀ x ∈ l₁, p x) (h₂ : ∀ x ∈ l₂, p x) :
    ∀ x ∈ l₁ ++ l₂, p x := fun x hx => (List.mem_append.mp hx).elim (h₁ x) (h₂ x)

/-- A matrix product of the features by a layer's weights: 1 operation. -/
def sDot1 : List (HloOp τ sig (Elt F)) :=
  [ StableHlo.binary main_arg0 main_arg3 main_v0 ((fun l r => Host.dotGeneral dot_S50000x512_S512x64_S50000x64_1_0_0_1_n_n none l r) : (⟨S50000x512, .f32⟩ : BufTy).Contents (Elt F) → (⟨S512x64, .f32⟩ : BufTy).Contents (Elt F) → (⟨S50000x64, .f32⟩ : BufTy).Contents (Elt F)) ]

/-- The buffers the stretch writes, in order. -/
abbrev sDot1_W : List (Ref sig .tc) := [main_v0]

theorem sDot1_aligned : LibHostRead.Aligned (sDot1 (F := F)) sDot1_W := by
  unfold sDot1; exact ⟨rfl, trivial⟩

theorem sDot1_sub : ∀ op ∈ (sDot1 : List (HloOp τ sig (Elt F))), op.bufs ⊆ tcRefs τ sig :=
  List.forall_iff_forall_mem.mp (by unfold sDot1; exact binary_bufs_sub ..)

theorem sDot1_fresh : ∀ op ∈ (sDot1 : List (HloOp τ sig (Elt F))), op.fresh = ∅ :=
  List.forall_iff_forall_mem.mp (by unfold sDot1; exact rfl)

/-- A buffer the stretch does not write keeps its contents. -/
theorem sDot1_frame (X : Valuation τ sig (Elt F)) (r : Ref sig .tc) (hr : r ∉ sDot1_W) :
    after sDot1 X (no_index (Proc.devRef .tc r)) = X (Proc.devRef .tc r) :=
  LibHostRead.after_of_not_written sDot1_aligned hr X

/-- The aggregation along the edges: 58 operations. -/
def sAgg1 : List (HloOp τ sig (Elt F)) :=
  [ StableHlo.nullary main_v1 (iotaInDim S50000 32 0),
    StableHlo.unary main_arg1 main_v2 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v2 main_v3 rfl shapeCasts_S1x1600000_S1600000,
    StableHlo.binary main_v3 main_v1 main_v4 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    StableHlo.unary main_arg1 main_v5 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v5 main_v6 rfl shapeCasts_S1x1600000_S1600000,
    StableHlo.binary main_v6 main_v1 main_v7 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    StableHlo.nullary main_cst (constant S_ .f32 0x3F800000#32),
    StableHlo.unary main_cst main_v8 (broadcastInDim S50000 ![] bcast_S_S50000 : (⟨S_, .f32⟩ : BufTy).Contents (Elt F) → (⟨S50000, .f32⟩ : BufTy).Contents (Elt F)),
    StableHlo.binary main_arg2 main_v8 main_v9 ((fun a b => concatenate S1650000 0 [⟨S1600000, a⟩, ⟨S50000, b⟩] concatenates_S1600000_S50000_S1650000_d0) : (⟨S1600000, .f32⟩ : BufTy).Contents (Elt F) → (⟨S50000, .f32⟩ : BufTy).Contents (Elt F) → (⟨S1650000, .f32⟩ : BufTy).Contents (Elt F)),
    StableHlo.nullary main_cst_0 (constant S_ .f32 0x00000000#32),
    StableHlo.unary main_cst_0 main_v10 (broadcastInDim S50000 ![] bcast_S_S50000 : (⟨S_, .f32⟩ : BufTy).Contents (Elt F) → (⟨S50000, .f32⟩ : BufTy).Contents (Elt F)),
    StableHlo.unary main_v7 main_v11 (broadcastInDim S1650000x1 ![0] bcast_S1650000_S1650000x1_0 : (⟨S1650000, .i32⟩ : BufTy).Contents (Elt F) → (⟨S1650000x1, .i32⟩ : BufTy).Contents (Elt F)),
    StableHlo.ternary main_v10 main_v11 main_v9 main_v12 ((fun x i u => Host.scatterAdd scatter_S50000_S1650000x1_S1650000_n_0_0_1 x i u) : (⟨S50000, .f32⟩ : BufTy).Contents (Elt F) → (⟨S1650000x1, .i32⟩ : BufTy).Contents (Elt F) → (⟨S1650000, .f32⟩ : BufTy).Contents (Elt F) → (⟨S50000, .f32⟩ : BufTy).Contents (Elt F)),
    StableHlo.nullary main_cst_1 (constant S_ .f32 0x00000000#32),
    StableHlo.unary main_cst_1 main_v13 (broadcastInDim S50000 ![] bcast_S_S50000 : (⟨S_, .f32⟩ : BufTy).Contents (Elt F) → (⟨S50000, .f32⟩ : BufTy).Contents (Elt F)),
    StableHlo.binary main_v12 main_v13 main_v14 (cmpf .ogt : (⟨S50000, .f32⟩ : BufTy).Contents (Elt F) → (⟨S50000, .f32⟩ : BufTy).Contents (Elt F) → (⟨S50000, .i1⟩ : BufTy).Contents (Elt F)),
    StableHlo.unary main_v12 main_v15 (Host.rsqrt : (⟨S50000, .f32⟩ : BufTy).Contents (Elt F) → (⟨S50000, .f32⟩ : BufTy).Contents (Elt F)),
    StableHlo.nullary main_cst_2 (constant S_ .f32 0x00000000#32),
    StableHlo.TRef.unary (.of main_cst_2 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S50000, .f32⟩) (broadcastInDim S50000 ![] bcast_S_S50000),
    StableHlo.TRef.ternary (.of main_v14 : StableHlo.TRef sig ⟨S50000, .i1⟩) (.of main_v15 : StableHlo.TRef sig ⟨S50000, .f32⟩) (.of main_call0_v1 : StableHlo.TRef sig ⟨S50000, .f32⟩) (.of main_v16 : StableHlo.TRef sig ⟨S50000, .f32⟩) select,
    StableHlo.nullary main_c (constantI S_ 32 0#32),
    StableHlo.unary main_c main_v17 (broadcastInDim S1650000 ![] bcast_S_S1650000 : (⟨S_, .i32⟩ : BufTy).Contents (Elt F) → (⟨S1650000, .i32⟩ : BufTy).Contents (Elt F)),
    StableHlo.binary main_v4 main_v17 main_v18 (cmpi .slt : (⟨S1650000, .i32⟩ : BufTy).Contents (Elt F) → (⟨S1650000, .i32⟩ : BufTy).Contents (Elt F) → (⟨S1650000, .i1⟩ : BufTy).Contents (Elt F)),
    StableHlo.nullary main_c_3 (constantI S_ 32 50000#32),
    StableHlo.unary main_c_3 main_v19 (broadcastInDim S1650000 ![] bcast_S_S1650000 : (⟨S_, .i32⟩ : BufTy).Contents (Elt F) → (⟨S1650000, .i32⟩ : BufTy).Contents (Elt F)),
    StableHlo.binary main_v4 main_v19 main_v20 (addi : (⟨S1650000, .i32⟩ : BufTy).Contents (Elt F) → (⟨S1650000, .i32⟩ : BufTy).Contents (Elt F) → (⟨S1650000, .i32⟩ : BufTy).Contents (Elt F)),
    StableHlo.ternary main_v18 main_v20 main_v4 main_v21 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    StableHlo.unary main_v21 main_v22 (broadcastInDim S1650000x1 ![0] bcast_S1650000_S1650000x1_0 : (⟨S1650000, .i32⟩ : BufTy).Contents (Elt F) → (⟨S1650000x1, .i32⟩ : BufTy).Contents (Elt F)),
    StableHlo.binary main_v16 main_v22 main_v23 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    StableHlo.binary main_v23 main_v9 main_v24 (mulf : (⟨S1650000, .f32⟩ : BufTy).Contents (Elt F) → (⟨S1650000, .f32⟩ : BufTy).Contents (Elt F) → (⟨S1650000, .f32⟩ : BufTy).Contents (Elt F)),
    StableHlo.nullary main_c_4 (constantI S_ 32 0#32),
    StableHlo.unary main_c_4 main_v25 (broadcastInDim S1650000 ![] bcast_S_S1650000 : (⟨S_, .i32⟩ : BufTy).Contents (Elt F) → (⟨S1650000, .i32⟩ : BufTy).Contents (Elt F)),
    StableHlo.binary main_v7 main_v25 main_v26 (cmpi .slt : (⟨S1650000, .i32⟩ : BufTy).Contents (Elt F) → (⟨S1650000, .i32⟩ : BufTy).Contents (Elt F) → (⟨S1650000, .i1⟩ : BufTy).Contents (Elt F)),
    StableHlo.nullary main_c_5 (constantI S_ 32 50000#32),
    StableHlo.unary main_c_5 main_v27 (broadcastInDim S1650000 ![] bcast_S_S1650000 : (⟨S_, .i32⟩ : BufTy).Contents (Elt F) → (⟨S1650000, .i32⟩ : BufTy).Contents (Elt F)),
    StableHlo.binary main_v7 main_v27 main_v28 (addi : (⟨S1650000, .i32⟩ : BufTy).Contents (Elt F) → (⟨S1650000, .i32⟩ : BufTy).Contents (Elt F) → (⟨S1650000, .i32⟩ : BufTy).Contents (Elt F)),
    StableHlo.ternary main_v26 main_v28 main_v7 main_v29 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    StableHlo.unary main_v29 main_v30 (broadcastInDim S1650000x1 ![0] bcast_S1650000_S1650000x1_0 : (⟨S1650000, .i32⟩ : BufTy).Contents (Elt F) → (⟨S1650000x1, .i32⟩ : BufTy).Contents (Elt F)),
    StableHlo.binary main_v16 main_v30 main_v31 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    StableHlo.binary main_v24 main_v31 main_v32 (mulf : (⟨S1650000, .f32⟩ : BufTy).Contents (Elt F) → (⟨S1650000, .f32⟩ : BufTy).Contents (Elt F) → (⟨S1650000, .f32⟩ : BufTy).Contents (Elt F)),
    StableHlo.nullary main_c_6 (constantI S_ 32 0#32),
    StableHlo.unary main_c_6 main_v33 (broadcastInDim S1650000 ![] bcast_S_S1650000 : (⟨S_, .i32⟩ : BufTy).Contents (Elt F) → (⟨S1650000, .i32⟩ : BufTy).Contents (Elt F)),
    StableHlo.binary main_v4 main_v33 main_v34 (cmpi .slt : (⟨S1650000, .i32⟩ : BufTy).Contents (Elt F) → (⟨S1650000, .i32⟩ : BufTy).Contents (Elt F) → (⟨S1650000, .i1⟩ : BufTy).Contents (Elt F)),
    StableHlo.nullary main_c_7 (constantI S_ 32 50000#32),
    StableHlo.unary main_c_7 main_v35 (broadcastInDim S1650000 ![] bcast_S_S1650000 : (⟨S_, .i32⟩ : BufTy).Contents (Elt F) → (⟨S1650000, .i32⟩ : BufTy).Contents (Elt F)),
    StableHlo.binary main_v4 main_v35 main_v36 (addi : (⟨S1650000, .i32⟩ : BufTy).Contents (Elt F) → (⟨S1650000, .i32⟩ : BufTy).Contents (Elt F) → (⟨S1650000, .i32⟩ : BufTy).Contents (Elt F)),
    StableHlo.ternary main_v34 main_v36 main_v4 main_v37 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    StableHlo.unary main_v37 main_v38 (broadcastInDim S1650000x1 ![0] bcast_S1650000_S1650000x1_0 : (⟨S1650000, .i32⟩ : BufTy).Contents (Elt F) → (⟨S1650000x1, .i32⟩ : BufTy).Contents (Elt F)),
    StableHlo.binary main_v0 main_v38 main_v39 ((fun x i => Host.gather gather_S50000x64_S1650000x1_S1650000x64_1_0_n_n_0_1_164 x i) : (⟨S50000x64, .f32⟩ : BufTy).Contents (Elt F) → (⟨S1650000x1, .i32⟩ : BufTy).Contents (Elt F) → (⟨S1650000x64, .f32⟩ : BufTy).Contents (Elt F)),
    StableHlo.unary main_v32 main_v40 (broadcastInDim S1650000x1 ![0] bcast_S1650000_S1650000x1_0 : (⟨S1650000, .f32⟩ : BufTy).Contents (Elt F) → (⟨S1650000x1, .f32⟩ : BufTy).Contents (Elt F)),
    StableHlo.unary main_v40 main_v41 (broadcastInDim S1650000x64 ![0, 1] bcast_S1650000x1_S1650000x64_0_1 : (⟨S1650000x1, .f32⟩ : BufTy).Contents (Elt F) → (⟨S1650000x64, .f32⟩ : BufTy).Contents (Elt F)),
    StableHlo.binary main_v39 main_v41 main_v42 (mulf : (⟨S1650000x64, .f32⟩ : BufTy).Contents (Elt F) → (⟨S1650000x64, .f32⟩ : BufTy).Contents (Elt F) → (⟨S1650000x64, .f32⟩ : BufTy).Contents (Elt F)),
    StableHlo.nullary main_cst_8 (constant S_ .f32 0x00000000#32),
    StableHlo.unary main_cst_8 main_v43 (broadcastInDim S50000x64 ![] bcast_S_S50000x64 : (⟨S_, .f32⟩ : BufTy).Contents (Elt F) → (⟨S50000x64, .f32⟩ : BufTy).Contents (Elt F)),
    StableHlo.unary main_v7 main_v44 (broadcastInDim S1650000x1 ![0] bcast_S1650000_S1650000x1_0 : (⟨S1650000, .i32⟩ : BufTy).Contents (Elt F) → (⟨S1650000x1, .i32⟩ : BufTy).Contents (Elt F)),
    StableHlo.ternary main_v43 main_v44 main_v42 main_v45 ((fun x i u => Host.scatterAdd scatter_S50000x64_S1650000x1_S1650000x64_1_0_0_1 x i u) : (⟨S50000x64, .f32⟩ : BufTy).Contents (Elt F) → (⟨S1650000x1, .i32⟩ : BufTy).Contents (Elt F) → (⟨S1650000x64, .f32⟩ : BufTy).Contents (Elt F) → (⟨S50000x64, .f32⟩ : BufTy).Contents (Elt F)) ]

/-- The buffers the stretch writes, in order. -/
abbrev sAgg1_W : List (Ref sig .tc) := [main_v1, main_v2, main_v3, main_v4, main_v5, main_v6, main_v7, main_cst, main_v8, main_v9, main_cst_0, main_v10, main_v11, main_v12, main_cst_1, main_v13, main_v14, main_v15, main_cst_2, main_call0_v0, main_call0_v1, main_v16, main_c, main_v17, main_v18, main_c_3, main_v19, main_v20, main_v21, main_v22, main_v23, main_v24, main_c_4, main_v25, main_v26, main_c_5, main_v27, main_v28, main_v29, main_v30, main_v31, main_v32, main_c_6, main_v33, main_v34, main_c_7, main_v35, main_v36, main_v37, main_v38, main_v39, main_v40, main_v41, main_v42, main_cst_8, main_v43, main_v44, main_v45]

theorem sAgg1_aligned : LibHostRead.Aligned (sAgg1 (F := F)) sAgg1_W := by
  unfold sAgg1; exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, trivial⟩

theorem sAgg1_sub : ∀ op ∈ (sAgg1 : List (HloOp τ sig (Elt F))), op.bufs ⊆ tcRefs τ sig :=
  List.forall_iff_forall_mem.mp (by unfold sAgg1; exact ⟨nullary_bufs_sub .., unary_bufs_sub .., reshape_bufs_sub .., binary_bufs_sub .., unary_bufs_sub .., reshape_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩)

theorem sAgg1_fresh : ∀ op ∈ (sAgg1 : List (HloOp τ sig (Elt F))), op.fresh = ∅ :=
  List.forall_iff_forall_mem.mp (by unfold sAgg1; exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- A buffer the stretch does not write keeps its contents. -/
theorem sAgg1_frame (X : Valuation τ sig (Elt F)) (r : Ref sig .tc) (hr : r ∉ sAgg1_W) :
    after sAgg1 X (no_index (Proc.devRef .tc r)) = X (Proc.devRef .tc r) :=
  LibHostRead.after_of_not_written sAgg1_aligned hr X

/-- A bias laid as a row, repeated along the nodes, and added: 3 operations. -/
def sBias1 : List (HloOp τ sig (Elt F)) :=
  [ StableHlo.unary main_arg4 main_v46 (broadcastInDim S1x64 ![1] bcast_S64_S1x64_1 : (⟨S64, .f32⟩ : BufTy).Contents (Elt F) → (⟨S1x64, .f32⟩ : BufTy).Contents (Elt F)),
    StableHlo.unary main_v46 main_v47 (broadcastInDim S50000x64 ![0, 1] bcast_S1x64_S50000x64_0_1 : (⟨S1x64, .f32⟩ : BufTy).Contents (Elt F) → (⟨S50000x64, .f32⟩ : BufTy).Contents (Elt F)),
    StableHlo.binary main_v45 main_v47 main_v48 (addf : (⟨S50000x64, .f32⟩ : BufTy).Contents (Elt F) → (⟨S50000x64, .f32⟩ : BufTy).Contents (Elt F) → (⟨S50000x64, .f32⟩ : BufTy).Contents (Elt F)) ]

/-- The buffers the stretch writes, in order. -/
abbrev sBias1_W : List (Ref sig .tc) := [main_v46, main_v47, main_v48]

theorem sBias1_aligned : LibHostRead.Aligned (sBias1 (F := F)) sBias1_W := by
  unfold sBias1; exact ⟨rfl, rfl, rfl, trivial⟩

theorem sBias1_sub : ∀ op ∈ (sBias1 : List (HloOp τ sig (Elt F))), op.bufs ⊆ tcRefs τ sig :=
  List.forall_iff_forall_mem.mp (by unfold sBias1; exact ⟨unary_bufs_sub .., unary_bufs_sub .., binary_bufs_sub ..⟩)

theorem sBias1_fresh : ∀ op ∈ (sBias1 : List (HloOp τ sig (Elt F))), op.fresh = ∅ :=
  List.forall_iff_forall_mem.mp (by unfold sBias1; exact ⟨rfl, rfl, rfl⟩)

/-- A buffer the stretch does not write keeps its contents. -/
theorem sBias1_frame (X : Valuation τ sig (Elt F)) (r : Ref sig .tc) (hr : r ∉ sBias1_W) :
    after sBias1 X (no_index (Proc.devRef .tc r)) = X (Proc.devRef .tc r) :=
  LibHostRead.after_of_not_written sBias1_aligned hr X

/-- The scaled exponential linear unit: 19 operations. -/
def sSelu1 : List (HloOp τ sig (Elt F)) :=
  [ StableHlo.TRef.nullary (.of main_call1_cst : StableHlo.TRef sig ⟨S_, .f32⟩) (constant S_ .f32 0x3FD62D7D#32),
    StableHlo.TRef.nullary (.of main_call1_call0_cst : StableHlo.TRef sig ⟨S_, .f32⟩) (constant S_ .f32 0x00000000#32),
    StableHlo.TRef.unary (.of main_call1_call0_cst : StableHlo.TRef sig ⟨S_, .f32⟩) (.of main_call1_call0_v0 : StableHlo.TRef sig ⟨S50000x64, .f32⟩) (broadcastInDim S50000x64 ![] bcast_S_S50000x64),
    StableHlo.TRef.binary (.of main_v48 : StableHlo.TRef sig ⟨S50000x64, .f32⟩) (.of main_call1_call0_v0 : StableHlo.TRef sig ⟨S50000x64, .f32⟩) (.of main_call1_call0_v1 : StableHlo.TRef sig ⟨S50000x64, .i1⟩) (cmpf .ogt),
    StableHlo.TRef.nullary (.of main_call1_call0_cst_0 : StableHlo.TRef sig ⟨S_, .f32⟩) (constant S_ .f32 0x00000000#32),
    StableHlo.TRef.unary (.of main_call1_call0_cst_0 : StableHlo.TRef sig ⟨S_, .f32⟩) (.of main_call1_call0_v2 : StableHlo.TRef sig ⟨S50000x64, .f32⟩) (broadcastInDim S50000x64 ![] bcast_S_S50000x64),
    StableHlo.TRef.binary (.of main_v48 : StableHlo.TRef sig ⟨S50000x64, .f32⟩) (.of main_call1_call0_v2 : StableHlo.TRef sig ⟨S50000x64, .f32⟩) (.of main_call1_call0_v3 : StableHlo.TRef sig ⟨S50000x64, .i1⟩) (cmpf .ogt),
    StableHlo.TRef.nullary (.of main_call1_call0_cst_1 : StableHlo.TRef sig ⟨S_, .f32⟩) (constant S_ .f32 0x00000000#32),
    StableHlo.TRef.unary (.of main_call1_call0_cst_1 : StableHlo.TRef sig ⟨S_, .f32⟩) (.of main_call1_call0_call0_v0 : StableHlo.TRef sig ⟨S_, .f32⟩) id,
    StableHlo.TRef.unary (.of main_call1_call0_call0_v0 : StableHlo.TRef sig ⟨S_, .f32⟩) (.of main_call1_call0_call0_v1 : StableHlo.TRef sig ⟨S50000x64, .f32⟩) (broadcastInDim S50000x64 ![] bcast_S_S50000x64),
    StableHlo.TRef.ternary (.of main_call1_call0_v3 : StableHlo.TRef sig ⟨S50000x64, .i1⟩) (.of main_call1_call0_call0_v1 : StableHlo.TRef sig ⟨S50000x64, .f32⟩) (.of main_v48 : StableHlo.TRef sig ⟨S50000x64, .f32⟩) (.of main_call1_call0_v4 : StableHlo.TRef sig ⟨S50000x64, .f32⟩) select,
    StableHlo.TRef.unary (.of main_call1_call0_v4 : StableHlo.TRef sig ⟨S50000x64, .f32⟩) (.of main_call1_call0_v5 : StableHlo.TRef sig ⟨S50000x64, .f32⟩) Host.expm1,
    StableHlo.TRef.unary (.of main_call1_cst : StableHlo.TRef sig ⟨S_, .f32⟩) (.of main_call1_call0_v6 : StableHlo.TRef sig ⟨S_, .f32⟩) id,
    StableHlo.TRef.unary (.of main_call1_call0_v6 : StableHlo.TRef sig ⟨S_, .f32⟩) (.of main_call1_call0_v7 : StableHlo.TRef sig ⟨S50000x64, .f32⟩) (broadcastInDim S50000x64 ![] bcast_S_S50000x64),
    StableHlo.TRef.binary (.of main_call1_call0_v7 : StableHlo.TRef sig ⟨S50000x64, .f32⟩) (.of main_call1_call0_v5 : StableHlo.TRef sig ⟨S50000x64, .f32⟩) (.of main_call1_call0_v8 : StableHlo.TRef sig ⟨S50000x64, .f32⟩) mulf,
    StableHlo.TRef.ternary (.of main_call1_call0_v1 : StableHlo.TRef sig ⟨S50000x64, .i1⟩) (.of main_v48 : StableHlo.TRef sig ⟨S50000x64, .f32⟩) (.of main_call1_call0_v8 : StableHlo.TRef sig ⟨S50000x64, .f32⟩) (.of main_call1_v0 : StableHlo.TRef sig ⟨S50000x64, .f32⟩) select,
    StableHlo.TRef.nullary (.of main_call1_cst_0 : StableHlo.TRef sig ⟨S_, .f32⟩) (constant S_ .f32 0x3F867D5F#32),
    StableHlo.TRef.unary (.of main_call1_cst_0 : StableHlo.TRef sig ⟨S_, .f32⟩) (.of main_call1_v1 : StableHlo.TRef sig ⟨S50000x64, .f32⟩) (broadcastInDim S50000x64 ![] bcast_S_S50000x64),
    StableHlo.TRef.binary (.of main_call1_v1 : StableHlo.TRef sig ⟨S50000x64, .f32⟩) (.of main_call1_v0 : StableHlo.TRef sig ⟨S50000x64, .f32⟩) (.of main_v49 : StableHlo.TRef sig ⟨S50000x64, .f32⟩) mulf ]

/-- The buffers the stretch writes, in order. -/
abbrev sSelu1_W : List (Ref sig .tc) := [main_call1_cst, main_call1_call0_cst, main_call1_call0_v0, main_call1_call0_v1, main_call1_call0_cst_0, main_call1_call0_v2, main_call1_call0_v3, main_call1_call0_cst_1, main_call1_call0_call0_v0, main_call1_call0_call0_v1, main_call1_call0_v4, main_call1_call0_v5, main_call1_call0_v6, main_call1_call0_v7, main_call1_call0_v8, main_call1_v0, main_call1_cst_0, main_call1_v1, main_v49]

theorem sSelu1_aligned : LibHostRead.Aligned (sSelu1 (F := F)) sSelu1_W := by
  unfold sSelu1; exact ⟨rfl, rfl, rfl, rfl, rfl, rfl, rfl, rfl, rfl, rfl, rfl, rfl, rfl, rfl, rfl, rfl, rfl, rfl, rfl, trivial⟩

theorem sSelu1_sub : ∀ op ∈ (sSelu1 : List (HloOp τ sig (Elt F))), op.bufs ⊆ tcRefs τ sig :=
  List.forall_iff_forall_mem.mp (by unfold sSelu1; exact ⟨nullary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., unary_bufs_sub .., binary_bufs_sub .., ternary_bufs_sub .., nullary_bufs_sub .., unary_bufs_sub .., binary_bufs_sub ..⟩)

theorem sSelu1_fresh : ∀ op ∈ (sSelu1 : List (HloOp τ sig (Elt F))), op.fresh = ∅ :=
  List.forall_iff_forall_mem.mp (by unfold sSelu1; exact ⟨rfl, rfl, rfl, rfl, rfl, rfl, rfl, rfl, rfl, rfl, rfl, rfl, rfl, rfl, rfl, rfl, rfl, rfl, rfl⟩)

/-- A buffer the stretch does not write keeps its contents. -/
theorem sSelu1_frame (X : Valuation τ sig (Elt F)) (r : Ref sig .tc) (hr : r ∉ sSelu1_W) :
    after sSelu1 X (no_index (Proc.devRef .tc r)) = X (Proc.devRef .tc r) :=
  LibHostRead.after_of_not_written sSelu1_aligned hr X

/-- A matrix product of the features by a layer's weights: 1 operation. -/
def sDot2 : List (HloOp τ sig (Elt F)) :=
  [ StableHlo.binary main_v49 main_arg5 main_v50 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ]

/-- The buffers the stretch writes, in order. -/
abbrev sDot2_W : List (Ref sig .tc) := [main_v50]

theorem sDot2_aligned : LibHostRead.Aligned (sDot2 (F := F)) sDot2_W := by
  unfold sDot2; exact ⟨rfl, trivial⟩

theorem sDot2_sub : ∀ op ∈ (sDot2 : List (HloOp τ sig (Elt F))), op.bufs ⊆ tcRefs τ sig :=
  List.forall_iff_forall_mem.mp (by unfold sDot2; exact binary_bufs_sub ..)

theorem sDot2_fresh : ∀ op ∈ (sDot2 : List (HloOp τ sig (Elt F))), op.fresh = ∅ :=
  List.forall_iff_forall_mem.mp (by unfold sDot2; exact rfl)

/-- A buffer the stretch does not write keeps its contents. -/
theorem sDot2_frame (X : Valuation τ sig (Elt F)) (r : Ref sig .tc) (hr : r ∉ sDot2_W) :
    after sDot2 X (no_index (Proc.devRef .tc r)) = X (Proc.devRef .tc r) :=
  LibHostRead.after_of_not_written sDot2_aligned hr X

/-- The aggregation along the edges: 58 operations. -/
def sAgg2 : List (HloOp τ sig (Elt F)) :=
  [ StableHlo.nullary main_v51 (iotaInDim S50000 32 0),
    StableHlo.unary main_arg1 main_v52 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v52 main_v53 rfl shapeCasts_S1x1600000_S1600000,
    StableHlo.binary main_v53 main_v51 main_v54 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    StableHlo.unary main_arg1 main_v55 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v55 main_v56 rfl shapeCasts_S1x1600000_S1600000,
    StableHlo.binary main_v56 main_v51 main_v57 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    StableHlo.nullary main_cst_9 (constant S_ .f32 0x3F800000#32),
    StableHlo.unary main_cst_9 main_v58 (broadcastInDim S50000 ![] bcast_S_S50000 : (⟨S_, .f32⟩ : BufTy).Contents (Elt F) → (⟨S50000, .f32⟩ : BufTy).Contents (Elt F)),
    StableHlo.binary main_arg2 main_v58 main_v59 ((fun a b => concatenate S1650000 0 [⟨S1600000, a⟩, ⟨S50000, b⟩] concatenates_S1600000_S50000_S1650000_d0) : (⟨S1600000, .f32⟩ : BufTy).Contents (Elt F) → (⟨S50000, .f32⟩ : BufTy).Contents (Elt F) → (⟨S1650000, .f32⟩ : BufTy).Contents (Elt F)),
    StableHlo.nullary main_cst_10 (constant S_ .f32 0x00000000#32),
    StableHlo.unary main_cst_10 main_v60 (broadcastInDim S50000 ![] bcast_S_S50000 : (⟨S_, .f32⟩ : BufTy).Contents (Elt F) → (⟨S50000, .f32⟩ : BufTy).Contents (Elt F)),
    StableHlo.unary main_v57 main_v61 (broadcastInDim S1650000x1 ![0] bcast_S1650000_S1650000x1_0 : (⟨S1650000, .i32⟩ : BufTy).Contents (Elt F) → (⟨S1650000x1, .i32⟩ : BufTy).Contents (Elt F)),
    StableHlo.ternary main_v60 main_v61 main_v59 main_v62 ((fun x i u => Host.scatterAdd scatter_S50000_S1650000x1_S1650000_n_0_0_1 x i u) : (⟨S50000, .f32⟩ : BufTy).Contents (Elt F) → (⟨S1650000x1, .i32⟩ : BufTy).Contents (Elt F) → (⟨S1650000, .f32⟩ : BufTy).Contents (Elt F) → (⟨S50000, .f32⟩ : BufTy).Contents (Elt F)),
    StableHlo.nullary main_cst_11 (constant S_ .f32 0x00000000#32),
    StableHlo.unary main_cst_11 main_v63 (broadcastInDim S50000 ![] bcast_S_S50000 : (⟨S_, .f32⟩ : BufTy).Contents (Elt F) → (⟨S50000, .f32⟩ : BufTy).Contents (Elt F)),
    StableHlo.binary main_v62 main_v63 main_v64 (cmpf .ogt : (⟨S50000, .f32⟩ : BufTy).Contents (Elt F) → (⟨S50000, .f32⟩ : BufTy).Contents (Elt F) → (⟨S50000, .i1⟩ : BufTy).Contents (Elt F)),
    StableHlo.unary main_v62 main_v65 (Host.rsqrt : (⟨S50000, .f32⟩ : BufTy).Contents (Elt F) → (⟨S50000, .f32⟩ : BufTy).Contents (Elt F)),
    StableHlo.nullary main_cst_12 (constant S_ .f32 0x00000000#32),
    StableHlo.TRef.unary (.of main_cst_12 : StableHlo.TRef sig ⟨S_, .f32⟩) (.of main_call2_v0 : StableHlo.TRef sig ⟨S_, .f32⟩) id,
    StableHlo.TRef.unary (.of main_call2_v0 : StableHlo.TRef sig ⟨S_, .f32⟩) (.of main_call2_v1 : StableHlo.TRef sig ⟨S50000, .f32⟩) (broadcastInDim S50000 ![] bcast_S_S50000),
    StableHlo.TRef.ternary (.of main_v64 : StableHlo.TRef sig ⟨S50000, .i1⟩) (.of main_v65 : StableHlo.TRef sig ⟨S50000, .f32⟩) (.of main_call2_v1 : StableHlo.TRef sig ⟨S50000, .f32⟩) (.of main_v66 : StableHlo.TRef sig ⟨S50000, .f32⟩) select,
    StableHlo.nullary main_c_13 (constantI S_ 32 0#32),
    StableHlo.unary main_c_13 main_v67 (broadcastInDim S1650000 ![] bcast_S_S1650000 : (⟨S_, .i32⟩ : BufTy).Contents (Elt F) → (⟨S1650000, .i32⟩ : BufTy).Contents (Elt F)),
    StableHlo.binary main_v54 main_v67 main_v68 (cmpi .slt : (⟨S1650000, .i32⟩ : BufTy).Contents (Elt F) → (⟨S1650000, .i32⟩ : BufTy).Contents (Elt F) → (⟨S1650000, .i1⟩ : BufTy).Contents (Elt F)),
    StableHlo.nullary main_c_14 (constantI S_ 32 50000#32),
    StableHlo.unary main_c_14 main_v69 (broadcastInDim S1650000 ![] bcast_S_S1650000 : (⟨S_, .i32⟩ : BufTy).Contents (Elt F) → (⟨S1650000, .i32⟩ : BufTy).Contents (Elt F)),
    StableHlo.binary main_v54 main_v69 main_v70 (addi : (⟨S1650000, .i32⟩ : BufTy).Contents (Elt F) → (⟨S1650000, .i32⟩ : BufTy).Contents (Elt F) → (⟨S1650000, .i32⟩ : BufTy).Contents (Elt F)),
    StableHlo.ternary main_v68 main_v70 main_v54 main_v71 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    StableHlo.unary main_v71 main_v72 (broadcastInDim S1650000x1 ![0] bcast_S1650000_S1650000x1_0 : (⟨S1650000, .i32⟩ : BufTy).Contents (Elt F) → (⟨S1650000x1, .i32⟩ : BufTy).Contents (Elt F)),
    StableHlo.binary main_v66 main_v72 main_v73 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    StableHlo.binary main_v73 main_v59 main_v74 (mulf : (⟨S1650000, .f32⟩ : BufTy).Contents (Elt F) → (⟨S1650000, .f32⟩ : BufTy).Contents (Elt F) → (⟨S1650000, .f32⟩ : BufTy).Contents (Elt F)),
    StableHlo.nullary main_c_15 (constantI S_ 32 0#32),
    StableHlo.unary main_c_15 main_v75 (broadcastInDim S1650000 ![] bcast_S_S1650000 : (⟨S_, .i32⟩ : BufTy).Contents (Elt F) → (⟨S1650000, .i32⟩ : BufTy).Contents (Elt F)),
    StableHlo.binary main_v57 main_v75 main_v76 (cmpi .slt : (⟨S1650000, .i32⟩ : BufTy).Contents (Elt F) → (⟨S1650000, .i32⟩ : BufTy).Contents (Elt F) → (⟨S1650000, .i1⟩ : BufTy).Contents (Elt F)),
    StableHlo.nullary main_c_16 (constantI S_ 32 50000#32),
    StableHlo.unary main_c_16 main_v77 (broadcastInDim S1650000 ![] bcast_S_S1650000 : (⟨S_, .i32⟩ : BufTy).Contents (Elt F) → (⟨S1650000, .i32⟩ : BufTy).Contents (Elt F)),
    StableHlo.binary main_v57 main_v77 main_v78 (addi : (⟨S1650000, .i32⟩ : BufTy).Contents (Elt F) → (⟨S1650000, .i32⟩ : BufTy).Contents (Elt F) → (⟨S1650000, .i32⟩ : BufTy).Contents (Elt F)),
    StableHlo.ternary main_v76 main_v78 main_v57 main_v79 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    StableHlo.unary main_v79 main_v80 (broadcastInDim S1650000x1 ![0] bcast_S1650000_S1650000x1_0 : (⟨S1650000, .i32⟩ : BufTy).Contents (Elt F) → (⟨S1650000x1, .i32⟩ : BufTy).Contents (Elt F)),
    StableHlo.binary main_v66 main_v80 main_v81 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    StableHlo.binary main_v74 main_v81 main_v82 (mulf : (⟨S1650000, .f32⟩ : BufTy).Contents (Elt F) → (⟨S1650000, .f32⟩ : BufTy).Contents (Elt F) → (⟨S1650000, .f32⟩ : BufTy).Contents (Elt F)),
    StableHlo.nullary main_c_17 (constantI S_ 32 0#32),
    StableHlo.unary main_c_17 main_v83 (broadcastInDim S1650000 ![] bcast_S_S1650000 : (⟨S_, .i32⟩ : BufTy).Contents (Elt F) → (⟨S1650000, .i32⟩ : BufTy).Contents (Elt F)),
    StableHlo.binary main_v54 main_v83 main_v84 (cmpi .slt : (⟨S1650000, .i32⟩ : BufTy).Contents (Elt F) → (⟨S1650000, .i32⟩ : BufTy).Contents (Elt F) → (⟨S1650000, .i1⟩ : BufTy).Contents (Elt F)),
    StableHlo.nullary main_c_18 (constantI S_ 32 50000#32),
    StableHlo.unary main_c_18 main_v85 (broadcastInDim S1650000 ![] bcast_S_S1650000 : (⟨S_, .i32⟩ : BufTy).Contents (Elt F) → (⟨S1650000, .i32⟩ : BufTy).Contents (Elt F)),
    StableHlo.binary main_v54 main_v85 main_v86 (addi : (⟨S1650000, .i32⟩ : BufTy).Contents (Elt F) → (⟨S1650000, .i32⟩ : BufTy).Contents (Elt F) → (⟨S1650000, .i32⟩ : BufTy).Contents (Elt F)),
    StableHlo.ternary main_v84 main_v86 main_v54 main_v87 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    StableHlo.unary main_v87 main_v88 (broadcastInDim S1650000x1 ![0] bcast_S1650000_S1650000x1_0 : (⟨S1650000, .i32⟩ : BufTy).Contents (Elt F) → (⟨S1650000x1, .i32⟩ : BufTy).Contents (Elt F)),
    StableHlo.binary main_v50 main_v88 main_v89 ((fun x i => Host.gather gather_S50000x64_S1650000x1_S1650000x64_1_0_n_n_0_1_164 x i) : (⟨S50000x64, .f32⟩ : BufTy).Contents (Elt F) → (⟨S1650000x1, .i32⟩ : BufTy).Contents (Elt F) → (⟨S1650000x64, .f32⟩ : BufTy).Contents (Elt F)),
    StableHlo.unary main_v82 main_v90 (broadcastInDim S1650000x1 ![0] bcast_S1650000_S1650000x1_0 : (⟨S1650000, .f32⟩ : BufTy).Contents (Elt F) → (⟨S1650000x1, .f32⟩ : BufTy).Contents (Elt F)),
    StableHlo.unary main_v90 main_v91 (broadcastInDim S1650000x64 ![0, 1] bcast_S1650000x1_S1650000x64_0_1 : (⟨S1650000x1, .f32⟩ : BufTy).Contents (Elt F) → (⟨S1650000x64, .f32⟩ : BufTy).Contents (Elt F)),
    StableHlo.binary main_v89 main_v91 main_v92 (mulf : (⟨S1650000x64, .f32⟩ : BufTy).Contents (Elt F) → (⟨S1650000x64, .f32⟩ : BufTy).Contents (Elt F) → (⟨S1650000x64, .f32⟩ : BufTy).Contents (Elt F)),
    StableHlo.nullary main_cst_19 (constant S_ .f32 0x00000000#32),
    StableHlo.unary main_cst_19 main_v93 (broadcastInDim S50000x64 ![] bcast_S_S50000x64 : (⟨S_, .f32⟩ : BufTy).Contents (Elt F) → (⟨S50000x64, .f32⟩ : BufTy).Contents (Elt F)),
    StableHlo.unary main_v57 main_v94 (broadcastInDim S1650000x1 ![0] bcast_S1650000_S1650000x1_0 : (⟨S1650000, .i32⟩ : BufTy).Contents (Elt F) → (⟨S1650000x1, .i32⟩ : BufTy).Contents (Elt F)),
    StableHlo.ternary main_v93 main_v94 main_v92 main_v95 ((fun x i u => Host.scatterAdd scatter_S50000x64_S1650000x1_S1650000x64_1_0_0_1 x i u) : (⟨S50000x64, .f32⟩ : BufTy).Contents (Elt F) → (⟨S1650000x1, .i32⟩ : BufTy).Contents (Elt F) → (⟨S1650000x64, .f32⟩ : BufTy).Contents (Elt F) → (⟨S50000x64, .f32⟩ : BufTy).Contents (Elt F)) ]

/-- The buffers the stretch writes, in order. -/
abbrev sAgg2_W : List (Ref sig .tc) := [main_v51, main_v52, main_v53, main_v54, main_v55, main_v56, main_v57, main_cst_9, main_v58, main_v59, main_cst_10, main_v60, main_v61, main_v62, main_cst_11, main_v63, main_v64, main_v65, main_cst_12, main_call2_v0, main_call2_v1, main_v66, main_c_13, main_v67, main_v68, main_c_14, main_v69, main_v70, main_v71, main_v72, main_v73, main_v74, main_c_15, main_v75, main_v76, main_c_16, main_v77, main_v78, main_v79, main_v80, main_v81, main_v82, main_c_17, main_v83, main_v84, main_c_18, main_v85, main_v86, main_v87, main_v88, main_v89, main_v90, main_v91, main_v92, main_cst_19, main_v93, main_v94, main_v95]

theorem sAgg2_aligned : LibHostRead.Aligned (sAgg2 (F := F)) sAgg2_W := by
  unfold sAgg2; exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, trivial⟩

theorem sAgg2_sub : ∀ op ∈ (sAgg2 : List (HloOp τ sig (Elt F))), op.bufs ⊆ tcRefs τ sig :=
  List.forall_iff_forall_mem.mp (by unfold sAgg2; exact ⟨nullary_bufs_sub .., unary_bufs_sub .., reshape_bufs_sub .., binary_bufs_sub .., unary_bufs_sub .., reshape_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩)

theorem sAgg2_fresh : ∀ op ∈ (sAgg2 : List (HloOp τ sig (Elt F))), op.fresh = ∅ :=
  List.forall_iff_forall_mem.mp (by unfold sAgg2; exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- A buffer the stretch does not write keeps its contents. -/
theorem sAgg2_frame (X : Valuation τ sig (Elt F)) (r : Ref sig .tc) (hr : r ∉ sAgg2_W) :
    after sAgg2 X (no_index (Proc.devRef .tc r)) = X (Proc.devRef .tc r) :=
  LibHostRead.after_of_not_written sAgg2_aligned hr X

/-- A bias laid as a row and repeated along the nodes: 2 operations. -/
def sBias2a : List (HloOp τ sig (Elt F)) :=
  [ StableHlo.unary main_arg6 main_v96 (broadcastInDim S1x64 ![1] bcast_S64_S1x64_1 : (⟨S64, .f32⟩ : BufTy).Contents (Elt F) → (⟨S1x64, .f32⟩ : BufTy).Contents (Elt F)),
    StableHlo.unary main_v96 main_v97 (broadcastInDim S50000x64 ![0, 1] bcast_S1x64_S50000x64_0_1 : (⟨S1x64, .f32⟩ : BufTy).Contents (Elt F) → (⟨S50000x64, .f32⟩ : BufTy).Contents (Elt F)) ]

/-- The buffers the stretch writes, in order. -/
abbrev sBias2a_W : List (Ref sig .tc) := [main_v96, main_v97]

theorem sBias2a_aligned : LibHostRead.Aligned (sBias2a (F := F)) sBias2a_W := by
  unfold sBias2a; exact ⟨rfl, rfl, trivial⟩

theorem sBias2a_sub : ∀ op ∈ (sBias2a : List (HloOp τ sig (Elt F))), op.bufs ⊆ tcRefs τ sig :=
  List.forall_iff_forall_mem.mp (by unfold sBias2a; exact ⟨unary_bufs_sub .., unary_bufs_sub ..⟩)

theorem sBias2a_fresh : ∀ op ∈ (sBias2a : List (HloOp τ sig (Elt F))), op.fresh = ∅ :=
  List.forall_iff_forall_mem.mp (by unfold sBias2a; exact ⟨rfl, rfl⟩)

/-- A buffer the stretch does not write keeps its contents. -/
theorem sBias2a_frame (X : Valuation τ sig (Elt F)) (r : Ref sig .tc) (hr : r ∉ sBias2a_W) :
    after sBias2a X (no_index (Proc.devRef .tc r)) = X (Proc.devRef .tc r) :=
  LibHostRead.after_of_not_written sBias2a_aligned hr X

/-- The repeated bias added: 1 operation. -/
def sBias2b : List (HloOp τ sig (Elt F)) :=
  [ StableHlo.binary main_v95 main_v97 main_v98 (addf : (⟨S50000x64, .f32⟩ : BufTy).Contents (Elt F) → (⟨S50000x64, .f32⟩ : BufTy).Contents (Elt F) → (⟨S50000x64, .f32⟩ : BufTy).Contents (Elt F)) ]

/-- The buffers the stretch writes, in order. -/
abbrev sBias2b_W : List (Ref sig .tc) := [main_v98]

theorem sBias2b_aligned : LibHostRead.Aligned (sBias2b (F := F)) sBias2b_W := by
  unfold sBias2b; exact ⟨rfl, trivial⟩

theorem sBias2b_sub : ∀ op ∈ (sBias2b : List (HloOp τ sig (Elt F))), op.bufs ⊆ tcRefs τ sig :=
  List.forall_iff_forall_mem.mp (by unfold sBias2b; exact binary_bufs_sub ..)

theorem sBias2b_fresh : ∀ op ∈ (sBias2b : List (HloOp τ sig (Elt F))), op.fresh = ∅ :=
  List.forall_iff_forall_mem.mp (by unfold sBias2b; exact rfl)

/-- A buffer the stretch does not write keeps its contents. -/
theorem sBias2b_frame (X : Valuation τ sig (Elt F)) (r : Ref sig .tc) (hr : r ∉ sBias2b_W) :
    after sBias2b X (no_index (Proc.devRef .tc r)) = X (Proc.devRef .tc r) :=
  LibHostRead.after_of_not_written sBias2b_aligned hr X

/-- The scaled exponential linear unit: 19 operations. -/
def sSelu2 : List (HloOp τ sig (Elt F)) :=
  [ StableHlo.TRef.nullary (.of main_call3_cst : StableHlo.TRef sig ⟨S_, .f32⟩) (constant S_ .f32 0x3FD62D7D#32),
    StableHlo.TRef.nullary (.of main_call3_call0_cst : StableHlo.TRef sig ⟨S_, .f32⟩) (constant S_ .f32 0x00000000#32),
    StableHlo.TRef.unary (.of main_call3_call0_cst : StableHlo.TRef sig ⟨S_, .f32⟩) (.of main_call3_call0_v0 : StableHlo.TRef sig ⟨S50000x64, .f32⟩) (broadcastInDim S50000x64 ![] bcast_S_S50000x64),
    StableHlo.TRef.binary (.of main_v98 : StableHlo.TRef sig ⟨S50000x64, .f32⟩) (.of main_call3_call0_v0 : StableHlo.TRef sig ⟨S50000x64, .f32⟩) (.of main_call3_call0_v1 : StableHlo.TRef sig ⟨S50000x64, .i1⟩) (cmpf .ogt),
    StableHlo.TRef.nullary (.of main_call3_call0_cst_0 : StableHlo.TRef sig ⟨S_, .f32⟩) (constant S_ .f32 0x00000000#32),
    StableHlo.TRef.unary (.of main_call3_call0_cst_0 : StableHlo.TRef sig ⟨S_, .f32⟩) (.of main_call3_call0_v2 : StableHlo.TRef sig ⟨S50000x64, .f32⟩) (broadcastInDim S50000x64 ![] bcast_S_S50000x64),
    StableHlo.TRef.binary (.of main_v98 : StableHlo.TRef sig ⟨S50000x64, .f32⟩) (.of main_call3_call0_v2 : StableHlo.TRef sig ⟨S50000x64, .f32⟩) (.of main_call3_call0_v3 : StableHlo.TRef sig ⟨S50000x64, .i1⟩) (cmpf .ogt),
    StableHlo.TRef.nullary (.of main_call3_call0_cst_1 : StableHlo.TRef sig ⟨S_, .f32⟩) (constant S_ .f32 0x00000000#32),
    StableHlo.TRef.unary (.of main_call3_call0_cst_1 : StableHlo.TRef sig ⟨S_, .f32⟩) (.of main_call3_call0_call0_v0 : StableHlo.TRef sig ⟨S_, .f32⟩) id,
    StableHlo.TRef.unary (.of main_call3_call0_call0_v0 : StableHlo.TRef sig ⟨S_, .f32⟩) (.of main_call3_call0_call0_v1 : StableHlo.TRef sig ⟨S50000x64, .f32⟩) (broadcastInDim S50000x64 ![] bcast_S_S50000x64),
    StableHlo.TRef.ternary (.of main_call3_call0_v3 : StableHlo.TRef sig ⟨S50000x64, .i1⟩) (.of main_call3_call0_call0_v1 : StableHlo.TRef sig ⟨S50000x64, .f32⟩) (.of main_v98 : StableHlo.TRef sig ⟨S50000x64, .f32⟩) (.of main_call3_call0_v4 : StableHlo.TRef sig ⟨S50000x64, .f32⟩) select,
    StableHlo.TRef.unary (.of main_call3_call0_v4 : StableHlo.TRef sig ⟨S50000x64, .f32⟩) (.of main_call3_call0_v5 : StableHlo.TRef sig ⟨S50000x64, .f32⟩) Host.expm1,
    StableHlo.TRef.unary (.of main_call3_cst : StableHlo.TRef sig ⟨S_, .f32⟩) (.of main_call3_call0_v6 : StableHlo.TRef sig ⟨S_, .f32⟩) id,
    StableHlo.TRef.unary (.of main_call3_call0_v6 : StableHlo.TRef sig ⟨S_, .f32⟩) (.of main_call3_call0_v7 : StableHlo.TRef sig ⟨S50000x64, .f32⟩) (broadcastInDim S50000x64 ![] bcast_S_S50000x64),
    StableHlo.TRef.binary (.of main_call3_call0_v7 : StableHlo.TRef sig ⟨S50000x64, .f32⟩) (.of main_call3_call0_v5 : StableHlo.TRef sig ⟨S50000x64, .f32⟩) (.of main_call3_call0_v8 : StableHlo.TRef sig ⟨S50000x64, .f32⟩) mulf,
    StableHlo.TRef.ternary (.of main_call3_call0_v1 : StableHlo.TRef sig ⟨S50000x64, .i1⟩) (.of main_v98 : StableHlo.TRef sig ⟨S50000x64, .f32⟩) (.of main_call3_call0_v8 : StableHlo.TRef sig ⟨S50000x64, .f32⟩) (.of main_call3_v0 : StableHlo.TRef sig ⟨S50000x64, .f32⟩) select,
    StableHlo.TRef.nullary (.of main_call3_cst_0 : StableHlo.TRef sig ⟨S_, .f32⟩) (constant S_ .f32 0x3F867D5F#32),
    StableHlo.TRef.unary (.of main_call3_cst_0 : StableHlo.TRef sig ⟨S_, .f32⟩) (.of main_call3_v1 : StableHlo.TRef sig ⟨S50000x64, .f32⟩) (broadcastInDim S50000x64 ![] bcast_S_S50000x64),
    StableHlo.TRef.binary (.of main_call3_v1 : StableHlo.TRef sig ⟨S50000x64, .f32⟩) (.of main_call3_v0 : StableHlo.TRef sig ⟨S50000x64, .f32⟩) (.of main_v99 : StableHlo.TRef sig ⟨S50000x64, .f32⟩) mulf ]

/-- The buffers the stretch writes, in order. -/
abbrev sSelu2_W : List (Ref sig .tc) := [main_call3_cst, main_call3_call0_cst, main_call3_call0_v0, main_call3_call0_v1, main_call3_call0_cst_0, main_call3_call0_v2, main_call3_call0_v3, main_call3_call0_cst_1, main_call3_call0_call0_v0, main_call3_call0_call0_v1, main_call3_call0_v4, main_call3_call0_v5, main_call3_call0_v6, main_call3_call0_v7, main_call3_call0_v8, main_call3_v0, main_call3_cst_0, main_call3_v1, main_v99]

theorem sSelu2_aligned : LibHostRead.Aligned (sSelu2 (F := F)) sSelu2_W := by
  unfold sSelu2; exact ⟨rfl, rfl, rfl, rfl, rfl, rfl, rfl, rfl, rfl, rfl, rfl, rfl, rfl, rfl, rfl, rfl, rfl, rfl, rfl, trivial⟩

theorem sSelu2_sub : ∀ op ∈ (sSelu2 : List (HloOp τ sig (Elt F))), op.bufs ⊆ tcRefs τ sig :=
  List.forall_iff_forall_mem.mp (by unfold sSelu2; exact ⟨nullary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., unary_bufs_sub .., binary_bufs_sub .., ternary_bufs_sub .., nullary_bufs_sub .., unary_bufs_sub .., binary_bufs_sub ..⟩)

theorem sSelu2_fresh : ∀ op ∈ (sSelu2 : List (HloOp τ sig (Elt F))), op.fresh = ∅ :=
  List.forall_iff_forall_mem.mp (by unfold sSelu2; exact ⟨rfl, rfl, rfl, rfl, rfl, rfl, rfl, rfl, rfl, rfl, rfl, rfl, rfl, rfl, rfl, rfl, rfl, rfl, rfl⟩)

/-- A buffer the stretch does not write keeps its contents. -/
theorem sSelu2_frame (X : Valuation τ sig (Elt F)) (r : Ref sig .tc) (hr : r ∉ sSelu2_W) :
    after sSelu2 X (no_index (Proc.devRef .tc r)) = X (Proc.devRef .tc r) :=
  LibHostRead.after_of_not_written sSelu2_aligned hr X

/-- A matrix product of the features by a layer's weights: 1 operation. -/
def sDot3 : List (HloOp τ sig (Elt F)) :=
  [ StableHlo.binary main_v99 main_arg7 main_v100 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ]

/-- The buffers the stretch writes, in order. -/
abbrev sDot3_W : List (Ref sig .tc) := [main_v100]

theorem sDot3_aligned : LibHostRead.Aligned (sDot3 (F := F)) sDot3_W := by
  unfold sDot3; exact ⟨rfl, trivial⟩

theorem sDot3_sub : ∀ op ∈ (sDot3 : List (HloOp τ sig (Elt F))), op.bufs ⊆ tcRefs τ sig :=
  List.forall_iff_forall_mem.mp (by unfold sDot3; exact binary_bufs_sub ..)

theorem sDot3_fresh : ∀ op ∈ (sDot3 : List (HloOp τ sig (Elt F))), op.fresh = ∅ :=
  List.forall_iff_forall_mem.mp (by unfold sDot3; exact rfl)

/-- A buffer the stretch does not write keeps its contents. -/
theorem sDot3_frame (X : Valuation τ sig (Elt F)) (r : Ref sig .tc) (hr : r ∉ sDot3_W) :
    after sDot3 X (no_index (Proc.devRef .tc r)) = X (Proc.devRef .tc r) :=
  LibHostRead.after_of_not_written sDot3_aligned hr X

/-- A bias laid as a row, repeated along the nodes, and added: 3 operations. -/
def sBias3 : List (HloOp τ sig (Elt F)) :=
  [ StableHlo.unary main_arg8 main_v101 (broadcastInDim S1x64 ![1] bcast_S64_S1x64_1 : (⟨S64, .f32⟩ : BufTy).Contents (Elt F) → (⟨S1x64, .f32⟩ : BufTy).Contents (Elt F)),
    StableHlo.unary main_v101 main_v102 (broadcastInDim S50000x64 ![0, 1] bcast_S1x64_S50000x64_0_1 : (⟨S1x64, .f32⟩ : BufTy).Contents (Elt F) → (⟨S50000x64, .f32⟩ : BufTy).Contents (Elt F)),
    StableHlo.binary main_v100 main_v102 main_v103 (addf : (⟨S50000x64, .f32⟩ : BufTy).Contents (Elt F) → (⟨S50000x64, .f32⟩ : BufTy).Contents (Elt F) → (⟨S50000x64, .f32⟩ : BufTy).Contents (Elt F)) ]

/-- The buffers the stretch writes, in order. -/
abbrev sBias3_W : List (Ref sig .tc) := [main_v101, main_v102, main_v103]

theorem sBias3_aligned : LibHostRead.Aligned (sBias3 (F := F)) sBias3_W := by
  unfold sBias3; exact ⟨rfl, rfl, rfl, trivial⟩

theorem sBias3_sub : ∀ op ∈ (sBias3 : List (HloOp τ sig (Elt F))), op.bufs ⊆ tcRefs τ sig :=
  List.forall_iff_forall_mem.mp (by unfold sBias3; exact ⟨unary_bufs_sub .., unary_bufs_sub .., binary_bufs_sub ..⟩)

theorem sBias3_fresh : ∀ op ∈ (sBias3 : List (HloOp τ sig (Elt F))), op.fresh = ∅ :=
  List.forall_iff_forall_mem.mp (by unfold sBias3; exact ⟨rfl, rfl, rfl⟩)

/-- A buffer the stretch does not write keeps its contents. -/
theorem sBias3_frame (X : Valuation τ sig (Elt F)) (r : Ref sig .tc) (hr : r ∉ sBias3_W) :
    after sBias3 X (no_index (Proc.devRef .tc r)) = X (Proc.devRef .tc r) :=
  LibHostRead.after_of_not_written sBias3_aligned hr X

/-- The scaled exponential linear unit: 19 operations. -/
def sSelu3 : List (HloOp τ sig (Elt F)) :=
  [ StableHlo.TRef.nullary (.of main_call4_cst : StableHlo.TRef sig ⟨S_, .f32⟩) (constant S_ .f32 0x3FD62D7D#32),
    StableHlo.TRef.nullary (.of main_call4_call0_cst : StableHlo.TRef sig ⟨S_, .f32⟩) (constant S_ .f32 0x00000000#32),
    StableHlo.TRef.unary (.of main_call4_call0_cst : StableHlo.TRef sig ⟨S_, .f32⟩) (.of main_call4_call0_v0 : StableHlo.TRef sig ⟨S50000x64, .f32⟩) (broadcastInDim S50000x64 ![] bcast_S_S50000x64),
    StableHlo.TRef.binary (.of main_v103 : StableHlo.TRef sig ⟨S50000x64, .f32⟩) (.of main_call4_call0_v0 : StableHlo.TRef sig ⟨S50000x64, .f32⟩) (.of main_call4_call0_v1 : StableHlo.TRef sig ⟨S50000x64, .i1⟩) (cmpf .ogt),
    StableHlo.TRef.nullary (.of main_call4_call0_cst_0 : StableHlo.TRef sig ⟨S_, .f32⟩) (constant S_ .f32 0x00000000#32),
    StableHlo.TRef.unary (.of main_call4_call0_cst_0 : StableHlo.TRef sig ⟨S_, .f32⟩) (.of main_call4_call0_v2 : StableHlo.TRef sig ⟨S50000x64, .f32⟩) (broadcastInDim S50000x64 ![] bcast_S_S50000x64),
    StableHlo.TRef.binary (.of main_v103 : StableHlo.TRef sig ⟨S50000x64, .f32⟩) (.of main_call4_call0_v2 : StableHlo.TRef sig ⟨S50000x64, .f32⟩) (.of main_call4_call0_v3 : StableHlo.TRef sig ⟨S50000x64, .i1⟩) (cmpf .ogt),
    StableHlo.TRef.nullary (.of main_call4_call0_cst_1 : StableHlo.TRef sig ⟨S_, .f32⟩) (constant S_ .f32 0x00000000#32),
    StableHlo.TRef.unary (.of main_call4_call0_cst_1 : StableHlo.TRef sig ⟨S_, .f32⟩) (.of main_call4_call0_call0_v0 : StableHlo.TRef sig ⟨S_, .f32⟩) id,
    StableHlo.TRef.unary (.of main_call4_call0_call0_v0 : StableHlo.TRef sig ⟨S_, .f32⟩) (.of main_call4_call0_call0_v1 : StableHlo.TRef sig ⟨S50000x64, .f32⟩) (broadcastInDim S50000x64 ![] bcast_S_S50000x64),
    StableHlo.TRef.ternary (.of main_call4_call0_v3 : StableHlo.TRef sig ⟨S50000x64, .i1⟩) (.of main_call4_call0_call0_v1 : StableHlo.TRef sig ⟨S50000x64, .f32⟩) (.of main_v103 : StableHlo.TRef sig ⟨S50000x64, .f32⟩) (.of main_call4_call0_v4 : StableHlo.TRef sig ⟨S50000x64, .f32⟩) select,
    StableHlo.TRef.unary (.of main_call4_call0_v4 : StableHlo.TRef sig ⟨S50000x64, .f32⟩) (.of main_call4_call0_v5 : StableHlo.TRef sig ⟨S50000x64, .f32⟩) Host.expm1,
    StableHlo.TRef.unary (.of main_call4_cst : StableHlo.TRef sig ⟨S_, .f32⟩) (.of main_call4_call0_v6 : StableHlo.TRef sig ⟨S_, .f32⟩) id,
    StableHlo.TRef.unary (.of main_call4_call0_v6 : StableHlo.TRef sig ⟨S_, .f32⟩) (.of main_call4_call0_v7 : StableHlo.TRef sig ⟨S50000x64, .f32⟩) (broadcastInDim S50000x64 ![] bcast_S_S50000x64),
    StableHlo.TRef.binary (.of main_call4_call0_v7 : StableHlo.TRef sig ⟨S50000x64, .f32⟩) (.of main_call4_call0_v5 : StableHlo.TRef sig ⟨S50000x64, .f32⟩) (.of main_call4_call0_v8 : StableHlo.TRef sig ⟨S50000x64, .f32⟩) mulf,
    StableHlo.TRef.ternary (.of main_call4_call0_v1 : StableHlo.TRef sig ⟨S50000x64, .i1⟩) (.of main_v103 : StableHlo.TRef sig ⟨S50000x64, .f32⟩) (.of main_call4_call0_v8 : StableHlo.TRef sig ⟨S50000x64, .f32⟩) (.of main_call4_v0 : StableHlo.TRef sig ⟨S50000x64, .f32⟩) select,
    StableHlo.TRef.nullary (.of main_call4_cst_0 : StableHlo.TRef sig ⟨S_, .f32⟩) (constant S_ .f32 0x3F867D5F#32),
    StableHlo.TRef.unary (.of main_call4_cst_0 : StableHlo.TRef sig ⟨S_, .f32⟩) (.of main_call4_v1 : StableHlo.TRef sig ⟨S50000x64, .f32⟩) (broadcastInDim S50000x64 ![] bcast_S_S50000x64),
    StableHlo.TRef.binary (.of main_call4_v1 : StableHlo.TRef sig ⟨S50000x64, .f32⟩) (.of main_call4_v0 : StableHlo.TRef sig ⟨S50000x64, .f32⟩) (.of main_v104 : StableHlo.TRef sig ⟨S50000x64, .f32⟩) mulf ]

/-- The buffers the stretch writes, in order. -/
abbrev sSelu3_W : List (Ref sig .tc) := [main_call4_cst, main_call4_call0_cst, main_call4_call0_v0, main_call4_call0_v1, main_call4_call0_cst_0, main_call4_call0_v2, main_call4_call0_v3, main_call4_call0_cst_1, main_call4_call0_call0_v0, main_call4_call0_call0_v1, main_call4_call0_v4, main_call4_call0_v5, main_call4_call0_v6, main_call4_call0_v7, main_call4_call0_v8, main_call4_v0, main_call4_cst_0, main_call4_v1, main_v104]

theorem sSelu3_aligned : LibHostRead.Aligned (sSelu3 (F := F)) sSelu3_W := by
  unfold sSelu3; exact ⟨rfl, rfl, rfl, rfl, rfl, rfl, rfl, rfl, rfl, rfl, rfl, rfl, rfl, rfl, rfl, rfl, rfl, rfl, rfl, trivial⟩

theorem sSelu3_sub : ∀ op ∈ (sSelu3 : List (HloOp τ sig (Elt F))), op.bufs ⊆ tcRefs τ sig :=
  List.forall_iff_forall_mem.mp (by unfold sSelu3; exact ⟨nullary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., unary_bufs_sub .., binary_bufs_sub .., ternary_bufs_sub .., nullary_bufs_sub .., unary_bufs_sub .., binary_bufs_sub ..⟩)

theorem sSelu3_fresh : ∀ op ∈ (sSelu3 : List (HloOp τ sig (Elt F))), op.fresh = ∅ :=
  List.forall_iff_forall_mem.mp (by unfold sSelu3; exact ⟨rfl, rfl, rfl, rfl, rfl, rfl, rfl, rfl, rfl, rfl, rfl, rfl, rfl, rfl, rfl, rfl, rfl, rfl, rfl⟩)

/-- A buffer the stretch does not write keeps its contents. -/
theorem sSelu3_frame (X : Valuation τ sig (Elt F)) (r : Ref sig .tc) (hr : r ∉ sSelu3_W) :
    after sSelu3 X (no_index (Proc.devRef .tc r)) = X (Proc.devRef .tc r) :=
  LibHostRead.after_of_not_written sSelu3_aligned hr X

/-- A matrix product of the features by a layer's weights: 1 operation. -/
def sDot4 : List (HloOp τ sig (Elt F)) :=
  [ StableHlo.binary main_v104 main_arg9 main_v105 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ]

/-- The buffers the stretch writes, in order. -/
abbrev sDot4_W : List (Ref sig .tc) := [main_v105]

theorem sDot4_aligned : LibHostRead.Aligned (sDot4 (F := F)) sDot4_W := by
  unfold sDot4; exact ⟨rfl, trivial⟩

theorem sDot4_sub : ∀ op ∈ (sDot4 : List (HloOp τ sig (Elt F))), op.bufs ⊆ tcRefs τ sig :=
  List.forall_iff_forall_mem.mp (by unfold sDot4; exact binary_bufs_sub ..)

theorem sDot4_fresh : ∀ op ∈ (sDot4 : List (HloOp τ sig (Elt F))), op.fresh = ∅ :=
  List.forall_iff_forall_mem.mp (by unfold sDot4; exact rfl)

/-- A buffer the stretch does not write keeps its contents. -/
theorem sDot4_frame (X : Valuation τ sig (Elt F)) (r : Ref sig .tc) (hr : r ∉ sDot4_W) :
    after sDot4 X (no_index (Proc.devRef .tc r)) = X (Proc.devRef .tc r) :=
  LibHostRead.after_of_not_written sDot4_aligned hr X

/-- A bias laid as a row, repeated along the nodes, and added: 3 operations. -/
def sBias4 : List (HloOp τ sig (Elt F)) :=
  [ StableHlo.unary main_arg10 main_v106 (broadcastInDim S1x64 ![1] bcast_S64_S1x64_1 : (⟨S64, .f32⟩ : BufTy).Contents (Elt F) → (⟨S1x64, .f32⟩ : BufTy).Contents (Elt F)),
    StableHlo.unary main_v106 main_v107 (broadcastInDim S50000x64 ![0, 1] bcast_S1x64_S50000x64_0_1 : (⟨S1x64, .f32⟩ : BufTy).Contents (Elt F) → (⟨S50000x64, .f32⟩ : BufTy).Contents (Elt F)),
    StableHlo.binary main_v105 main_v107 main_v108 (addf : (⟨S50000x64, .f32⟩ : BufTy).Contents (Elt F) → (⟨S50000x64, .f32⟩ : BufTy).Contents (Elt F) → (⟨S50000x64, .f32⟩ : BufTy).Contents (Elt F)) ]

/-- The buffers the stretch writes, in order. -/
abbrev sBias4_W : List (Ref sig .tc) := [main_v106, main_v107, main_v108]

theorem sBias4_aligned : LibHostRead.Aligned (sBias4 (F := F)) sBias4_W := by
  unfold sBias4; exact ⟨rfl, rfl, rfl, trivial⟩

theorem sBias4_sub : ∀ op ∈ (sBias4 : List (HloOp τ sig (Elt F))), op.bufs ⊆ tcRefs τ sig :=
  List.forall_iff_forall_mem.mp (by unfold sBias4; exact ⟨unary_bufs_sub .., unary_bufs_sub .., binary_bufs_sub ..⟩)

theorem sBias4_fresh : ∀ op ∈ (sBias4 : List (HloOp τ sig (Elt F))), op.fresh = ∅ :=
  List.forall_iff_forall_mem.mp (by unfold sBias4; exact ⟨rfl, rfl, rfl⟩)

/-- A buffer the stretch does not write keeps its contents. -/
theorem sBias4_frame (X : Valuation τ sig (Elt F)) (r : Ref sig .tc) (hr : r ∉ sBias4_W) :
    after sBias4 X (no_index (Proc.devRef .tc r)) = X (Proc.devRef .tc r) :=
  LibHostRead.after_of_not_written sBias4_aligned hr X

/-- The scaled exponential linear unit: 19 operations. -/
def sSelu4 : List (HloOp τ sig (Elt F)) :=
  [ StableHlo.TRef.nullary (.of main_call5_cst : StableHlo.TRef sig ⟨S_, .f32⟩) (constant S_ .f32 0x3FD62D7D#32),
    StableHlo.TRef.nullary (.of main_call5_call0_cst : StableHlo.TRef sig ⟨S_, .f32⟩) (constant S_ .f32 0x00000000#32),
    StableHlo.TRef.unary (.of main_call5_call0_cst : StableHlo.TRef sig ⟨S_, .f32⟩) (.of main_call5_call0_v0 : StableHlo.TRef sig ⟨S50000x64, .f32⟩) (broadcastInDim S50000x64 ![] bcast_S_S50000x64),
    StableHlo.TRef.binary (.of main_v108 : StableHlo.TRef sig ⟨S50000x64, .f32⟩) (.of main_call5_call0_v0 : StableHlo.TRef sig ⟨S50000x64, .f32⟩) (.of main_call5_call0_v1 : StableHlo.TRef sig ⟨S50000x64, .i1⟩) (cmpf .ogt),
    StableHlo.TRef.nullary (.of main_call5_call0_cst_0 : StableHlo.TRef sig ⟨S_, .f32⟩) (constant S_ .f32 0x00000000#32),
    StableHlo.TRef.unary (.of main_call5_call0_cst_0 : StableHlo.TRef sig ⟨S_, .f32⟩) (.of main_call5_call0_v2 : StableHlo.TRef sig ⟨S50000x64, .f32⟩) (broadcastInDim S50000x64 ![] bcast_S_S50000x64),
    StableHlo.TRef.binary (.of main_v108 : StableHlo.TRef sig ⟨S50000x64, .f32⟩) (.of main_call5_call0_v2 : StableHlo.TRef sig ⟨S50000x64, .f32⟩) (.of main_call5_call0_v3 : StableHlo.TRef sig ⟨S50000x64, .i1⟩) (cmpf .ogt),
    StableHlo.TRef.nullary (.of main_call5_call0_cst_1 : StableHlo.TRef sig ⟨S_, .f32⟩) (constant S_ .f32 0x00000000#32),
    StableHlo.TRef.unary (.of main_call5_call0_cst_1 : StableHlo.TRef sig ⟨S_, .f32⟩) (.of main_call5_call0_call0_v0 : StableHlo.TRef sig ⟨S_, .f32⟩) id,
    StableHlo.TRef.unary (.of main_call5_call0_call0_v0 : StableHlo.TRef sig ⟨S_, .f32⟩) (.of main_call5_call0_call0_v1 : StableHlo.TRef sig ⟨S50000x64, .f32⟩) (broadcastInDim S50000x64 ![] bcast_S_S50000x64),
    StableHlo.TRef.ternary (.of main_call5_call0_v3 : StableHlo.TRef sig ⟨S50000x64, .i1⟩) (.of main_call5_call0_call0_v1 : StableHlo.TRef sig ⟨S50000x64, .f32⟩) (.of main_v108 : StableHlo.TRef sig ⟨S50000x64, .f32⟩) (.of main_call5_call0_v4 : StableHlo.TRef sig ⟨S50000x64, .f32⟩) select,
    StableHlo.TRef.unary (.of main_call5_call0_v4 : StableHlo.TRef sig ⟨S50000x64, .f32⟩) (.of main_call5_call0_v5 : StableHlo.TRef sig ⟨S50000x64, .f32⟩) Host.expm1,
    StableHlo.TRef.unary (.of main_call5_cst : StableHlo.TRef sig ⟨S_, .f32⟩) (.of main_call5_call0_v6 : StableHlo.TRef sig ⟨S_, .f32⟩) id,
    StableHlo.TRef.unary (.of main_call5_call0_v6 : StableHlo.TRef sig ⟨S_, .f32⟩) (.of main_call5_call0_v7 : StableHlo.TRef sig ⟨S50000x64, .f32⟩) (broadcastInDim S50000x64 ![] bcast_S_S50000x64),
    StableHlo.TRef.binary (.of main_call5_call0_v7 : StableHlo.TRef sig ⟨S50000x64, .f32⟩) (.of main_call5_call0_v5 : StableHlo.TRef sig ⟨S50000x64, .f32⟩) (.of main_call5_call0_v8 : StableHlo.TRef sig ⟨S50000x64, .f32⟩) mulf,
    StableHlo.TRef.ternary (.of main_call5_call0_v1 : StableHlo.TRef sig ⟨S50000x64, .i1⟩) (.of main_v108 : StableHlo.TRef sig ⟨S50000x64, .f32⟩) (.of main_call5_call0_v8 : StableHlo.TRef sig ⟨S50000x64, .f32⟩) (.of main_call5_v0 : StableHlo.TRef sig ⟨S50000x64, .f32⟩) select,
    StableHlo.TRef.nullary (.of main_call5_cst_0 : StableHlo.TRef sig ⟨S_, .f32⟩) (constant S_ .f32 0x3F867D5F#32),
    StableHlo.TRef.unary (.of main_call5_cst_0 : StableHlo.TRef sig ⟨S_, .f32⟩) (.of main_call5_v1 : StableHlo.TRef sig ⟨S50000x64, .f32⟩) (broadcastInDim S50000x64 ![] bcast_S_S50000x64),
    StableHlo.TRef.binary (.of main_call5_v1 : StableHlo.TRef sig ⟨S50000x64, .f32⟩) (.of main_call5_v0 : StableHlo.TRef sig ⟨S50000x64, .f32⟩) (.of main_v109 : StableHlo.TRef sig ⟨S50000x64, .f32⟩) mulf ]

/-- The buffers the stretch writes, in order. -/
abbrev sSelu4_W : List (Ref sig .tc) := [main_call5_cst, main_call5_call0_cst, main_call5_call0_v0, main_call5_call0_v1, main_call5_call0_cst_0, main_call5_call0_v2, main_call5_call0_v3, main_call5_call0_cst_1, main_call5_call0_call0_v0, main_call5_call0_call0_v1, main_call5_call0_v4, main_call5_call0_v5, main_call5_call0_v6, main_call5_call0_v7, main_call5_call0_v8, main_call5_v0, main_call5_cst_0, main_call5_v1, main_v109]

theorem sSelu4_aligned : LibHostRead.Aligned (sSelu4 (F := F)) sSelu4_W := by
  unfold sSelu4; exact ⟨rfl, rfl, rfl, rfl, rfl, rfl, rfl, rfl, rfl, rfl, rfl, rfl, rfl, rfl, rfl, rfl, rfl, rfl, rfl, trivial⟩

theorem sSelu4_sub : ∀ op ∈ (sSelu4 : List (HloOp τ sig (Elt F))), op.bufs ⊆ tcRefs τ sig :=
  List.forall_iff_forall_mem.mp (by unfold sSelu4; exact ⟨nullary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., unary_bufs_sub .., binary_bufs_sub .., ternary_bufs_sub .., nullary_bufs_sub .., unary_bufs_sub .., binary_bufs_sub ..⟩)

theorem sSelu4_fresh : ∀ op ∈ (sSelu4 : List (HloOp τ sig (Elt F))), op.fresh = ∅ :=
  List.forall_iff_forall_mem.mp (by unfold sSelu4; exact ⟨rfl, rfl, rfl, rfl, rfl, rfl, rfl, rfl, rfl, rfl, rfl, rfl, rfl, rfl, rfl, rfl, rfl, rfl, rfl⟩)

/-- A buffer the stretch does not write keeps its contents. -/
theorem sSelu4_frame (X : Valuation τ sig (Elt F)) (r : Ref sig .tc) (hr : r ∉ sSelu4_W) :
    after sSelu4 X (no_index (Proc.devRef .tc r)) = X (Proc.devRef .tc r) :=
  LibHostRead.after_of_not_written sSelu4_aligned hr X

/-- A matrix product of the features by a layer's weights: 1 operation. -/
def sDot5 : List (HloOp τ sig (Elt F)) :=
  [ StableHlo.binary main_v109 main_arg11 main_v110 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ]

/-- The buffers the stretch writes, in order. -/
abbrev sDot5_W : List (Ref sig .tc) := [main_v110]

theorem sDot5_aligned : LibHostRead.Aligned (sDot5 (F := F)) sDot5_W := by
  unfold sDot5; exact ⟨rfl, trivial⟩

theorem sDot5_sub : ∀ op ∈ (sDot5 : List (HloOp τ sig (Elt F))), op.bufs ⊆ tcRefs τ sig :=
  List.forall_iff_forall_mem.mp (by unfold sDot5; exact binary_bufs_sub ..)

theorem sDot5_fresh : ∀ op ∈ (sDot5 : List (HloOp τ sig (Elt F))), op.fresh = ∅ :=
  List.forall_iff_forall_mem.mp (by unfold sDot5; exact rfl)

/-- A buffer the stretch does not write keeps its contents. -/
theorem sDot5_frame (X : Valuation τ sig (Elt F)) (r : Ref sig .tc) (hr : r ∉ sDot5_W) :
    after sDot5 X (no_index (Proc.devRef .tc r)) = X (Proc.devRef .tc r) :=
  LibHostRead.after_of_not_written sDot5_aligned hr X

/-- A bias laid as a row, repeated along the nodes, and added: 3 operations. -/
def sBias5 : List (HloOp τ sig (Elt F)) :=
  [ StableHlo.unary main_arg12 main_v111 (broadcastInDim S1x64 ![1] bcast_S64_S1x64_1 : (⟨S64, .f32⟩ : BufTy).Contents (Elt F) → (⟨S1x64, .f32⟩ : BufTy).Contents (Elt F)),
    StableHlo.unary main_v111 main_v112 (broadcastInDim S50000x64 ![0, 1] bcast_S1x64_S50000x64_0_1 : (⟨S1x64, .f32⟩ : BufTy).Contents (Elt F) → (⟨S50000x64, .f32⟩ : BufTy).Contents (Elt F)),
    StableHlo.binary main_v110 main_v112 main_v113 (addf : (⟨S50000x64, .f32⟩ : BufTy).Contents (Elt F) → (⟨S50000x64, .f32⟩ : BufTy).Contents (Elt F) → (⟨S50000x64, .f32⟩ : BufTy).Contents (Elt F)) ]

/-- The buffers the stretch writes, in order. -/
abbrev sBias5_W : List (Ref sig .tc) := [main_v111, main_v112, main_v113]

theorem sBias5_aligned : LibHostRead.Aligned (sBias5 (F := F)) sBias5_W := by
  unfold sBias5; exact ⟨rfl, rfl, rfl, trivial⟩

theorem sBias5_sub : ∀ op ∈ (sBias5 : List (HloOp τ sig (Elt F))), op.bufs ⊆ tcRefs τ sig :=
  List.forall_iff_forall_mem.mp (by unfold sBias5; exact ⟨unary_bufs_sub .., unary_bufs_sub .., binary_bufs_sub ..⟩)

theorem sBias5_fresh : ∀ op ∈ (sBias5 : List (HloOp τ sig (Elt F))), op.fresh = ∅ :=
  List.forall_iff_forall_mem.mp (by unfold sBias5; exact ⟨rfl, rfl, rfl⟩)

/-- A buffer the stretch does not write keeps its contents. -/
theorem sBias5_frame (X : Valuation τ sig (Elt F)) (r : Ref sig .tc) (hr : r ∉ sBias5_W) :
    after sBias5 X (no_index (Proc.devRef .tc r)) = X (Proc.devRef .tc r) :=
  LibHostRead.after_of_not_written sBias5_aligned hr X

/-- The scaled exponential linear unit: 19 operations. -/
def sSelu5 : List (HloOp τ sig (Elt F)) :=
  [ StableHlo.TRef.nullary (.of main_call6_cst : StableHlo.TRef sig ⟨S_, .f32⟩) (constant S_ .f32 0x3FD62D7D#32),
    StableHlo.TRef.nullary (.of main_call6_call0_cst : StableHlo.TRef sig ⟨S_, .f32⟩) (constant S_ .f32 0x00000000#32),
    StableHlo.TRef.unary (.of main_call6_call0_cst : StableHlo.TRef sig ⟨S_, .f32⟩) (.of main_call6_call0_v0 : StableHlo.TRef sig ⟨S50000x64, .f32⟩) (broadcastInDim S50000x64 ![] bcast_S_S50000x64),
    StableHlo.TRef.binary (.of main_v113 : StableHlo.TRef sig ⟨S50000x64, .f32⟩) (.of main_call6_call0_v0 : StableHlo.TRef sig ⟨S50000x64, .f32⟩) (.of main_call6_call0_v1 : StableHlo.TRef sig ⟨S50000x64, .i1⟩) (cmpf .ogt),
    StableHlo.TRef.nullary (.of main_call6_call0_cst_0 : StableHlo.TRef sig ⟨S_, .f32⟩) (constant S_ .f32 0x00000000#32),
    StableHlo.TRef.unary (.of main_call6_call0_cst_0 : StableHlo.TRef sig ⟨S_, .f32⟩) (.of main_call6_call0_v2 : StableHlo.TRef sig ⟨S50000x64, .f32⟩) (broadcastInDim S50000x64 ![] bcast_S_S50000x64),
    StableHlo.TRef.binary (.of main_v113 : StableHlo.TRef sig ⟨S50000x64, .f32⟩) (.of main_call6_call0_v2 : StableHlo.TRef sig ⟨S50000x64, .f32⟩) (.of main_call6_call0_v3 : StableHlo.TRef sig ⟨S50000x64, .i1⟩) (cmpf .ogt),
    StableHlo.TRef.nullary (.of main_call6_call0_cst_1 : StableHlo.TRef sig ⟨S_, .f32⟩) (constant S_ .f32 0x00000000#32),
    StableHlo.TRef.unary (.of main_call6_call0_cst_1 : StableHlo.TRef sig ⟨S_, .f32⟩) (.of main_call6_call0_call0_v0 : StableHlo.TRef sig ⟨S_, .f32⟩) id,
    StableHlo.TRef.unary (.of main_call6_call0_call0_v0 : StableHlo.TRef sig ⟨S_, .f32⟩) (.of main_call6_call0_call0_v1 : StableHlo.TRef sig ⟨S50000x64, .f32⟩) (broadcastInDim S50000x64 ![] bcast_S_S50000x64),
    StableHlo.TRef.ternary (.of main_call6_call0_v3 : StableHlo.TRef sig ⟨S50000x64, .i1⟩) (.of main_call6_call0_call0_v1 : StableHlo.TRef sig ⟨S50000x64, .f32⟩) (.of main_v113 : StableHlo.TRef sig ⟨S50000x64, .f32⟩) (.of main_call6_call0_v4 : StableHlo.TRef sig ⟨S50000x64, .f32⟩) select,
    StableHlo.TRef.unary (.of main_call6_call0_v4 : StableHlo.TRef sig ⟨S50000x64, .f32⟩) (.of main_call6_call0_v5 : StableHlo.TRef sig ⟨S50000x64, .f32⟩) Host.expm1,
    StableHlo.TRef.unary (.of main_call6_cst : StableHlo.TRef sig ⟨S_, .f32⟩) (.of main_call6_call0_v6 : StableHlo.TRef sig ⟨S_, .f32⟩) id,
    StableHlo.TRef.unary (.of main_call6_call0_v6 : StableHlo.TRef sig ⟨S_, .f32⟩) (.of main_call6_call0_v7 : StableHlo.TRef sig ⟨S50000x64, .f32⟩) (broadcastInDim S50000x64 ![] bcast_S_S50000x64),
    StableHlo.TRef.binary (.of main_call6_call0_v7 : StableHlo.TRef sig ⟨S50000x64, .f32⟩) (.of main_call6_call0_v5 : StableHlo.TRef sig ⟨S50000x64, .f32⟩) (.of main_call6_call0_v8 : StableHlo.TRef sig ⟨S50000x64, .f32⟩) mulf,
    StableHlo.TRef.ternary (.of main_call6_call0_v1 : StableHlo.TRef sig ⟨S50000x64, .i1⟩) (.of main_v113 : StableHlo.TRef sig ⟨S50000x64, .f32⟩) (.of main_call6_call0_v8 : StableHlo.TRef sig ⟨S50000x64, .f32⟩) (.of main_call6_v0 : StableHlo.TRef sig ⟨S50000x64, .f32⟩) select,
    StableHlo.TRef.nullary (.of main_call6_cst_0 : StableHlo.TRef sig ⟨S_, .f32⟩) (constant S_ .f32 0x3F867D5F#32),
    StableHlo.TRef.unary (.of main_call6_cst_0 : StableHlo.TRef sig ⟨S_, .f32⟩) (.of main_call6_v1 : StableHlo.TRef sig ⟨S50000x64, .f32⟩) (broadcastInDim S50000x64 ![] bcast_S_S50000x64),
    StableHlo.TRef.binary (.of main_call6_v1 : StableHlo.TRef sig ⟨S50000x64, .f32⟩) (.of main_call6_v0 : StableHlo.TRef sig ⟨S50000x64, .f32⟩) (.of main_v114 : StableHlo.TRef sig ⟨S50000x64, .f32⟩) mulf ]

/-- The buffers the stretch writes, in order. -/
abbrev sSelu5_W : List (Ref sig .tc) := [main_call6_cst, main_call6_call0_cst, main_call6_call0_v0, main_call6_call0_v1, main_call6_call0_cst_0, main_call6_call0_v2, main_call6_call0_v3, main_call6_call0_cst_1, main_call6_call0_call0_v0, main_call6_call0_call0_v1, main_call6_call0_v4, main_call6_call0_v5, main_call6_call0_v6, main_call6_call0_v7, main_call6_call0_v8, main_call6_v0, main_call6_cst_0, main_call6_v1, main_v114]

theorem sSelu5_aligned : LibHostRead.Aligned (sSelu5 (F := F)) sSelu5_W := by
  unfold sSelu5; exact ⟨rfl, rfl, rfl, rfl, rfl, rfl, rfl, rfl, rfl, rfl, rfl, rfl, rfl, rfl, rfl, rfl, rfl, rfl, rfl, trivial⟩

theorem sSelu5_sub : ∀ op ∈ (sSelu5 : List (HloOp τ sig (Elt F))), op.bufs ⊆ tcRefs τ sig :=
  List.forall_iff_forall_mem.mp (by unfold sSelu5; exact ⟨nullary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., unary_bufs_sub .., binary_bufs_sub .., ternary_bufs_sub .., nullary_bufs_sub .., unary_bufs_sub .., binary_bufs_sub ..⟩)

theorem sSelu5_fresh : ∀ op ∈ (sSelu5 : List (HloOp τ sig (Elt F))), op.fresh = ∅ :=
  List.forall_iff_forall_mem.mp (by unfold sSelu5; exact ⟨rfl, rfl, rfl, rfl, rfl, rfl, rfl, rfl, rfl, rfl, rfl, rfl, rfl, rfl, rfl, rfl, rfl, rfl, rfl⟩)

/-- A buffer the stretch does not write keeps its contents. -/
theorem sSelu5_frame (X : Valuation τ sig (Elt F)) (r : Ref sig .tc) (hr : r ∉ sSelu5_W) :
    after sSelu5 X (no_index (Proc.devRef .tc r)) = X (Proc.devRef .tc r) :=
  LibHostRead.after_of_not_written sSelu5_aligned hr X

/-- A matrix product of the features by a layer's weights: 1 operation. -/
def sDot6 : List (HloOp τ sig (Elt F)) :=
  [ StableHlo.binary main_v114 main_arg13 main_v115 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ]

/-- The buffers the stretch writes, in order. -/
abbrev sDot6_W : List (Ref sig .tc) := [main_v115]

theorem sDot6_aligned : LibHostRead.Aligned (sDot6 (F := F)) sDot6_W := by
  unfold sDot6; exact ⟨rfl, trivial⟩

theorem sDot6_sub : ∀ op ∈ (sDot6 : List (HloOp τ sig (Elt F))), op.bufs ⊆ tcRefs τ sig :=
  List.forall_iff_forall_mem.mp (by unfold sDot6; exact binary_bufs_sub ..)

theorem sDot6_fresh : ∀ op ∈ (sDot6 : List (HloOp τ sig (Elt F))), op.fresh = ∅ :=
  List.forall_iff_forall_mem.mp (by unfold sDot6; exact rfl)

/-- A buffer the stretch does not write keeps its contents. -/
theorem sDot6_frame (X : Valuation τ sig (Elt F)) (r : Ref sig .tc) (hr : r ∉ sDot6_W) :
    after sDot6 X (no_index (Proc.devRef .tc r)) = X (Proc.devRef .tc r) :=
  LibHostRead.after_of_not_written sDot6_aligned hr X

/-- A bias laid as a row, repeated along the nodes, and added: 3 operations. -/
def sBias6 : List (HloOp τ sig (Elt F)) :=
  [ StableHlo.unary main_arg14 main_v116 (broadcastInDim S1x64 ![1] bcast_S64_S1x64_1 : (⟨S64, .f32⟩ : BufTy).Contents (Elt F) → (⟨S1x64, .f32⟩ : BufTy).Contents (Elt F)),
    StableHlo.unary main_v116 main_v117 (broadcastInDim S50000x64 ![0, 1] bcast_S1x64_S50000x64_0_1 : (⟨S1x64, .f32⟩ : BufTy).Contents (Elt F) → (⟨S50000x64, .f32⟩ : BufTy).Contents (Elt F)),
    StableHlo.binary main_v115 main_v117 main_v118 (addf : (⟨S50000x64, .f32⟩ : BufTy).Contents (Elt F) → (⟨S50000x64, .f32⟩ : BufTy).Contents (Elt F) → (⟨S50000x64, .f32⟩ : BufTy).Contents (Elt F)) ]

/-- The buffers the stretch writes, in order. -/
abbrev sBias6_W : List (Ref sig .tc) := [main_v116, main_v117, main_v118]

theorem sBias6_aligned : LibHostRead.Aligned (sBias6 (F := F)) sBias6_W := by
  unfold sBias6; exact ⟨rfl, rfl, rfl, trivial⟩

theorem sBias6_sub : ∀ op ∈ (sBias6 : List (HloOp τ sig (Elt F))), op.bufs ⊆ tcRefs τ sig :=
  List.forall_iff_forall_mem.mp (by unfold sBias6; exact ⟨unary_bufs_sub .., unary_bufs_sub .., binary_bufs_sub ..⟩)

theorem sBias6_fresh : ∀ op ∈ (sBias6 : List (HloOp τ sig (Elt F))), op.fresh = ∅ :=
  List.forall_iff_forall_mem.mp (by unfold sBias6; exact ⟨rfl, rfl, rfl⟩)

/-- A buffer the stretch does not write keeps its contents. -/
theorem sBias6_frame (X : Valuation τ sig (Elt F)) (r : Ref sig .tc) (hr : r ∉ sBias6_W) :
    after sBias6 X (no_index (Proc.devRef .tc r)) = X (Proc.devRef .tc r) :=
  LibHostRead.after_of_not_written sBias6_aligned hr X

/-- Window 0 of the program: its stretches in order. -/
def win0 : List (HloOp τ sig (Elt F)) := sDot1 ++ sAgg1 ++ sBias1

theorem win0_sub : ∀ op ∈ (win0 : List (HloOp τ sig (Elt F))), op.bufs ⊆ tcRefs τ sig :=
  forall_mem_append (forall_mem_append (sDot1_sub) sAgg1_sub) sBias1_sub

theorem win0_fresh : ∀ op ∈ (win0 : List (HloOp τ sig (Elt F))), op.fresh = ∅ :=
  forall_mem_append (forall_mem_append (sDot1_fresh) sAgg1_fresh) sBias1_fresh

set_option maxRecDepth 100000 in
/-- The window is the run of its operations in order. -/
theorem main_part0_eq (c : Dev nD) : main_part0 (F := F) c = seq win0 := by
  chain_rfl

/-- Window 1 of the program: its stretches in order. -/
def win1 : List (HloOp τ sig (Elt F)) := sSelu1 ++ sDot2 ++ sAgg2 ++ sBias2a

theorem win1_sub : ∀ op ∈ (win1 : List (HloOp τ sig (Elt F))), op.bufs ⊆ tcRefs τ sig :=
  forall_mem_append (forall_mem_append (forall_mem_append (sSelu1_sub) sDot2_sub) sAgg2_sub) sBias2a_sub

theorem win1_fresh : ∀ op ∈ (win1 : List (HloOp τ sig (Elt F))), op.fresh = ∅ :=
  forall_mem_append (forall_mem_append (forall_mem_append (sSelu1_fresh) sDot2_fresh) sAgg2_fresh) sBias2a_fresh

set_option maxRecDepth 100000 in
/-- The window is the run of its operations in order. -/
theorem main_part1_eq (c : Dev nD) : main_part1 (F := F) c = seq win1 := by
  chain_rfl

/-- Window 2 of the program: its stretches in order. -/
def win2 : List (HloOp τ sig (Elt F)) := sBias2b ++ sSelu2 ++ sDot3 ++ sBias3 ++ sSelu3 ++ sDot4 ++ sBias4 ++ sSelu4 ++ sDot5 ++ sBias5 ++ sSelu5 ++ sDot6 ++ sBias6

theorem win2_sub : ∀ op ∈ (win2 : List (HloOp τ sig (Elt F))), op.bufs ⊆ tcRefs τ sig :=
  forall_mem_append (forall_mem_append (forall_mem_append (forall_mem_append (forall_mem_append (forall_mem_append (forall_mem_append (forall_mem_append (forall_mem_append (forall_mem_append (forall_mem_append (forall_mem_append (sBias2b_sub) sSelu2_sub) sDot3_sub) sBias3_sub) sSelu3_sub) sDot4_sub) sBias4_sub) sSelu4_sub) sDot5_sub) sBias5_sub) sSelu5_sub) sDot6_sub) sBias6_sub

theorem win2_fresh : ∀ op ∈ (win2 : List (HloOp τ sig (Elt F))), op.fresh = ∅ :=
  forall_mem_append (forall_mem_append (forall_mem_append (forall_mem_append (forall_mem_append (forall_mem_append (forall_mem_append (forall_mem_append (forall_mem_append (forall_mem_append (forall_mem_append (forall_mem_append (sBias2b_fresh) sSelu2_fresh) sDot3_fresh) sBias3_fresh) sSelu3_fresh) sDot4_fresh) sBias4_fresh) sSelu4_fresh) sDot5_fresh) sBias5_fresh) sSelu5_fresh) sDot6_fresh) sBias6_fresh

set_option maxRecDepth 100000 in
/-- The window is the run of its operations in order. -/
theorem main_part2_eq (c : Dev nD) : main_part2 (F := F) c = seq win2 := by
  chain_rfl

/-- The program's operations, in order. -/
def ops : List (HloOp τ sig (Elt F)) := win0 ++ (win1 ++ win2)

theorem ops_sub : (ops : List (HloOp τ sig (Elt F))).Forall fun op => op.bufs ⊆ tcRefs τ sig :=
  List.forall_iff_forall_mem.mpr (forall_mem_append win0_sub (forall_mem_append win1_sub win2_sub))

theorem ops_fresh : ∀ op ∈ (ops : List (HloOp τ sig (Elt F))), op.fresh = ∅ :=
  forall_mem_append win0_fresh (forall_mem_append win1_fresh win2_fresh)

/-- The program is the run of its operations in order. -/
theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

/-- From any memory with zero counters every weakly fair execution of the program terminates, and every buffer ends at
    the fold of the operations over its launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

end Cert.ReferenceIdeal.RefRun

end
-- ==== Proof.RefTerms.lean ====
/-
  The reference's layers as functions of arrays, in the reference's own operations.

  The reference is one straight line of host operations. Read back, its result is the composition below: a host
  matrix product, the aggregation along the edges (Cert.Gcn.agg, the same function the kernel's glue computes), a
  bias broadcast along the rows and added, and jax's selu — elu's two selections around exp(x) − 1, scaled —, six
  times over. Nothing is proved here beyond the shape facts the aggregation needs; the definitions only NAME the
  pieces, so that what the run computes and what the pieces mean can be proved apart.
-/
import proofs.«159152_j79439715107025_1_alg».proof.Proof.Gen.ReferenceIdeal
import proofs.«159152_j79439715107025_1_alg».proof.Proof.GcnSpec

noncomputable section

namespace Cert.ReferenceIdeal.Terms

open Cert.ReferenceIdeal Cert.ReferenceIdeal.Facts₀ Idealize.ShloMosaic

variable {F : FTy → Type} [FloatOps F]

/-- The shape facts of the aggregation, from the reference's own. -/
theorem aggFacts : Cert.Gcn.AggFacts where
  sl0 := slices_S2x1600000_S1x1600000_0_0
  sl1 := slices_S2x1600000_S1x1600000_1_0
  sc := shapeCasts_S1x1600000_S1600000
  cat := concatenates_S1600000_S50000_S1650000_d0
  bN := bcast_S_S50000
  bEN1 := bcast_S1650000_S1650000x1_0
  bEN := bcast_S_S1650000
  bEN64 := bcast_S1650000x1_S1650000x64_0_1
  bN64 := bcast_S_S50000x64
  scat1 := scatter_S50000_S1650000x1_S1650000_n_0_0_1_wf
  gat1 := gather_S50000_S1650000x1_S1650000_n_0_n_n_0_1_1_wf
  gat2 := gather_S50000x64_S1650000x1_S1650000x64_1_0_n_n_0_1_164_wf
  scat2 := scatter_S50000x64_S1650000x1_S1650000x64_1_0_0_1_wf

/-- The first layer's host product, [50000, 512] by [512, 64]. -/
def hDot512 (x : FVec F S50000x512 .f32) (w : FVec F S512x64 .f32) : FVec F S50000x64 .f32 :=
  Host.dotGeneral dot_S50000x512_S512x64_S50000x64_1_0_0_1_n_n none x w

/-- The later layers' host product, [50000, 64] by [64, 64]. -/
def hDot64 (x : FVec F S50000x64 .f32) (w : FVec F S64x64 .f32) : FVec F S50000x64 .f32 :=
  Host.dotGeneral dot_S50000x64_S64x64_S50000x64_1_0_0_1_n_n none x w

/-- A bias vector laid as a row, repeated along the nodes, and added. -/
def hBias (y : FVec F S50000x64 .f32) (b : FVec F S64 .f32) : FVec F S50000x64 .f32 :=
  addf y (broadcastInDim S50000x64 ![0, 1] bcast_S1x64_S50000x64_0_1 (broadcastInDim S1x64 ![1] bcast_S64_S1x64_1 b))

/-- A scalar repeated over the [50000, 64] array. -/
abbrev splat (c : FVec F S_ .f32) : FVec F S50000x64 .f32 := broadcastInDim S50000x64 ![] bcast_S_S50000x64 c

/-- jax's selu: the scale times elu, where elu(x) keeps x where x > 0 and elsewhere takes alpha · expm1 of x with the
    positive entries first replaced by 0. -/
def hSelu (x : FVec F S50000x64 .f32) : FVec F S50000x64 .f32 :=
  mulf (splat (constant S_ .f32 0x3F867D5F#32))
    (select (cmpf .ogt x (splat (constant S_ .f32 0x00000000#32))) x
      (mulf (splat (id (constant S_ .f32 0x3FD62D7D#32)))
        (Host.expm1 (select (cmpf .ogt x (splat (constant S_ .f32 0x00000000#32)))
          (splat (id (constant S_ .f32 0x00000000#32))) x))))

/-- The reference's result as a function of its fifteen arguments. -/
def refNet (x : FVec F S50000x512 .f32) (ei : IVec S2x1600000 32) (ea : FVec F S1600000 .f32)
    (gW1 : FVec F S512x64 .f32) (gb1 : FVec F S64 .f32) (gW2 : FVec F S64x64 .f32) (gb2 : FVec F S64 .f32)
    (W0 : FVec F S64x64 .f32) (b0 : FVec F S64 .f32) (W1 : FVec F S64x64 .f32) (b1 : FVec F S64 .f32)
    (W2 : FVec F S64x64 .f32) (b2 : FVec F S64 .f32) (W3 : FVec F S64x64 .f32) (b3 : FVec F S64 .f32) :
    FVec F S50000x64 .f32 :=
  let h1 := hSelu (hBias (Cert.Gcn.agg aggFacts (hDot512 x gW1) ei ea) gb1)
  let h2 := hSelu (hBias (Cert.Gcn.agg aggFacts (hDot64 h1 gW2) ei ea) gb2)
  let h3 := hSelu (hBias (hDot64 h2 W0) b0)
  let h4 := hSelu (hBias (hDot64 h3 W1) b1)
  let h5 := hSelu (hBias (hDot64 h4 W2) b2)
  hBias (hDot64 h5 W3) b3

end Cert.ReferenceIdeal.Terms

end
-- ==== Proof.RefRun.lean ====
/-
  The run of the reference program, read back.

  Stretch by stretch: from ANY contents X of the buffers, after a stretch its result buffer holds the stretch's named
  function of X at the stretch's operand buffers (the matrix product, the aggregation, the bias, the scaled
  exponential linear unit), and a buffer the stretch does not write holds what it held. The whole line is the
  stretches one after the other, so the result buffer ends at the composition of the named functions over the
  launch contents of the fifteen arguments, and the arguments end as they started.
-/
import proofs.«159152_j79439715107025_1_alg».proof.Proof.RefRunOps
import proofs.«159152_j79439715107025_1_alg».proof.Proof.RefTerms

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- After the stretch, from any contents: its result is the named function of its operands. -/
theorem sDot1_out (X : Valuation τ sig (Elt F)) :
    after sDot1 X (no_index (Proc.devRef .tc main_v0)) = Terms.hDot512 (X (Proc.devRef .tc main_arg0)) (X (Proc.devRef .tc main_arg3)) := by
  unfold sDot1
  after_results_simp <;> rfl

/-- After the stretch, from any contents: its result is the named function of its operands. -/
theorem sAgg1_out (X : Valuation τ sig (Elt F)) :
    after sAgg1 X (no_index (Proc.devRef .tc main_v45)) = Cert.Gcn.agg Terms.aggFacts (X (Proc.devRef .tc main_v0)) (X (Proc.devRef .tc main_arg1)) (X (Proc.devRef .tc main_arg2)) := by
  unfold sAgg1
  after_results_simp <;> rfl

/-- After the stretch, from any contents: its result is the named function of its operands. -/
theorem sBias1_out (X : Valuation τ sig (Elt F)) :
    after sBias1 X (no_index (Proc.devRef .tc main_v48)) = Terms.hBias (X (Proc.devRef .tc main_v45)) (X (Proc.devRef .tc main_arg4)) := by
  unfold sBias1
  after_results_simp <;> rfl

/-- After the stretch, from any contents: its result is the named function of its operands. -/
theorem sSelu1_out (X : Valuation τ sig (Elt F)) :
    after sSelu1 X (no_index (Proc.devRef .tc main_v49)) = Terms.hSelu (X (Proc.devRef .tc main_v48)) := by
  unfold sSelu1
  after_results_simp <;> rfl

/-- After the stretch, from any contents: its result is the named function of its operands. -/
theorem sDot2_out (X : Valuation τ sig (Elt F)) :
    after sDot2 X (no_index (Proc.devRef .tc main_v50)) = Terms.hDot64 (X (Proc.devRef .tc main_v49)) (X (Proc.devRef .tc main_arg5)) := by
  unfold sDot2
  after_results_simp <;> rfl

/-- After the stretch, from any contents: its result is the named function of its operands. -/
theorem sAgg2_out (X : Valuation τ sig (Elt F)) :
    after sAgg2 X (no_index (Proc.devRef .tc main_v95)) = Cert.Gcn.agg Terms.aggFacts (X (Proc.devRef .tc main_v50)) (X (Proc.devRef .tc main_arg1)) (X (Proc.devRef .tc main_arg2)) := by
  unfold sAgg2
  after_results_simp <;> rfl

/-- After the stretch, from any contents: its result is the named function of its operands. -/
theorem sBias2a_out (X : Valuation τ sig (Elt F)) :
    after sBias2a X (no_index (Proc.devRef .tc main_v97)) = broadcastInDim S50000x64 ![0, 1] bcast_S1x64_S50000x64_0_1 (broadcastInDim S1x64 ![1] bcast_S64_S1x64_1 (X (Proc.devRef .tc main_arg6))) := by
  unfold sBias2a
  after_results_simp <;> rfl

/-- After the stretch, from any contents: its result is the named function of its operands. -/
theorem sBias2b_out (X : Valuation τ sig (Elt F)) :
    after sBias2b X (no_index (Proc.devRef .tc main_v98)) = addf (X (Proc.devRef .tc main_v95)) (X (Proc.devRef .tc main_v97)) := by
  unfold sBias2b
  after_results_simp <;> rfl

/-- After the stretch, from any contents: its result is the named function of its operands. -/
theorem sSelu2_out (X : Valuation τ sig (Elt F)) :
    after sSelu2 X (no_index (Proc.devRef .tc main_v99)) = Terms.hSelu (X (Proc.devRef .tc main_v98)) := by
  unfold sSelu2
  after_results_simp <;> rfl

/-- After the stretch, from any contents: its result is the named function of its operands. -/
theorem sDot3_out (X : Valuation τ sig (Elt F)) :
    after sDot3 X (no_index (Proc.devRef .tc main_v100)) = Terms.hDot64 (X (Proc.devRef .tc main_v99)) (X (Proc.devRef .tc main_arg7)) := by
  unfold sDot3
  after_results_simp <;> rfl

/-- After the stretch, from any contents: its result is the named function of its operands. -/
theorem sBias3_out (X : Valuation τ sig (Elt F)) :
    after sBias3 X (no_index (Proc.devRef .tc main_v103)) = Terms.hBias (X (Proc.devRef .tc main_v100)) (X (Proc.devRef .tc main_arg8)) := by
  unfold sBias3
  after_results_simp <;> rfl

/-- After the stretch, from any contents: its result is the named function of its operands. -/
theorem sSelu3_out (X : Valuation τ sig (Elt F)) :
    after sSelu3 X (no_index (Proc.devRef .tc main_v104)) = Terms.hSelu (X (Proc.devRef .tc main_v103)) := by
  unfold sSelu3
  after_results_simp <;> rfl

/-- After the stretch, from any contents: its result is the named function of its operands. -/
theorem sDot4_out (X : Valuation τ sig (Elt F)) :
    after sDot4 X (no_index (Proc.devRef .tc main_v105)) = Terms.hDot64 (X (Proc.devRef .tc main_v104)) (X (Proc.devRef .tc main_arg9)) := by
  unfold sDot4
  after_results_simp <;> rfl

/-- After the stretch, from any contents: its result is the named function of its operands. -/
theorem sBias4_out (X : Valuation τ sig (Elt F)) :
    after sBias4 X (no_index (Proc.devRef .tc main_v108)) = Terms.hBias (X (Proc.devRef .tc main_v105)) (X (Proc.devRef .tc main_arg10)) := by
  unfold sBias4
  after_results_simp <;> rfl

/-- After the stretch, from any contents: its result is the named function of its operands. -/
theorem sSelu4_out (X : Valuation τ sig (Elt F)) :
    after sSelu4 X (no_index (Proc.devRef .tc main_v109)) = Terms.hSelu (X (Proc.devRef .tc main_v108)) := by
  unfold sSelu4
  after_results_simp <;> rfl

/-- After the stretch, from any contents: its result is the named function of its operands. -/
theorem sDot5_out (X : Valuation τ sig (Elt F)) :
    after sDot5 X (no_index (Proc.devRef .tc main_v110)) = Terms.hDot64 (X (Proc.devRef .tc main_v109)) (X (Proc.devRef .tc main_arg11)) := by
  unfold sDot5
  after_results_simp <;> rfl

/-- After the stretch, from any contents: its result is the named function of its operands. -/
theorem sBias5_out (X : Valuation τ sig (Elt F)) :
    after sBias5 X (no_index (Proc.devRef .tc main_v113)) = Terms.hBias (X (Proc.devRef .tc main_v110)) (X (Proc.devRef .tc main_arg12)) := by
  unfold sBias5
  after_results_simp <;> rfl

/-- After the stretch, from any contents: its result is the named function of its operands. -/
theorem sSelu5_out (X : Valuation τ sig (Elt F)) :
    after sSelu5 X (no_index (Proc.devRef .tc main_v114)) = Terms.hSelu (X (Proc.devRef .tc main_v113)) := by
  unfold sSelu5
  after_results_simp <;> rfl

/-- After the stretch, from any contents: its result is the named function of its operands. -/
theorem sDot6_out (X : Valuation τ sig (Elt F)) :
    after sDot6 X (no_index (Proc.devRef .tc main_v115)) = Terms.hDot64 (X (Proc.devRef .tc main_v114)) (X (Proc.devRef .tc main_arg13)) := by
  unfold sDot6
  after_results_simp <;> rfl

/-- After the stretch, from any contents: its result is the named function of its operands. -/
theorem sBias6_out (X : Valuation τ sig (Elt F)) :
    after sBias6 X (no_index (Proc.devRef .tc main_v118)) = Terms.hBias (X (Proc.devRef .tc main_v115)) (X (Proc.devRef .tc main_arg14)) := by
  unfold sBias6
  after_results_simp <;> rfl

/-- A line run after another is their concatenation run as one. -/
theorem after_app (l₁ l₂ : List (HloOp τ sig (Elt F))) (V : Valuation τ sig (Elt F)) : after (l₁ ++ l₂) V = after l₂ (after l₁ V) :=
  LibHostRead.after_append l₁ l₂ V

set_option maxRecDepth 100000 in
/-- The result buffer after the whole line: the network's named composition at the arguments' contents. -/
theorem result (V : Valuation τ sig (Elt F)) :
    after ops V (Proc.devRef .tc main_v118)
      = Terms.refNet (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) := by
  simp (disch := decide) only [ops, win0, win1, win2, after_app, sDot1_out, sAgg1_out, sBias1_out, sSelu1_out, sDot2_out, sAgg2_out, sBias2a_out, sBias2b_out, sSelu2_out, sDot3_out, sBias3_out, sSelu3_out, sDot4_out, sBias4_out, sSelu4_out, sDot5_out, sBias5_out, sSelu5_out, sDot6_out, sBias6_out, sDot1_frame, sAgg1_frame, sBias1_frame, sSelu1_frame, sDot2_frame, sAgg2_frame, sBias2a_frame, sBias2b_frame, sSelu2_frame, sDot3_frame, sBias3_frame, sSelu3_frame, sDot4_frame, sBias4_frame, sSelu4_frame, sDot5_frame, sBias5_frame, sSelu5_frame, sDot6_frame, sBias6_frame]
  rfl

set_option maxRecDepth 100000 in
/-- No operation of the line writes an argument. -/
theorem args_kept (V : Valuation τ sig (Elt F)) :
    after ops V (Proc.devRef .tc main_arg0) = V (Proc.devRef .tc main_arg0)
    ∧ after ops V (Proc.devRef .tc main_arg1) = V (Proc.devRef .tc main_arg1)
    ∧ after ops V (Proc.devRef .tc main_arg2) = V (Proc.devRef .tc main_arg2)
    ∧ after ops V (Proc.devRef .tc main_arg3) = V (Proc.devRef .tc main_arg3)
    ∧ after ops V (Proc.devRef .tc main_arg4) = V (Proc.devRef .tc main_arg4)
    ∧ after ops V (Proc.devRef .tc main_arg5) = V (Proc.devRef .tc main_arg5)
    ∧ after ops V (Proc.devRef .tc main_arg6) = V (Proc.devRef .tc main_arg6)
    ∧ after ops V (Proc.devRef .tc main_arg7) = V (Proc.devRef .tc main_arg7)
    ∧ after ops V (Proc.devRef .tc main_arg8) = V (Proc.devRef .tc main_arg8)
    ∧ after ops V (Proc.devRef .tc main_arg9) = V (Proc.devRef .tc main_arg9)
    ∧ after ops V (Proc.devRef .tc main_arg10) = V (Proc.devRef .tc main_arg10)
    ∧ after ops V (Proc.devRef .tc main_arg11) = V (Proc.devRef .tc main_arg11)
    ∧ after ops V (Proc.devRef .tc main_arg12) = V (Proc.devRef .tc main_arg12)
    ∧ after ops V (Proc.devRef .tc main_arg13) = V (Proc.devRef .tc main_arg13)
    ∧ after ops V (Proc.devRef .tc main_arg14) = V (Proc.devRef .tc main_arg14) := by
  simp (disch := decide) only [ops, win0, win1, win2, after_app, sDot1_frame, sAgg1_frame, sBias1_frame, sSelu1_frame, sDot2_frame, sAgg2_frame, sBias2a_frame, sBias2b_frame, sSelu2_frame, sDot3_frame, sBias3_frame, sSelu3_frame, sDot4_frame, sBias4_frame, sSelu4_frame, sDot5_frame, sBias5_frame, sSelu5_frame, sDot6_frame, sBias6_frame, and_self]

/-- On every device, for any float values, from any memory with zero counters: every weakly fair execution of the
    program terminates with the result at the network's named composition of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v118) = Terms.refNet (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => by
      have hk := args_kept (launchContents m c)
      exact ⟨(h c main_v118).trans (result (launchContents m c)),
        (h c main_arg0).trans hk.1,
        (h c main_arg1).trans hk.2.1,
        (h c main_arg2).trans hk.2.2.1,
        (h c main_arg3).trans hk.2.2.2.1,
        (h c main_arg4).trans hk.2.2.2.2.1,
        (h c main_arg5).trans hk.2.2.2.2.2.1,
        (h c main_arg6).trans hk.2.2.2.2.2.2.1,
        (h c main_arg7).trans hk.2.2.2.2.2.2.2.1,
        (h c main_arg8).trans hk.2.2.2.2.2.2.2.2.1,
        (h c main_arg9).trans hk.2.2.2.2.2.2.2.2.2.1,
        (h c main_arg10).trans hk.2.2.2.2.2.2.2.2.2.2.1,
        (h c main_arg11).trans hk.2.2.2.2.2.2.2.2.2.2.2.1,
        (h c main_arg12).trans hk.2.2.2.2.2.2.2.2.2.2.2.2.1,
        (h c main_arg13).trans hk.2.2.2.2.2.2.2.2.2.2.2.2.2.1,
        (h c main_arg14).trans hk.2.2.2.2.2.2.2.2.2.2.2.2.2.2⟩)
    (run_after m ρ)

end Cert.ReferenceIdeal.RefRun

end
-- ==== Proof.LibHostDot.lean ====
/-
  A plain rows-by-columns matrix product computed by the host, read at coordinates, over the extended reals.

  The left operand is contracted on its columns and the right on its rows, with no batch axis. At (p, q) the product
  is the sum over the shared axis of the products of row p of the left operand and column q of the right: nothing
  is rounded and no order of summation is left in it.
-/
import proofs.«159152_j79439715107025_1_alg».proof.Proof.LibPlainMatmul

noncomputable section

namespace Cert.LibHostDot

open Idealize.ShloMosaic Idealize.ShloMosaic.ValueIdx Cert.LibPlainMatmul
open scoped BigOperators

/-- A plain m × k by k × n host product reads, at (p, q), the sum over the shared axis of the products of row p of the
    left operand and column q of the right. -/
theorem dotGeneral_plain {m k n : Nat}
    (wf : DotDims.WF (⟨2, ![m, k]⟩ : Shape) ⟨2, ![k, n]⟩ ⟨2, ![m, n]⟩ [1] [0] [0] [1] [] [])
    {φ₁ φ₂ : FTy} (sched : HostSchedule) (l : FVec Ideal ⟨2, ![m, k]⟩ φ₁) (r : FVec Ideal ⟨2, ![k, n]⟩ φ₂)
    (p : Fin m) (q : Fin n) :
    FloatOps.dotGeneral (plainDims wf) none sched l r (ix2 p q) = ∑ c : Fin k, l (ix2 p c) * r (ix2 c q) := by
  rw [Ideal.dotGeneral_apply, ← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_row wf _ _
      | ⟨1, _⟩ => exact ((plainDims wf).lhsIdx_val_of_single rfl _ _).trans hc)
  have er : (plainDims wf).rhsIdx (ix2 p q) ((contrEquiv1 (plainDims wf) k rfl rfl).symm c) = ix2 c q :=
    funext fun a => Fin.ext (by
      match a with
      | ⟨0, _⟩ => exact ((plainDims wf).rhsIdx_val_of_single rfl _ _).trans hc
      | ⟨1, _⟩ => exact plain_rhs_col wf _ _)
  rw [el, er]

end Cert.LibHostDot

end
-- ==== Proof.RefMeaning.lean ====
/-
  The reference's layers mean the specification, over the extended reals.

  Each named piece of the reference is read at an index: the host matrix product is the rows-by-columns sum, the bias
  broadcast along the nodes adds the bias of the entry's channel, and jax's selu — two selections on the one comparison
  x > 0 around exp(x) − 1 — is the specification's selu of the entry (where x > 0 both keep x; elsewhere the inner
  selection keeps x, so both are alpha · (exp x − 1)). Composed, the reference's result is the specification's network.
-/
import proofs.«159152_j79439715107025_1_alg».proof.Proof.RefTerms
import proofs.«159152_j79439715107025_1_alg».proof.Proof.LibHostDot
import Idealize.ShloMosaic.Lib.ValueIdx
import Idealize.ShloMosaic.Lib.ValueLayout
import Idealize.ShloMosaic.PureOps.Ideal.Laws

noncomputable section

namespace Cert.ReferenceIdeal.Meaning

open Cert.ReferenceIdeal Cert.ReferenceIdeal.Facts₀ Idealize.ShloMosaic Idealize.ShloMosaic.ValueIdx
open scoped BigOperators

/-! ## The matrix products -/

/-- The first layer's host product is the rows-by-columns sum. -/
theorem hDot512_eq (x : FVec Ideal S50000x512 .f32) (w : FVec Ideal S512x64 .f32) :
    Terms.hDot512 (F := Ideal) x w = Cert.Gcn.mm x w := by
  funext i
  obtain ⟨p, q, rfl⟩ : ∃ (p : Fin 50000) (q : Fin 64), i = ix2 p q := ⟨i 0, i 1, eq_ix2 i⟩
  exact Cert.LibHostDot.dotGeneral_plain _ .single x w p q

/-- The later layers' host product is the rows-by-columns sum. -/
theorem hDot64_eq (x : FVec Ideal S50000x64 .f32) (w : FVec Ideal S64x64 .f32) :
    Terms.hDot64 (F := Ideal) x w = Cert.Gcn.mm x w := by
  funext i
  obtain ⟨p, q, rfl⟩ : ∃ (p : Fin 50000) (q : Fin 64), i = ix2 p q := ⟨i 0, i 1, eq_ix2 i⟩
  exact Cert.LibHostDot.dotGeneral_plain _ .single x w p q

/-! ## The bias -/

/-- The bias laid as a row and repeated along the nodes reads, at an entry, the bias of the entry's channel. -/
theorem biasRows_apply (b : FVec Ideal S64 .f32) (i : S50000x64.Idx) :
    broadcastInDim S50000x64 ![0, 1] bcast_S1x64_S50000x64_0_1 (broadcastInDim S1x64 ![1] bcast_S64_S1x64_1 b) i
      = b (ix1 (i 1 : Fin 64)) := by
  refine (broadcastInDim_apply (s := S1x64) ![0, 1] bcast_S1x64_S50000x64_0_1 _ i (ix2 (0 : Fin 1) (i 1 : Fin 64))
    (fun a => ?_)).trans ?_
  · match a with
    | ⟨0, _⟩ => rfl
    | ⟨1, _⟩ => rfl
  · refine broadcastInDim_apply (s := S64) ![1] bcast_S64_S1x64_1 b _ (ix1 (i 1 : Fin 64)) (fun a => ?_)
    match a with
    | ⟨0, _⟩ => rfl

/-- The bias added: the entry plus the bias of its channel. -/
theorem hBias_apply (y : FVec Ideal S50000x64 .f32) (b : FVec Ideal S64 .f32) (i : S50000x64.Idx) :
    Terms.hBias (F := Ideal) y b i = y i + b (ix1 (i 1 : Fin 64)) := by
  show y i + _ = _
  rw [biasRows_apply]

/-! ## selu -/

/-- jax's selu at an entry is the specification's selu of the entry. -/
theorem hSelu_apply (x : FVec Ideal S50000x64 .f32) (i : S50000x64.Idx) :
    Terms.hSelu (F := Ideal) x i = Cert.Gcn.seluE (x i) := by
  show Ideal.ofBits .f32 0x3F867D5F#32 *
      Scalar.select (Ideal.cmp .ogt (x i) (Ideal.ofBits .f32 0x00000000#32)) (x i)
        (Ideal.ofBits .f32 0x3FD62D7D#32 *
          (Ideal.exp (Scalar.select (Ideal.cmp .ogt (x i) (Ideal.ofBits .f32 0x00000000#32))
            (Ideal.ofBits .f32 0x00000000#32) (x i)) - 1))
      = Cert.Gcn.seluE (x i)
  rw [Ideal.ofBits_zero_f32]
  unfold Cert.Gcn.seluE
  by_cases hb : Ideal.cmp .ogt (x i) 0 = 1#1
  · simp only [hb, select_one]
  · simp only [eq_zero_of_ne_one hb, select_zero]

/-! ## The layers -/

/-- Bias then selu is the specification's biasSelu. -/
theorem hSelu_hBias (a : FVec Ideal S50000x64 .f32) (b : FVec Ideal S64 .f32) :
    Terms.hSelu (F := Ideal) (Terms.hBias a b) = Cert.Gcn.biasSelu a b := by
  funext i
  rw [hSelu_apply, hBias_apply]
  rfl

/-- Product then bias is the specification's dense layer. -/
theorem hBias_hDot64 (h : FVec Ideal S50000x64 .f32) (w : FVec Ideal S64x64 .f32) (b : FVec Ideal S64 .f32) :
    Terms.hBias (F := Ideal) (Terms.hDot64 h w) b = Cert.Gcn.lin h w b := by
  funext i
  rw [hBias_apply, hDot64_eq]
  rfl

/-- Product, bias, selu is the specification's dense layer with selu. -/
theorem hSelu_hBias_hDot64 (h : FVec Ideal S50000x64 .f32) (w : FVec Ideal S64x64 .f32) (b : FVec Ideal S64 .f32) :
    Terms.hSelu (F := Ideal) (Terms.hBias (Terms.hDot64 h w) b) = Cert.Gcn.linSelu h w b := by
  funext i
  rw [hSelu_apply, hBias_hDot64]
  rfl

/-! ## The network -/

/-- The reference's result is the specification's network of its arguments. -/
theorem refNet_eq (x : FVec Ideal S50000x512 .f32) (ei : IVec S2x1600000 32) (ea : FVec Ideal S1600000 .f32)
    (gW1 : FVec Ideal S512x64 .f32) (gb1 : FVec Ideal S64 .f32) (gW2 : FVec Ideal S64x64 .f32) (gb2 : FVec Ideal S64 .f32)
    (W0 : FVec Ideal S64x64 .f32) (b0 : FVec Ideal S64 .f32) (W1 : FVec Ideal S64x64 .f32) (b1 : FVec Ideal S64 .f32)
    (W2 : FVec Ideal S64x64 .f32) (b2 : FVec Ideal S64 .f32) (W3 : FVec Ideal S64x64 .f32) (b3 : FVec Ideal S64 .f32) :
    Terms.refNet (F := Ideal) x ei ea gW1 gb1 gW2 gb2 W0 b0 W1 b1 W2 b2 W3 b3
      = Cert.Gcn.net Terms.aggFacts x ei ea gW1 gb1 gW2 gb2 W0 b0 W1 b1 W2 b2 W3 b3 := by
  unfold Terms.refNet Cert.Gcn.net
  simp only [hSelu_hBias_hDot64]
  simp only [hBias_hDot64]
  simp only [hSelu_hBias]
  simp only [hDot512_eq, hDot64_eq]

end Cert.ReferenceIdeal.Meaning

end
-- ==== Proof.lean ====
/-
  The certificate's five claims.

  The three frames: the word-level kernel and the idealized kernel run, terminate without a fault and leave their
  arguments unchanged (the generated frame certificates); the reference is one straight line of host operations, and
  its frame is its run with the result forgotten. The idealization rewrote nothing, so what it preserves is the
  empty conjunction. The value claim: at the exact instance the idealized kernel's result is the network
  Cert.Gcn.net of the launch contents of its fifteen arguments — each gridded region's output array is its layer of
  the array it reads, block by block, and the host glue between the regions is the aggregation along the edges —,
  the reference's result is the same network of its own arguments — each host product is the same sum over the
  shared axis, jax's selu the same function (exp x − 1 where x ≤ 0, x elsewhere, scaled), the aggregation the same
  line of operations —, and the two argument lists agree.
-/
import proofs.«159152_j79439715107025_1_alg».proof.Defs
import proofs.«159152_j79439715107025_1_alg».proof.Proof.Gen.Kernel
import proofs.«159152_j79439715107025_1_alg».proof.Proof.Gen.Kernel.Frame
import proofs.«159152_j79439715107025_1_alg».proof.Proof.Gen.KernelIdeal
import proofs.«159152_j79439715107025_1_alg».proof.Proof.Gen.KernelIdeal.Frame
import proofs.«159152_j79439715107025_1_alg».proof.Proof.Gen.ReferenceIdeal
import proofs.«159152_j79439715107025_1_alg».proof.Proof.Gen.Pre_finite_inputs
import proofs.«159152_j79439715107025_1_alg».proof.Proof.KernelRun
import proofs.«159152_j79439715107025_1_alg».proof.Proof.KernelValue
import proofs.«159152_j79439715107025_1_alg».proof.Proof.RefRun
import proofs.«159152_j79439715107025_1_alg».proof.Proof.RefMeaning
import Idealize.ShloMosaic.Adequacy
import Idealize.ShloMosaic.Init

noncomputable section

namespace Cert.Proof

open Idealize.ShloMosaic Idealize.SL.Sem

/-- The word-level kernel's frame: the generated frame certificate. -/
theorem frame_kernel : Cert.frame_Kernel := fun m ρ _ => Cert.Kernel.Gen.frame m ρ

/-- The idealized kernel's frame: the generated frame certificate. -/
theorem frame_kernelIdeal : Cert.frame_KernelIdeal := fun m ρ _ => Cert.KernelIdeal.Gen.frame m ρ

/-- The reference's frame: its run, the result forgotten. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization rewrote no operation: nothing to preserve. -/
theorem preserves : Cert.preserves_Kernel_KernelIdeal := trivial

/-- Both programs end at the network of their arguments, and the arguments agree. -/
theorem algebraic : Cert.algebraic_KernelIdeal_ReferenceIdeal := by
  intro m ρ m' ρ' _ hagree
  refine ⟨fun c => Cert.Gcn.net Cert.ReferenceIdeal.Terms.aggFacts
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))
    (m ((c.tc : Thread Cert.KernelIdeal.nD Cert.KernelIdeal.τ).loc Cert.KernelIdeal.main_arg12))
    (m ((c.tc : Thread Cert.KernelIdeal.nD Cert.KernelIdeal.τ).loc Cert.KernelIdeal.main_arg13))
    (m ((c.tc : Thread Cert.KernelIdeal.nD Cert.KernelIdeal.τ).loc Cert.KernelIdeal.main_arg14)), ?_, ?_⟩
  · exact (θ_run Cert.KernelIdeal.defs _ _).mono
      (fun _ h c => ⟨(h c).1.trans (Cert.KernelIdeal.Val.result_eq m ρ c Cert.ReferenceIdeal.Terms.aggFacts), (h c).2⟩)
      (Cert.KernelIdeal.Val.run_result (F := Ideal) m ρ)
  · refine (θ_run Cert.ReferenceIdeal.defs _ _).mono (fun _ h c => ⟨(h c).1.trans ?_, (h c).2⟩)
      (Cert.ReferenceIdeal.RefRun.run (F := Ideal) m' ρ')
    obtain ⟨e0, e1, e2, e3, e4, e5, e6, e7, e8, e9, e10, e11, e12, e13, e14⟩ := hagree c
    rw [Cert.ReferenceIdeal.Meaning.refNet_eq, e0, e1, e2, e3, e4, e5, e6, e7, e8, e9, e10, e11, e12, e13, e14]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
